-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S1024x512 : Shape := ⟨2, ![1024, 512]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x512 .f32) (main_arg1 : FVec F S1024x512 .f32) (main_arg2 : FVec F S3072x1024 .f32) (main_arg3 : FVec F S1024x1024 .f32) (main_arg4 : FVec F S1024 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x512 : Shape := ⟨3, ![4, 4096, 512]⟩
abbrev S1024x512 : Shape := ⟨2, ![1024, 512]⟩
abbrev S3072x1024 : Shape := ⟨2, ![3072, 1024]⟩
abbrev S1024x1024 : Shape := ⟨2, ![1024, 1024]⟩
abbrev S1024 : Shape := ⟨1, ![1024]⟩
abbrev S512x1024 : Shape := ⟨2, ![512, 1024]⟩
abbrev S1024x3072 : Shape := ⟨2, ![1024, 3072]⟩
abbrev S4x4096x1024 : Shape := ⟨3, ![4, 4096, 1024]⟩
abbrev S4x16x4096x64 : Shape := ⟨4, ![4, 16, 4096, 64]⟩
abbrev S1x512x512 : Shape := ⟨3, ![1, 512, 512]⟩
abbrev S1x512x1024 : Shape := ⟨3, ![1, 512, 1024]⟩
abbrev S1x16x512x64 : Shape := ⟨4, ![1, 16, 512, 64]⟩
abbrev S512x512 : Shape := ⟨2, ![512, 512]⟩
abbrev S512x3072 : Shape := ⟨2, ![512, 3072]⟩
abbrev S512x64 : Shape := ⟨2, ![512, 64]⟩
abbrev S1x1x512x64 : Shape := ⟨4, ![1, 1, 512, 64]⟩
abbrev S1x1x4096x64 : Shape := ⟨4, ![1, 1, 4096, 64]⟩
abbrev S4096x64 : Shape := ⟨2, ![4096, 64]⟩
abbrev S64x64 : Shape := ⟨2, ![64, 64]⟩
abbrev S64 : Shape := ⟨1, ![64]⟩
abbrev S1x64 : Shape := ⟨2, ![1, 64]⟩
abbrev S4096 : Shape := ⟨1, ![4096]⟩
abbrev S4096x1 : Shape := ⟨2, ![4096, 1]⟩
abbrev S16384x1024 : Shape := ⟨2, ![16384, 1024]⟩
abbrev S1x1024 : Shape := ⟨2, ![1, 1024]⟩
abbrev S512 : Shape := ⟨1, ![512]⟩
abbrev S512x1 : Shape := ⟨2, ![512, 1]⟩

abbrev nBuf : Space → Nat
  | .hbm => 22
  | .vmem => 28
  | .smem => 0
  | _ => 0

abbrev bufTy : (tb : Table) → Fin (tcTables nBuf tb) → BufTy
  | .hbm, ⟨0, _⟩ => ⟨S4x4096x512, .f32⟩
  | .hbm, ⟨1, _⟩ => ⟨S1024x512, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512x1024, .bf16⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .bf16⟩
  | .hbm, ⟨11, _⟩ => ⟨S4x4096x1024, .f32⟩
  | .hbm, ⟨12, _⟩ => ⟨S4x16x4096x64, .bf16⟩
  | .hbm, ⟨13, _⟩ => ⟨S4x16x4096x64, .bf16⟩
  | .hbm, ⟨14, _⟩ => ⟨S4x16x4096x64, .bf16⟩
  | .hbm, ⟨15, _⟩ => ⟨S4x16x4096x64, .bf16⟩
  | .hbm, ⟨16, _⟩ => ⟨S4x4096x1024, .bf16⟩
  | .hbm, ⟨17, _⟩ => ⟨S16384x1024, .bf16⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S4x4096x1024, .f32⟩
  | .local _ .vmem, ⟨0, _⟩ => ⟨S1x512x512, .f32⟩
  | .local _ .vmem, ⟨1, _⟩ => ⟨S1x512x512, .f32⟩
  | .local _ .vmem, ⟨2, _⟩ => ⟨S512x1024, .bf16⟩
  | .local _ .vmem, ⟨3, _⟩ => ⟨S1024x3072, .bf16⟩
  | .local _ .vmem, ⟨4, _⟩ => ⟨S1x512x1024, .f32⟩
  | .local _ .vmem, ⟨5, _⟩ => ⟨S1x512x1024, .f32⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x16x512x64, .bf16⟩
  | .local _ .vmem, ⟨11, _⟩ => ⟨S1x16x512x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S1x1x4096x64, .bf16⟩
  | .local _ .vmem, ⟨15, _⟩ => ⟨S1x1x4096x64, .bf16⟩
  | .local _ .vmem, ⟨16, _⟩ => ⟨S1x1x4096x64, .bf16⟩
  | .local _ .vmem, ⟨17, _⟩ => ⟨S1x1x4096x64, .bf16⟩
  | .local _ .vmem, ⟨18, _⟩ => ⟨S1x1x4096x64, .bf16⟩
  | .local _ .vmem, ⟨19, _⟩ => ⟨S1x1x4096x64, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S1024x512_S512x1024_1_0 : S1024x512.Transposes [1, 0] S512x1024
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x64 : S512x3072.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  slices_S512x3072_o0_1024_S512x64 : S512x3072.Slices ![0, 1024] S512x64
  slices_S512x3072_o0_2048_S512x64 : S512x3072.Slices ![0, 2048] S512x64
  slices_S512x3072_o0_64_S512x64 : S512x3072.Slices ![0, 64] S512x64
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  slices_S512x3072_o0_1088_S512x64 : S512x3072.Slices ![0, 1088] S512x64
  slices_S512x3072_o0_2112_S512x64 : S512x3072.Slices ![0, 2112] S512x64
  slices_S512x3072_o0_128_S512x64 : S512x3072.Slices ![0, 128] S512x64
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  slices_S512x3072_o0_1152_S512x64 : S512x3072.Slices ![0, 1152] S512x64
  slices_S512x3072_o0_2176_S512x64 : S512x3072.Slices ![0, 2176] S512x64
  slices_S512x3072_o0_192_S512x64 : S512x3072.Slices ![0, 192] S512x64
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  slices_S512x3072_o0_1216_S512x64 : S512x3072.Slices ![0, 1216] S512x64
  slices_S512x3072_o0_2240_S512x64 : S512x3072.Slices ![0, 2240] S512x64
  slices_S512x3072_o0_256_S512x64 : S512x3072.Slices ![0, 256] S512x64
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  slices_S512x3072_o0_1280_S512x64 : S512x3072.Slices ![0, 1280] S512x64
  slices_S512x3072_o0_2304_S512x64 : S512x3072.Slices ![0, 2304] S512x64
  slices_S512x3072_o0_320_S512x64 : S512x3072.Slices ![0, 320] S512x64
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  slices_S512x3072_o0_1344_S512x64 : S512x3072.Slices ![0, 1344] S512x64
  slices_S512x3072_o0_2368_S512x64 : S512x3072.Slices ![0, 2368] S512x64
  slices_S512x3072_o0_384_S512x64 : S512x3072.Slices ![0, 384] S512x64
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  slices_S512x3072_o0_1408_S512x64 : S512x3072.Slices ![0, 1408] S512x64
  slices_S512x3072_o0_2432_S512x64 : S512x3072.Slices ![0, 2432] S512x64
  slices_S512x3072_o0_448_S512x64 : S512x3072.Slices ![0, 448] S512x64
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  slices_S512x3072_o0_1472_S512x64 : S512x3072.Slices ![0, 1472] S512x64
  slices_S512x3072_o0_2496_S512x64 : S512x3072.Slices ![0, 2496] S512x64
  slices_S512x3072_o0_512_S512x64 : S512x3072.Slices ![0, 512] S512x64
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  slices_S512x3072_o0_1536_S512x64 : S512x3072.Slices ![0, 1536] S512x64
  slices_S512x3072_o0_2560_S512x64 : S512x3072.Slices ![0, 2560] S512x64
  slices_S512x3072_o0_576_S512x64 : S512x3072.Slices ![0, 576] S512x64
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  slices_S512x3072_o0_1600_S512x64 : S512x3072.Slices ![0, 1600] S512x64
  slices_S512x3072_o0_2624_S512x64 : S512x3072.Slices ![0, 2624] S512x64
  slices_S512x3072_o0_640_S512x64 : S512x3072.Slices ![0, 640] S512x64
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  slices_S512x3072_o0_1664_S512x64 : S512x3072.Slices ![0, 1664] S512x64
  slices_S512x3072_o0_2688_S512x64 : S512x3072.Slices ![0, 2688] S512x64
  slices_S512x3072_o0_704_S512x64 : S512x3072.Slices ![0, 704] S512x64
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  slices_S512x3072_o0_1728_S512x64 : S512x3072.Slices ![0, 1728] S512x64
  slices_S512x3072_o0_2752_S512x64 : S512x3072.Slices ![0, 2752] S512x64
  slices_S512x3072_o0_768_S512x64 : S512x3072.Slices ![0, 768] S512x64
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  slices_S512x3072_o0_1792_S512x64 : S512x3072.Slices ![0, 1792] S512x64
  slices_S512x3072_o0_2816_S512x64 : S512x3072.Slices ![0, 2816] S512x64
  slices_S512x3072_o0_832_S512x64 : S512x3072.Slices ![0, 832] S512x64
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  slices_S512x3072_o0_1856_S512x64 : S512x3072.Slices ![0, 1856] S512x64
  slices_S512x3072_o0_2880_S512x64 : S512x3072.Slices ![0, 2880] S512x64
  slices_S512x3072_o0_896_S512x64 : S512x3072.Slices ![0, 896] S512x64
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  slices_S512x3072_o0_1920_S512x64 : S512x3072.Slices ![0, 1920] S512x64
  slices_S512x3072_o0_2944_S512x64 : S512x3072.Slices ![0, 2944] S512x64
  slices_S512x3072_o0_960_S512x64 : S512x3072.Slices ![0, 960] S512x64
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  slices_S512x3072_o0_1984_S512x64 : S512x3072.Slices ![0, 1984] S512x64
  slices_S512x3072_o0_3008_S512x64 : S512x3072.Slices ![0, 3008] S512x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  reduces_S4096x64_S64 : S4096x64.Reduces [0] S64
  shapeCasts_S64_S1x64 : S64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  shapeCasts_S4096x64_S1x1x4096x64 : S4096x64.ShapeCasts S1x1x4096x64
  packedbf16_S1x1x4096x64_S1x1x4096x64_0_0_0_0 : (Rect.unit (s := S1x1x4096x64) ![0, 0, 0, 0] S1x1x4096x64.size inb_S1x1x4096x64_S1x1x4096x64_0_0_0_0).PackedRows (EltTy.packing .bf16)
  shapeCasts_S4x16x4096x64_S4x4096x1024 : S4x16x4096x64.ShapeCasts S4x4096x1024
  shapeCasts_S4x4096x1024_S16384x1024 : S4x4096x1024.ShapeCasts S16384x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S512x512_S512x1024_S512x1024_1_0_0_1_n_n_wf : DotDims.WF S512x512 S512x1024 S512x1024 [1] [0] [0] [1] [] []
  dot_S512x1024_S1024x3072_S512x3072_1_0_0_1_n_n_wf : DotDims.WF S512x1024 S1024x3072 S512x3072 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x512.size a
  hwx0_0 : ∀ i : grid0.Coords, EltTy.bits .f32 = 32 ∨ (Rect.block (s := S4x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x4096x1024.size a
  hwx0_3 : ∀ i : grid0.Coords, EltTy.bits .f32 = 32 ∨ (Rect.block (s := S4x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x4096x64.size a
  hwx0_4 : ∀ i : grid0.Coords, EltTy.bits .bf16 = 32 ∨ (Rect.block (s := S4x16x4096x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x4096x64.size a
  hwx0_5 : ∀ i : grid0.Coords, EltTy.bits .bf16 = 32 ∨ (Rect.block (s := S4x16x4096x64) S1x16x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x64.size a ≤ S4x16x4096x64.size a
  hwx0_6 : ∀ i : grid0.Coords, EltTy.bits .bf16 = 32 ∨ (Rect.block (s := S4x16x4096x64) S1x16x512x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S4x16x4096x64.size a
  hwx1_0 : ∀ i : grid1.Coords, EltTy.bits .bf16 = 32 ∨ (Rect.block (s := S4x16x4096x64) S1x1x4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096x64.size a ≤ S4x16x4096x64.size a
  hwx1_1 : ∀ i : grid1.Coords, EltTy.bits .bf16 = 32 ∨ (Rect.block (s := S4x16x4096x64) S1x1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S4x16x4096x64.size a
  hwx1_2 : ∀ i : grid1.Coords, EltTy.bits .bf16 = 32 ∨ (Rect.block (s := S4x16x4096x64) S1x1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096x64.size a ≤ S4x16x4096x64.size a
  hwx1_3 : ∀ i : grid1.Coords, EltTy.bits .bf16 = 32 ∨ (Rect.block (s := S4x16x4096x64) S1x1x4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S16384x1024.size a
  hwx2_2 : ∀ i : grid2.Coords, EltTy.bits .f32 = 32 ∨ (Rect.block (s := S16384x1024) S512x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S16384x1024.size a
  hwx2_4 : ∀ i : grid2.Coords, EltTy.bits .f32 = 32 ∨ (Rect.block (s := S16384x1024) S512x1024.size (cc2_transform_4 i) (hinb2_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S1x16x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_1) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_2) S1x1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_3) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x512 : Shape := ⟨3, ![4, 4096, 512]⟩
abbrev S1024x512 : Shape := ⟨2, ![1024, 512]⟩
abbrev S3072x1024 : Shape := ⟨2, ![3072, 1024]⟩
abbrev S1024x1024 : Shape := ⟨2, ![1024, 1024]⟩
abbrev S1024 : Shape := ⟨1, ![1024]⟩
abbrev S4x4096x1024 : Shape := ⟨3, ![4, 4096, 1024]⟩
abbrev S4x4096x3072 : Shape := ⟨3, ![4, 4096, 3072]⟩
abbrev S4x4096x3x16x64 : Shape := ⟨5, ![4, 4096, 3, 16, 64]⟩
abbrev S3x4x16x4096x64 : Shape := ⟨5, ![3, 4, 16, 4096, 64]⟩
abbrev S1x4x16x4096x64 : Shape := ⟨5, ![1, 4, 16, 4096, 64]⟩
abbrev S4x16x4096x64 : Shape := ⟨4, ![4, 16, 4096, 64]⟩
abbrev S_ : Shape := ⟨0, ![]⟩
abbrev S4x16x64x64 : Shape := ⟨4, ![4, 16, 64, 64]⟩
abbrev S4x16x64 : Shape := ⟨3, ![4, 16, 64]⟩
abbrev S4x16x1x64 : Shape := ⟨4, ![4, 16, 1, 64]⟩
abbrev S4x16x4096x1 : Shape := ⟨4, ![4, 16, 4096, 1]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1024x512, .f32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4x4096x1024, .f32⟩
  | .hbm, ⟨6, _⟩ => ⟨S4x4096x3072, .f32⟩
  | .hbm, ⟨7, _⟩ => ⟨S4x4096x3x16x64, .f32⟩
  | .hbm, ⟨8, _⟩ => ⟨S3x4x16x4096x64, .f32⟩
  | .hbm, ⟨9, _⟩ => ⟨S1x4x16x4096x64, .f32⟩
  | .hbm, ⟨10, _⟩ => ⟨S4x16x4096x64, .f32⟩
  | .hbm, ⟨11, _⟩ => ⟨S1x4x16x4096x64, .f32⟩
  | .hbm, ⟨12, _⟩ => ⟨S4x16x4096x64, .f32⟩
  | .hbm, ⟨13, _⟩ => ⟨S1x4x16x4096x64, .f32⟩
  | .hbm, ⟨14, _⟩ => ⟨S4x16x4096x64, .f32⟩
  | .hbm, ⟨15, _⟩ => ⟨S_, .f32⟩
  | .hbm, ⟨16, _⟩ => ⟨S4x16x4096x64, .f32⟩
  | .hbm, ⟨17, _⟩ => ⟨S4x16x4096x64, .i1⟩
  | .hbm, ⟨18, _⟩ => ⟨S_, .f32⟩
  | .hbm, ⟨19, _⟩ => ⟨S4x16x4096x64, .f32⟩
  | .hbm, ⟨20, _⟩ => ⟨S4x16x4096x64, .i1⟩
  | .hbm, ⟨21, _⟩ => ⟨S_, .f32⟩
  | .hbm, ⟨22, _⟩ => ⟨S_, .f32⟩
  | .hbm, ⟨23, _⟩ => ⟨S4x16x4096x64, .f32⟩
  | .hbm, ⟨24, _⟩ => ⟨S4x16x4096x64, .f32⟩
  | .hbm, ⟨25, _⟩ => ⟨S4x16x4096x64, .f32⟩
  | .hbm, ⟨26, _⟩ => ⟨S_, .f32⟩
  | .hbm, ⟨27, _⟩ => ⟨S4x16x4096x64, .f32⟩
  | .hbm, ⟨28, _⟩ => ⟨S4x16x4096x64, .f32⟩
  | .hbm, ⟨29, _⟩ => ⟨S4x16x4096x64, .f32⟩
  | .hbm, ⟨30, _⟩ => ⟨S_, .f32⟩
  | .hbm, ⟨31, _⟩ => ⟨S4x16x4096x64, .f32⟩
  | .hbm, ⟨32, _⟩ => ⟨S4x16x4096x64, .f32⟩
  | .hbm, ⟨33, _⟩ => ⟨S_, .f32⟩
  | .hbm, ⟨34, _⟩ => ⟨S4x16x4096x64, .f32⟩
  | .hbm, ⟨35, _⟩ => ⟨S4x16x4096x64, .i1⟩
  | .hbm, ⟨36, _⟩ => ⟨S_, .f32⟩
  | .hbm, ⟨37, _⟩ => ⟨S4x16x4096x64, .f32⟩
  | .hbm, ⟨38, _⟩ => ⟨S4x16x4096x64, .i1⟩
  | .hbm, ⟨39, _⟩ => ⟨S_, .f32⟩
  | .hbm, ⟨40, _⟩ => ⟨S_, .f32⟩
  | .hbm, ⟨41, _⟩ => ⟨S4x16x4096x64, .f32⟩
  | .hbm, ⟨42, _⟩ => ⟨S4x16x4096x64, .f32⟩
  | .hbm, ⟨43, _⟩ => ⟨S4x16x4096x64, .f32⟩
  | .hbm, ⟨44, _⟩ => ⟨S_, .f32⟩
  | .hbm, ⟨45, _⟩ => ⟨S4x16x4096x64, .f32⟩
  | .hbm, ⟨46, _⟩ => ⟨S4x16x4096x64, .f32⟩
  | .hbm, ⟨47, _⟩ => ⟨S4x16x4096x64, .f32⟩
  | .hbm, ⟨48, _⟩ => ⟨S_, .f32⟩
  | .hbm, ⟨49, _⟩ => ⟨S4x16x4096x64, .f32⟩
  | .hbm, ⟨50, _⟩ => ⟨S4x16x4096x64, .f32⟩
  | .hbm, ⟨51, _⟩ => ⟨S4x16x64x64, .f32⟩
  | .hbm, ⟨52, _⟩ => ⟨S4x16x4096x64, .f32⟩
  | .hbm, ⟨53, _⟩ => ⟨S_, .f32⟩
  | .hbm, ⟨54, _⟩ => ⟨S4x16x64, .f32⟩
  | .hbm, ⟨55, _⟩ => ⟨S4x16x1x64, .f32⟩
  | .hbm, ⟨56, _⟩ => ⟨S4x16x4096x1, .f32⟩
  | .hbm, ⟨57, _⟩ => ⟨S_, .f32⟩
  | .hbm, ⟨58, _⟩ => ⟨S4x16x4096x1, .f32⟩
  | .hbm, ⟨59, _⟩ => ⟨S4x16x4096x1, .f32⟩
  | .hbm, ⟨60, _⟩ => ⟨S4x16x4096x64, .f32⟩
  | .hbm, ⟨61, _⟩ => ⟨S4x16x4096x64, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v13 : Ref sig .tc := ⟨.hbm, 47, rfl⟩
abbrev main_cst_0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_cst_4 : Ref sig .tc := ⟨.hbm, 69, rfl⟩
abbrev main_v31 : Ref sig .tc := ⟨.hbm, 70, rfl⟩
abbrev main_v32 : Ref sig .tc := ⟨.hbm, 71, rfl⟩
abbrev main_cst_5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩

abbrev nD : Nat := 1
abbrev τ : Topo := Topo.v7x

variable {F : FTy → Type} [FloatOps F]

class Facts₀ : Prop where
  shapeCasts_S4x4096x3072_S4x4096x3x16x64 : S4x4096x3072.ShapeCasts S4x4096x3x16x64
  transposes_S4x4096x3x16x64_S3x4x16x4096x64_2_0_3_1_4 : S4x4096x3x16x64.Transposes [2, 0, 3, 1, 4] S3x4x16x4096x64
  slices_S3x4x16x4096x64_S1x4x16x4096x64_0_0_0_0_0 : S3x4x16x4096x64.Slices ![0, 0, 0, 0, 0] S1x4x16x4096x64
  shapeCasts_S1x4x16x4096x64_S4x16x4096x64 : S1x4x16x4096x64.ShapeCasts S4x16x4096x64
  slices_S3x4x16x4096x64_S1x4x16x4096x64_1_0_0_0_0 : S3x4x16x4096x64.Slices ![1, 0, 0, 0, 0] S1x4x16x4096x64
  slices_S3x4x16x4096x64_S1x4x16x4096x64_2_0_0_0_0 : S3x4x16x4096x64.Slices ![2, 0, 0, 0, 0] S1x4x16x4096x64
  bcast_S_S4x16x4096x64 : S_.BroadcastsInDim S4x16x4096x64 (![] : Fin 0 → Fin S4x16x4096x64.rank)
  reducesTo_S4x16x4096x64_S4x16x64_d2 : S4x16x4096x64.ReducesTo [2] S4x16x64
  h_S_ : 0 < S_.numel
  bcast_S4x16x64_S4x16x1x64_0_1_3 : S4x16x64.BroadcastsInDim S4x16x1x64 (![0, 1, 3] : Fin 3 → Fin S4x16x1x64.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  shapeCasts_S4x16x4096x64_S4x4096x1024 : S4x16x4096x64.ShapeCasts S4x4096x1024
  reducesTo_S4x4096x1024_S4x4096_d2 : S4x4096x1024.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x512_S1024x512_S4x4096x1024_2_1_01_0_n_n_wf : DotDims.WF S4x4096x512 S1024x512 S4x4096x1024 [2] [1] [0, 1] [0] [] []
  dot_S4x4096x1024_S3072x1024_S4x4096x3072_2_1_01_0_n_n_wf : DotDims.WF S4x4096x1024 S3072x1024 S4x4096x3072 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x16x4096x64_S4x16x1x64_S4x16x4096x1_3_3_2_2_01_01_wf : DotDims.WF S4x16x4096x64 S4x16x1x64 S4x16x4096x1 [3] [3] [2] [2] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x512_S1024x512_S4x4096x1024_2_1_01_0_n_n : DotDims S4x4096x512 S1024x512 S4x4096x1024 where
  lhsContracting := [2]
  rhsContracting := [1]
  lhsNonContracting := [0, 1]
  rhsNonContracting := [0]
  lhsBatch := []
  rhsBatch := []
  wf := dot_S4x4096x512_S1024x512_S4x4096x1024_2_1_01_0_n_n_wf
def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x16x4096x64_S4x16x1x64_S4x16x4096x1_3_3_2_2_01_01 : DotDims S4x16x4096x64 S4x16x1x64 S4x16x4096x1 where
  lhsContracting := [3]
  rhsContracting := [3]
  lhsNonContracting := [2]
  rhsNonContracting := [2]
  lhsBatch := [0, 1]
  rhsBatch := [0, 1]
  wf := dot_S4x16x4096x64_S4x16x1x64_S4x16x4096x1_3_3_2_2_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The mathematics both programs compute, stated once over the extended reals, index by index.

  Linear attention with the feature map  phi z = elu z + 1  (z + 1 above zero, exp z elsewhere):
    * the input projection  XP[b,l,d] = sum_i x[b,l,i] * w1[i,d],
    * the fused projection  QKV[b,l,e] = sum_d XP[b,l,d] * w3[d,e], whose column  j*1024 + h*64 + d  is feature d of
      head h of the queries (j = 0), keys (j = 1), values (j = 2),
    * per batch b and head h:  KV[d,m] = sum_l phi(K[l,d]) * V[l,m],  KS[d] = sum_l phi(K[l,d]),
      ATT[l,m] = (sum_d phi(Q[l,d]) * KV[d,m]) / (sum_d phi(Q[l,d]) * KS[d] + eps),
    * the output projection with the residual and the root-mean-square normalisation of each row:
      Y[r,e] = sum_k A[r,k] * w[k,e] + RES[r,e],   OUT[r,e] = Y[r,e] * rsqrt(mean_e' Y[r,e']^2 + eps') * nw[e].
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev T2 (a b : Nat) := (⟨2, ![a, b]⟩ : Shape).Idx → EReal
abbrev T3 (a b c : Nat) := (⟨3, ![a, b, c]⟩ : Shape).Idx → EReal
abbrev T4 (a b c d : Nat) := (⟨4, ![a, b, c, d]⟩ : Shape).Idx → EReal

/-- The feature map  elu z + 1:  z + 1  where  z > 0,  exp z  elsewhere (the two constants are the words of 0 and 1). -/
def phi (z : EReal) : EReal :=
  Scalar.select (Ideal.cmp .ogt z (Ideal.ofBits .f32 0x00000000#32)) (z + Ideal.ofBits .f32 0x3F800000#32) (Ideal.exp z)

/-! ## The two projections -/

/-- Row (b, l) of the input against column d of the first weight (512 x 1024: the input weight transposed). -/
def xprojC (x : T3 4 4096 512) (w1 : T2 512 1024) (b : Fin 4) (l : Fin 4096) (d : Fin 1024) : EReal :=
  ∑ k : Fin 512, x (ix3 b l k) * w1 (ix2 k d)

def xproj (x : T3 4 4096 512) (w1 : T2 512 1024) : T3 4 4096 1024 := fun i => xprojC x w1 (i 0) (i 1) (i 2)

/-- Row (b, l) of the projected input against column e of the second weight (1024 x 3072). -/
def qkvC (x : T3 4 4096 512) (w1 : T2 512 1024) (w3 : T2 1024 3072) (b : Fin 4) (l : Fin 4096) (e : Fin 3072) : EReal :=
  ∑ d : Fin 1024, xprojC x w1 b l d * w3 (ix2 d e)

/-- Feature d of head h of part j (queries, keys, values) is column  j*1024 + h*64 + d. -/
def col (j : Fin 3) (h : Fin 16) (d : Fin 64) : Fin 3072 :=
  ⟨j.val * 1024 + h.val * 64 + d.val, by have := j.isLt; have := h.isLt; have := d.isLt; omega⟩

/-- Part j laid out as (batch, head, position, feature). -/
def part (j : Fin 3) (x : T3 4 4096 512) (w1 : T2 512 1024) (w3 : T2 1024 3072) : T4 4 16 4096 64 :=
  fun i => qkvC x w1 w3 (i 0) (i 2) (col j (i 1) (i 3))

/-! ## Linear attention of one (batch, head) -/

def kvC (k v : T4 4 16 4096 64) (b : Fin 4) (h : Fin 16) (d m : Fin 64) : EReal :=
  ∑ l : Fin 4096, phi (k (ix4 b h l d)) * v (ix4 b h l m)

def ksumC (k : T4 4 16 4096 64) (b : Fin 4) (h : Fin 16) (d : Fin 64) : EReal :=
  ∑ l : Fin 4096, phi (k (ix4 b h l d))

def attnC (q k v : T4 4 16 4096 64) (b : Fin 4) (h : Fin 16) (l : Fin 4096) (m : Fin 64) : EReal :=
  Ideal.div (∑ d : Fin 64, phi (q (ix4 b h l d)) * kvC k v b h d m)
    ((∑ d : Fin 64, phi (q (ix4 b h l d)) * ksumC k b h d) + Ideal.ofBits .f32 0x322BCC77#32)

def attn (q k v : T4 4 16 4096 64) : T4 4 16 4096 64 := fun i => attnC q k v (i 0) (i 1) (i 2) (i 3)

/-! ## Output projection, residual, root-mean-square normalisation -/

def yC (a : T2 16384 1024) (w : T2 1024 1024) (res : T2 16384 1024) (r : Fin 16384) (e : Fin 1024) : EReal :=
  (∑ k : Fin 1024, a (ix2 r k) * w (ix2 k e)) + res (ix2 r e)

def finC (a : T2 16384 1024) (w : T2 1024 1024) (res : T2 16384 1024) (nw : T2 1 1024) (r : Fin 16384) (e : Fin 1024) : EReal :=
  yC a w res r e
    * Ideal.rsqrt (Ideal.div (∑ e' : Fin 1024, yC a w res r e' * yC a w res r e') (Ideal.ofBits .f32 0x44800000#32)
        + Ideal.ofBits .f32 0x34000000#32)
    * nw (ix2 0 e)

def fin (a : T2 16384 1024) (w : T2 1024 1024) (res : T2 16384 1024) (nw : T2 1 1024) : T2 16384 1024 :=
  fun i => finC a w res nw (i 0) (i 1)

end Cert.Spec

end
-- ==== Proof.Proj.lean ====
/-
  What the first fused kernel leaves in its four output arrays, each as ONE function of the arrays it reads.

  At every point of its 4 x 8 grid (batch b, row tile of 512 rows) the body multiplies its 512 x 512 tile of the input
  by the first weight (512 x 1024) into a zero accumulator — the projected tile, stored whole —, multiplies that by the
  second weight (1024 x 3072) into a zero accumulator, and stores the product's 48 column slices of width 64, one per
  (part, head), into the queries', keys' and values' blocks. Over the extended reals the float-format changes are the
  identity, so:
    * the projected input is  XP[b,l,d] = sum_i x[b,l,i] * w1[i,d];
    * part j (queries, keys, values) at (b, h, l, d) is  sum_e XP[b,l,e] * w3[e, j*1024 + h*64 + d].
  First the body's arithmetic at an index; then the sixteen slice stores of a block read back as one function; then
  each block placed in its array and the blocks' cover of the array.
-/
import proofs.«124907_j60988535603899_2_alg».proof.Proof.Gen.KernelIdeal.Frame
import proofs.«124907_j60988535603899_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Proj

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic, read at an index

The body multiplies its 512 x 512 tile of the input by the first weight (512 x 1024) into a zero accumulator, and
that product by the second weight (1024 x 3072) into a zero accumulator. Over the extended reals a change of float
format is the identity, so each product read at an entry is the plain sum over the contracted coordinate. -/

/-- A 512 x 512 tile times a 512 x 1024 matrix into the zero accumulator, at entry (r, e): the sum over the contracted coordinate. -/
theorem tile_times_w1 (A : FVec Ideal S512x512 .bf16) (B : FVec Ideal S512x1024 .bf16) (r : Fin 512) (e : Fin 1024) :
    matmul dot_S512x512_S512x1024_S512x1024_1_0_0_1_n_n none A B (constant S512x1024 .f32 0x00000000#32) (ix2 r e)
      = ∑ k : Fin 512, A (ix2 r k) * B (ix2 k e) := by
  show FloatOps.matmul _ none A B _ (ix2 r e) = _
  rw [Ideal.matmul_constant_zero_apply,
    ← Equiv.sum_comp (contrEquiv1 dot_S512x512_S512x1024_S512x1024_1_0_0_1_n_n 512 rfl rfl).symm]
  refine Finset.sum_congr rfl fun k _ => ?_
  have c2 := contrEquiv1_symm_val dot_S512x512_S512x1024_S512x1024_1_0_0_1_n_n 512 rfl rfl k
  have l2 : dot_S512x512_S512x1024_S512x1024_1_0_0_1_n_n.lhsIdx (ix2 r e) ((contrEquiv1 _ 512 rfl rfl).symm k) = ix2 r k := by
    funext ax; apply Fin.ext
    match ax with
    | ⟨0, _⟩ => simp [DotDims.lhsIdx, dot_S512x512_S512x1024_S512x1024_1_0_0_1_n_n]; rfl
    | ⟨1, _⟩ => simp [DotDims.lhsIdx, dot_S512x512_S512x1024_S512x1024_1_0_0_1_n_n]; exact c2
  have r2 : dot_S512x512_S512x1024_S512x1024_1_0_0_1_n_n.rhsIdx (ix2 r e) ((contrEquiv1 _ 512 rfl rfl).symm k) = ix2 k e := by
    funext ax; apply Fin.ext
    match ax with
    | ⟨0, _⟩ => simp [DotDims.rhsIdx, dot_S512x512_S512x1024_S512x1024_1_0_0_1_n_n]; exact c2
    | ⟨1, _⟩ => simp [DotDims.rhsIdx, dot_S512x512_S512x1024_S512x1024_1_0_0_1_n_n]; rfl
  rw [l2, r2]

/-- A 512 x 1024 block times a 1024 x 3072 matrix into the zero accumulator, at entry (r, e): the sum over the contracted coordinate. -/
theorem rows_times_w3 (A : FVec Ideal S512x1024 .bf16) (B : FVec Ideal S1024x3072 .bf16) (r : Fin 512) (e : Fin 3072) :
    matmul dot_S512x1024_S1024x3072_S512x3072_1_0_0_1_n_n none A B (constant S512x3072 .f32 0x00000000#32) (ix2 r e)
      = ∑ k : Fin 1024, A (ix2 r k) * B (ix2 k e) := by
  show FloatOps.matmul _ none A B _ (ix2 r e) = _
  rw [Ideal.matmul_constant_zero_apply,
    ← Equiv.sum_comp (contrEquiv1 dot_S512x1024_S1024x3072_S512x3072_1_0_0_1_n_n 1024 rfl rfl).symm]
  refine Finset.sum_congr rfl fun k _ => ?_
  have c2 := contrEquiv1_symm_val dot_S512x1024_S1024x3072_S512x3072_1_0_0_1_n_n 1024 rfl rfl k
  have l2 : dot_S512x1024_S1024x3072_S512x3072_1_0_0_1_n_n.lhsIdx (ix2 r e) ((contrEquiv1 _ 1024 rfl rfl).symm k) = ix2 r k := by
    funext ax; apply Fin.ext
    match ax with
    | ⟨0, _⟩ => simp [DotDims.lhsIdx, dot_S512x1024_S1024x3072_S512x3072_1_0_0_1_n_n]; rfl
    | ⟨1, _⟩ => simp [DotDims.lhsIdx, dot_S512x1024_S1024x3072_S512x3072_1_0_0_1_n_n]; exact c2
  have r2 : dot_S512x1024_S1024x3072_S512x3072_1_0_0_1_n_n.rhsIdx (ix2 r e) ((contrEquiv1 _ 1024 rfl rfl).symm k) = ix2 k e := by
    funext ax; apply Fin.ext
    match ax with
    | ⟨0, _⟩ => simp [DotDims.rhsIdx, dot_S512x1024_S1024x3072_S512x3072_1_0_0_1_n_n]; exact c2
    | ⟨1, _⟩ => simp [DotDims.rhsIdx, dot_S512x1024_S1024x3072_S512x3072_1_0_0_1_n_n]; rfl
  rw [l2, r2]

/-- The projected tile at row r and feature d: the tile's row r against column d of the first weight. -/
theorem projTile_apply (x0 : Vec Ideal S1x512x512 .f32) (x1 : Vec Ideal S512x1024 .bf16) (r : Fin 512) (d : Fin 1024) :
    k0_pay6 x0 x1 (ix2 r d) = ∑ k : Fin 512, x0 (ix3 (0 : Fin 1) r k) * x1 (ix2 k d) := by
  unfold k0_pay6
  refine (tile_times_w1 _ _ r d).trans ?_
  refine Finset.sum_congr rfl fun k _ => ?_
  rw [truncf_apply, shapeCast_1ab_ab_apply, shapeCast_self]

/-- What is stored to the projected-input block, at (·, r, d): the projected tile there. -/
theorem projStore_apply (x0 : Vec Ideal S1x512x512 .f32) (x1 : Vec Ideal S512x1024 .bf16) (u : Fin 1) (r : Fin 512) (d : Fin 1024) :
    k0_pay7 x0 x1 (ix3 u r d) = k0_pay6 x0 x1 (ix2 r d) := by
  unfold k0_pay7
  exact shapeCast_ab_1ab_apply _ _ u r d

/-- The fused product at row r and column e: the projected tile's row r against column e of the second weight. -/
theorem fused_apply (x0 : Vec Ideal S1x512x512 .f32) (x1 : Vec Ideal S512x1024 .bf16) (x2 : Vec Ideal S1024x3072 .bf16)
    (r : Fin 512) (e : Fin 3072) :
    k0_pay8 x0 x1 x2 (ix2 r e) = ∑ d : Fin 1024, k0_pay6 x0 x1 (ix2 r d) * x2 (ix2 d e) := by
  unfold k0_pay8
  rw [truncf_apply]
  refine (rows_times_w3 _ _ r e).trans ?_
  refine Finset.sum_congr rfl fun d _ => ?_
  rw [truncf_apply, shapeCast_self]

/-! ## A head's slice, and the sixteen slice stores as one function

Each of the three four-dimensional output blocks is written by sixteen stores, one per head: head h's store is the
512 x 64 column slice of the fused product starting at column  o + 64 h  (o = 0, 1024, 2048 for the three
blocks), viewed as a 1 x 1 x 512 x 64 block and placed at head h. Read back, the block is one function of the
fused product: entry (·, h, r, d) is entry (r, o + 64 h + d). -/

/-- The 512 x 64 column slice from column o, viewed as a 1 x 1 x 512 x 64 block. -/
def slab (o : Nat) (h : S512x3072.Slices ![0, o] S512x64) (v : FVec Ideal S512x3072 .bf16) : FVec Ideal S1x1x512x64 .bf16 :=
  shapeCast S1x1x512x64 (extractStridedSlice S512x64 ![0, o] v h) shapeCasts_S512x64_S1x1x512x64

/-- Entry (·, ·, r, d) of the slice from column o is entry (r, o + d). -/
theorem slab_apply (o : Nat) (h : S512x3072.Slices ![0, o] S512x64) (v : FVec Ideal S512x3072 .bf16)
    (u u' : Fin 1) (r : Fin 512) (d : Fin 64) (k : Fin 3072) (hk : k.val = o + d.val) :
    slab o h v (ix4 u u' r d) = v (ix2 r k) := by
  unfold slab
  refine (shapeCast_apply _ _ (ix4 u u' r d) (ix2 r d) ?_).trans (slice2_axis1_apply o v h r d k hk)
  rw [Shape.rowMajor_val_two, Shape.rowMajor_val_four]
  show r.val * 64 + d.val = ((u.val * 1 + u'.val) * 512 + r.val) * 64 + d.val
  have := u.isLt; have := u'.isLt
  omega

/-- The fused product laid out by head from column o: entry (·, h, r, d) is entry (r, o + 64 h + d). -/
def heads (o : Nat) (ho : o + 1024 ≤ 3072) (v : FVec Ideal S512x3072 .bf16) : Vec Ideal S1x16x512x64 .bf16 :=
  fun y => v (ix2 (⟨(y 2).val, (y 2).isLt⟩ : Fin 512)
    (⟨o + 64 * (y 1).val + (y 3).val, by
      have h1 : (y 1).val < 16 := (y 1).isLt
      have h3 : (y 3).val < 64 := (y 3).isLt
      omega⟩ : Fin 3072))

/-- Head h's store is the piece of `heads` under its rectangle. -/
theorem slab_piece (o : Nat) (ho : o + 1024 ≤ 3072) (v : FVec Ideal S512x3072 .bf16) (h : Nat) (hh : h < 16)
    (oh : Nat) (hoh : oh = o + 64 * h) (hs : S512x3072.Slices ![0, oh] S512x64)
    (inb : ∀ a, (![0, h, 0, 0] : Fin 4 → Nat) a + S1x1x512x64.size a ≤ S1x16x512x64.size a)
    (x : S1x1x512x64.Idx) :
    slab oh hs v x = heads o ho v ((Rect.unit (s := S1x16x512x64) ![0, h, 0, 0] S1x1x512x64.size inb).emb x) := by
  obtain ⟨u, u', r, d, rfl⟩ : ∃ (u u' : Fin 1) (r : Fin 512) (d : Fin 64), x = ix4 u u' r d := ⟨x 0, x 1, x 2, x 3, eq_ix4 x⟩
  unfold heads
  refine (slab_apply oh hs v u u' r d ⟨oh + d.val, by have := d.isLt; omega⟩ rfl).trans ?_
  congr 1
  funext a
  apply Fin.ext
  have hu' := u'.isLt
  match a with
  | ⟨0, _⟩ => show r.val = 0 + 1 * r.val; omega
  | ⟨1, _⟩ => show oh + d.val = o + 64 * (h + 1 * u'.val) + (0 + 1 * d.val); omega

/-- The sixteen stores, whatever column each slice starts from so long as head h's starts at  o + 64 h,  leave
    `heads` in the block: every entry is under some head's rectangle, and each store is its piece of `heads`. -/
theorem canon_heads (o : Nat) (ho : o + 1024 ≤ 3072) (v : FVec Ideal S512x3072 .bf16)
    (o0 : Nat) (o1 : Nat) (o2 : Nat) (o3 : Nat) (o4 : Nat) (o5 : Nat) (o6 : Nat) (o7 : Nat) (o8 : Nat) (o9 : Nat) (o10 : Nat) (o11 : Nat) (o12 : Nat) (o13 : Nat) (o14 : Nat) (o15 : Nat)
    (h0 : S512x3072.Slices ![0, o0] S512x64)
    (h1 : S512x3072.Slices ![0, o1] S512x64)
    (h2 : S512x3072.Slices ![0, o2] S512x64)
    (h3 : S512x3072.Slices ![0, o3] S512x64)
    (h4 : S512x3072.Slices ![0, o4] S512x64)
    (h5 : S512x3072.Slices ![0, o5] S512x64)
    (h6 : S512x3072.Slices ![0, o6] S512x64)
    (h7 : S512x3072.Slices ![0, o7] S512x64)
    (h8 : S512x3072.Slices ![0, o8] S512x64)
    (h9 : S512x3072.Slices ![0, o9] S512x64)
    (h10 : S512x3072.Slices ![0, o10] S512x64)
    (h11 : S512x3072.Slices ![0, o11] S512x64)
    (h12 : S512x3072.Slices ![0, o12] S512x64)
    (h13 : S512x3072.Slices ![0, o13] S512x64)
    (h14 : S512x3072.Slices ![0, o14] S512x64)
    (h15 : S512x3072.Slices ![0, o15] S512x64)
    (e0 : o0 = o + 64 * 0) (e1 : o1 = o + 64 * 1) (e2 : o2 = o + 64 * 2) (e3 : o3 = o + 64 * 3) (e4 : o4 = o + 64 * 4) (e5 : o5 = o + 64 * 5) (e6 : o6 = o + 64 * 6) (e7 : o7 = o + 64 * 7) (e8 : o8 = o + 64 * 8) (e9 : o9 = o + 64 * 9) (e10 : o10 = o + 64 * 10) (e11 : o11 = o + 64 * 11) (e12 : o12 = o + 64 * 12) (e13 : o13 = o + 64 * 13) (e14 : o14 = o + 64 * 14) (e15 : o15 = o + 64 * 15) :
    View.canon ([⟨r0_19, slab o15 h15 v⟩,
      ⟨r0_18, slab o14 h14 v⟩,
      ⟨r0_17, slab o13 h13 v⟩,
      ⟨r0_16, slab o12 h12 v⟩,
      ⟨r0_15, slab o11 h11 v⟩,
      ⟨r0_14, slab o10 h10 v⟩,
      ⟨r0_13, slab o9 h9 v⟩,
      ⟨r0_12, slab o8 h8 v⟩,
      ⟨r0_11, slab o7 h7 v⟩,
      ⟨r0_10, slab o6 h6 v⟩,
      ⟨r0_9, slab o5 h5 v⟩,
      ⟨r0_8, slab o4 h4 v⟩,
      ⟨r0_7, slab o3 h3 v⟩,
      ⟨r0_6, slab o2 h2 v⟩,
      ⟨r0_5, slab o1 h1 v⟩,
      ⟨r0_4, slab o0 h0 v⟩] : List (View.Piece (Elt Ideal) S1x16x512x64 .bf16)) = heads o ho v := by
  funext y
  refine View.canon_apply_of_pieces (heads o ho v) _ ?_ y (cover0_4 (F := Ideal) _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact slab_piece o ho v 15 (by omega) o15 e15 h15 inb_S1x16x512x64_S1x1x512x64_0_15_0_0
  · exact slab_piece o ho v 14 (by omega) o14 e14 h14 inb_S1x16x512x64_S1x1x512x64_0_14_0_0
  · exact slab_piece o ho v 13 (by omega) o13 e13 h13 inb_S1x16x512x64_S1x1x512x64_0_13_0_0
  · exact slab_piece o ho v 12 (by omega) o12 e12 h12 inb_S1x16x512x64_S1x1x512x64_0_12_0_0
  · exact slab_piece o ho v 11 (by omega) o11 e11 h11 inb_S1x16x512x64_S1x1x512x64_0_11_0_0
  · exact slab_piece o ho v 10 (by omega) o10 e10 h10 inb_S1x16x512x64_S1x1x512x64_0_10_0_0
  · exact slab_piece o ho v 9 (by omega) o9 e9 h9 inb_S1x16x512x64_S1x1x512x64_0_9_0_0
  · exact slab_piece o ho v 8 (by omega) o8 e8 h8 inb_S1x16x512x64_S1x1x512x64_0_8_0_0
  · exact slab_piece o ho v 7 (by omega) o7 e7 h7 inb_S1x16x512x64_S1x1x512x64_0_7_0_0
  · exact slab_piece o ho v 6 (by omega) o6 e6 h6 inb_S1x16x512x64_S1x1x512x64_0_6_0_0
  · exact slab_piece o ho v 5 (by omega) o5 e5 h5 inb_S1x16x512x64_S1x1x512x64_0_5_0_0
  · exact slab_piece o ho v 4 (by omega) o4 e4 h4 inb_S1x16x512x64_S1x1x512x64_0_4_0_0
  · exact slab_piece o ho v 3 (by omega) o3 e3 h3 inb_S1x16x512x64_S1x1x512x64_0_3_0_0
  · exact slab_piece o ho v 2 (by omega) o2 e2 h2 inb_S1x16x512x64_S1x1x512x64_0_2_0_0
  · exact slab_piece o ho v 1 (by omega) o1 e1 h1 inb_S1x16x512x64_S1x1x512x64_0_1_0_0
  · exact slab_piece o ho v 0 (by omega) o0 e0 h0 inb_S1x16x512x64_S1x1x512x64_0_0_0_0

/-! ## The three four-dimensional blocks after the body -/

/-- Block 4 after the body: the fused product of the loaded blocks laid out by head from column 0. -/
theorem out4_eq (x0 : Vec Ideal S1x512x512 .f32) (x1 : Vec Ideal S512x1024 .bf16) (x2 : Vec Ideal S1024x3072 .bf16) :
    out0_4 x0 x1 x2 = heads 0 (by omega) (k0_pay8 (View.ld x0 r0_0) (View.ld x1 r0_1) (View.ld x2 r0_3)) := by
  unfold out0_4
  exact canon_heads 0 (by omega) (k0_pay8 (View.ld x0 r0_0) (View.ld x1 r0_1) (View.ld x2 r0_3))
    0 64 128 192 256 320 384 448 512 576 640 704 768 832 896 960
    slices_S512x3072_o0_0_S512x64 slices_S512x3072_o0_64_S512x64 slices_S512x3072_o0_128_S512x64 slices_S512x3072_o0_192_S512x64 slices_S512x3072_o0_256_S512x64 slices_S512x3072_o0_320_S512x64 slices_S512x3072_o0_384_S512x64 slices_S512x3072_o0_448_S512x64 slices_S512x3072_o0_512_S512x64 slices_S512x3072_o0_576_S512x64 slices_S512x3072_o0_640_S512x64 slices_S512x3072_o0_704_S512x64 slices_S512x3072_o0_768_S512x64 slices_S512x3072_o0_832_S512x64 slices_S512x3072_o0_896_S512x64 slices_S512x3072_o0_960_S512x64
    (by decide) (by decide) (by decide) (by decide) (by decide) (by decide) (by decide) (by decide) (by decide) (by decide) (by decide) (by decide) (by decide) (by decide) (by decide) (by decide)

/-- Block 5 after the body: the fused product of the loaded blocks laid out by head from column 1024. -/
theorem out5_eq (x0 : Vec Ideal S1x512x512 .f32) (x1 : Vec Ideal S512x1024 .bf16) (x2 : Vec Ideal S1024x3072 .bf16) :
    out0_5 x0 x1 x2 = heads 1024 (by omega) (k0_pay8 (View.ld x0 r0_0) (View.ld x1 r0_1) (View.ld x2 r0_3)) := by
  unfold out0_5
  exact canon_heads 1024 (by omega) (k0_pay8 (View.ld x0 r0_0) (View.ld x1 r0_1) (View.ld x2 r0_3))
    1024 1088 1152 1216 1280 1344 1408 1472 1536 1600 1664 1728 1792 1856 1920 1984
    slices_S512x3072_o0_1024_S512x64 slices_S512x3072_o0_1088_S512x64 slices_S512x3072_o0_1152_S512x64 slices_S512x3072_o0_1216_S512x64 slices_S512x3072_o0_1280_S512x64 slices_S512x3072_o0_1344_S512x64 slices_S512x3072_o0_1408_S512x64 slices_S512x3072_o0_1472_S512x64 slices_S512x3072_o0_1536_S512x64 slices_S512x3072_o0_1600_S512x64 slices_S512x3072_o0_1664_S512x64 slices_S512x3072_o0_1728_S512x64 slices_S512x3072_o0_1792_S512x64 slices_S512x3072_o0_1856_S512x64 slices_S512x3072_o0_1920_S512x64 slices_S512x3072_o0_1984_S512x64
    (by decide) (by decide) (by decide) (by decide) (by decide) (by decide) (by decide) (by decide) (by decide) (by decide) (by decide) (by decide) (by decide) (by decide) (by decide) (by decide)

/-- Block 6 after the body: the fused product of the loaded blocks laid out by head from column 2048. -/
theorem out6_eq (x0 : Vec Ideal S1x512x512 .f32) (x1 : Vec Ideal S512x1024 .bf16) (x2 : Vec Ideal S1024x3072 .bf16) :
    out0_6 x0 x1 x2 = heads 2048 (by omega) (k0_pay8 (View.ld x0 r0_0) (View.ld x1 r0_1) (View.ld x2 r0_3)) := by
  unfold out0_6
  exact canon_heads 2048 (by omega) (k0_pay8 (View.ld x0 r0_0) (View.ld x1 r0_1) (View.ld x2 r0_3))
    2048 2112 2176 2240 2304 2368 2432 2496 2560 2624 2688 2752 2816 2880 2944 3008
    slices_S512x3072_o0_2048_S512x64 slices_S512x3072_o0_2112_S512x64 slices_S512x3072_o0_2176_S512x64 slices_S512x3072_o0_2240_S512x64 slices_S512x3072_o0_2304_S512x64 slices_S512x3072_o0_2368_S512x64 slices_S512x3072_o0_2432_S512x64 slices_S512x3072_o0_2496_S512x64 slices_S512x3072_o0_2560_S512x64 slices_S512x3072_o0_2624_S512x64 slices_S512x3072_o0_2688_S512x64 slices_S512x3072_o0_2752_S512x64 slices_S512x3072_o0_2816_S512x64 slices_S512x3072_o0_2880_S512x64 slices_S512x3072_o0_2944_S512x64 slices_S512x3072_o0_3008_S512x64
    (by decide) (by decide) (by decide) (by decide) (by decide) (by decide) (by decide) (by decide) (by decide) (by decide) (by decide) (by decide) (by decide) (by decide) (by decide) (by decide)

/-! ## From blocks to arrays

The grid is 4 x 8: point t is batch  t / 8  and row tile  t % 8  (512 rows). The input block at t is rows
[512 (t % 8), 512 (t % 8) + 512) of batch t / 8; the two weights are whole at every point; the projected-input block sits
at the same place as the input block; a four-dimensional block is all sixteen heads of those rows. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 7 ∧ win0_3.index t (2 : Fin 3) = 0
    ∧ win0_4.index t (0 : Fin 4) = win0_3.index t (0 : Fin 3) ∧ win0_4.index t (1 : Fin 4) = 0
    ∧ win0_4.index t (2 : Fin 4) = win0_3.index t (1 : Fin 3) ∧ win0_4.index t (3 : Fin 4) = 0
    ∧ win0_5.index t (0 : Fin 4) = win0_3.index t (0 : Fin 3) ∧ win0_5.index t (1 : Fin 4) = 0
    ∧ win0_5.index t (2 : Fin 4) = win0_3.index t (1 : Fin 3) ∧ win0_5.index t (3 : Fin 4) = 0
    ∧ win0_6.index t (0 : Fin 4) = win0_3.index t (0 : Fin 3) ∧ win0_6.index t (1 : Fin 4) = 0
    ∧ win0_6.index t (2 : Fin 4) = win0_3.index t (1 : Fin 3) ∧ win0_6.index t (3 : Fin 4) = 0 :=
  (by decide +kernel : ∀ t : Fin grid0.N, _)

/-- Every (batch, row tile) is some point's. -/
theorem idx_onto : ∀ (q0 : Fin 4) (q1 : Fin 8), ∃ t : Fin cfg0.N,
    win0_3.index t (0 : Fin 3) = q0.val ∧ win0_3.index t (1 : Fin 3) = q1.val :=
  (by decide +kernel : ∀ (q0 : Fin 4) (q1 : Fin 8), ∃ t : Fin grid0.N,
    win0_3.index t (0 : Fin 3) = q0.val ∧ win0_3.index t (1 : Fin 3) = q1.val)

section Arrays
variable (V : (c : Dev nD) → (b : Ref sig .tc) → Buf (Elt Ideal) ((c : Thread nD τ).loc b))

/-- The input block at point t, at (·, r, k): the input at (batch, 512 tile + r, k). -/
theorem xblock_apply (c : Dev nD) (t : Fin cfg0.N) (u : Fin 1) (r k : Fin 512) (b : Fin 4) (l : Fin 4096)
    (hb : b.val = win0_3.index t (0 : Fin 3)) (hl : l.val = win0_3.index t (1 : Fin 3) * 512 + r.val) :
    (iblk0 V c 0 t : Vec Ideal S1x512x512 .f32) (ix3 u r k) = (V c main_arg0 : Spec.T3 4 4096 512) (ix3 b l k) := by
  obtain ⟨e0, e1, e2, -⟩ := idx_facts t
  unfold iblk0
  rw [View.read_apply]
  show V c main_arg0 _ = V c main_arg0 _
  congr 1
  funext a
  apply Fin.ext
  have hu := u.isLt
  match a with
  | ⟨0, _⟩ => show win0_0.index t (0 : Fin 3) * 1 + 1 * u.val = b.val; omega
  | ⟨1, _⟩ => show win0_0.index t (1 : Fin 3) * 512 + 1 * r.val = l.val; omega
  | ⟨2, _⟩ => show win0_0.index t (2 : Fin 3) * 512 + 1 * k.val = k.val; omega

/-- The first weight's block at any point is the whole weight. -/
theorem w1block_apply (c : Dev nD) (t : Fin cfg0.N) (k : Fin 512) (d : Fin 1024) :
    (iblk0 V c 1 t : Vec Ideal S512x1024 .bf16) (ix2 k d) = (V c main_v1 : Spec.T2 512 1024) (ix2 k d) := by
  obtain ⟨-, -, -, e3, e4, -⟩ := idx_facts t
  unfold iblk0
  rw [View.read_apply]
  show V c main_v1 _ = V c main_v1 _
  congr 1
  funext a
  apply Fin.ext
  match a with
  | ⟨0, _⟩ => show win0_1.index t (0 : Fin 2) * 512 + 1 * k.val = k.val; omega
  | ⟨1, _⟩ => show win0_1.index t (1 : Fin 2) * 1024 + 1 * d.val = d.val; omega

/-- The second weight's block at any point is the whole weight. -/
theorem w3block_apply (c : Dev nD) (t : Fin cfg0.N) (d : Fin 1024) (e : Fin 3072) :
    (iblk0 V c 2 t : Vec Ideal S1024x3072 .bf16) (ix2 d e) = (V c main_v3 : Spec.T2 1024 3072) (ix2 d e) := by
  obtain ⟨-, -, -, -, -, e5, e6, -⟩ := idx_facts t
  unfold iblk0
  rw [View.read_apply]
  show V c main_v3 _ = V c main_v3 _
  congr 1
  funext a
  apply Fin.ext
  match a with
  | ⟨0, _⟩ => show win0_2.index t (0 : Fin 2) * 1024 + 1 * d.val = d.val; omega
  | ⟨1, _⟩ => show win0_2.index t (1 : Fin 2) * 3072 + 1 * e.val = e.val; omega

end Arrays

/-! ### The projected input (one store) -/

/-- What the body stores to the projected-input block, entry by entry, when its input block is rows
    [512 lt, 512 lt + 512) of batch b and its weight block is the whole first weight: the projection there. -/
theorem projStore_block (x0 : Vec Ideal S1x512x512 .f32) (x1 : Vec Ideal S512x1024 .bf16)
    (X : Spec.T3 4 4096 512) (W1 : Spec.T2 512 1024) (b : Fin 4) (lt : Nat)
    (hx : ∀ (r k : Fin 512) (l : Fin 4096), l.val = lt * 512 + r.val → x0 (ix3 (0 : Fin 1) r k) = X (ix3 b l k))
    (hw : ∀ (k : Fin 512) (d : Fin 1024), x1 (ix2 k d) = W1 (ix2 k d))
    (j : S1x512x1024.Idx) (i : S4x4096x1024.Idx)
    (hi0 : (i 0).val = b.val) (hi1 : (i 1).val = lt * 512 + (j 1).val) (hi2 : (i 2).val = (j 2).val) :
    k0_pay7 x0 x1 j = Spec.xproj X W1 i := by
  obtain ⟨u, r, d, rfl⟩ : ∃ (u : Fin 1) (r : Fin 512) (d : Fin 1024), j = ix3 u r d := ⟨j 0, j 1, j 2, eq_ix3 j⟩
  obtain ⟨b', l, d', rfl⟩ : ∃ (b' : Fin 4) (l : Fin 4096) (d' : Fin 1024), i = ix3 b' l d' := ⟨i 0, i 1, i 2, eq_ix3 i⟩
  obtain rfl : b' = b := Fin.ext hi0
  obtain rfl : d' = d := Fin.ext hi2
  rw [projStore_apply, projTile_apply]
  show _ = Spec.xprojC X W1 b' l d'
  unfold Spec.xprojC
  refine Finset.sum_congr rfl fun k _ => ?_
  rw [hx r k l hi1, hw k d']

section Arrays
variable (V : (c : Dev nD) → (b : Ref sig .tc) → Buf (Elt Ideal) ((c : Thread nD τ).loc b))

/-- The projected input as the region's arrays give it. -/
abbrev projOf (c : Dev nD) : Buf (Elt Ideal) ((c : Thread nD τ).loc main_v6_0) :=
  Spec.xproj (V c main_arg0) (V c main_v1)

/-- What point t writes back to the projected input is its block of the projection. -/
theorem flushed3_eq (c : Dev nD) (t : Fin cfg0.N) :
    (dat0 (F := Ideal) V c).flushed 3 t = ((cfg0.win 3).blk t).view.read (Elt Ideal) (projOf V c) := by
  show (cfg0.win 3).cut (grid0.coords t) ((dat0 V c).after 3 t) = _
  rw [after0_3]
  unfold out0_3
  rw [View.canon_unit_zero hz3]
  simp only [View.ld_unit_zero (S := S1x512x512) hz3, View.ld_unit_zero (S := S512x1024) hz2]
  obtain ⟨-, -, -, -, -, -, -, b0, b1, b2, -⟩ := idx_facts t
  funext j
  show k0_pay7 (iblk0 V c 0 t) (iblk0 V c 1 t) j = Spec.xproj (V c main_arg0) (V c main_v1) (((cfg0.win 3).blk t).view.emb j)
  refine projStore_block (iblk0 V c 0 t) (iblk0 V c 1 t) (V c main_arg0) (V c main_v1)
    ⟨win0_3.index t (0 : Fin 3), by omega⟩ (win0_3.index t (1 : Fin 3))
    (fun r k l hl => xblock_apply V c t 0 r k _ l rfl hl) (fun k d => w1block_apply V c t k d) j _ ?_ ?_ ?_
  · show win0_3.index t (0 : Fin 3) * 1 + 1 * (j 0).val = win0_3.index t (0 : Fin 3)
    have : (j 0).val < 1 := (j 0).isLt
    omega
  · show win0_3.index t (1 : Fin 3) * 512 + 1 * (j 1).val = win0_3.index t (1 : Fin 3) * 512 + (j 1).val
    omega
  · show win0_3.index t (2 : Fin 3) * 1024 + 1 * (j 2).val = (j 2).val
    omega

/-- An index of the projected input is in point t's block iff each coordinate is in the block's range. -/
theorem mem_blk3 (t : Fin cfg0.N) (i : S4x4096x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v6_0).slice (win0_3.rect t)).set ↔ _
  rw [View.set_slice_whole, Rect.mem_set_unit]
  exact Iff.rfl

/-- Every index of the projected input is in some point's block: batch i0, row tile i1 / 512. -/
theorem cover3 (i : S4x4096x1024.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 1024 := (i 2).isLt
  obtain ⟨t, q0, q1⟩ := idx_onto ⟨(i 0).val, hi0⟩ ⟨(i 1).val / 512, by omega⟩
  obtain ⟨-, -, -, -, -, -, -, -, -, b2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; simp only at q0; omega
  | ⟨1, _⟩ => show win0_3.index t (1 : Fin 3) * 512 ≤ (i 1).val ∧ (i 1).val < win0_3.index t (1 : Fin 3) * 512 + 512; simp only at q1; omega
  | ⟨2, _⟩ => show win0_3.index t (2 : Fin 3) * 1024 ≤ (i 2).val ∧ (i 2).val < win0_3.index t (2 : Fin 3) * 1024 + 1024; omega

/-- THE PROJECTED INPUT after the region: the projection of the input by the first weight. -/
theorem final3 (c : Dev nD) :
    (dat0 (F := Ideal) V c).arrAt 3 cfg0.N = Cert.Spec.xproj (V c main_arg0) (V c main_v1) :=
  (dat0 (F := Ideal) V c).arrAt_eq_of_cover 3 (projOf V c) (fun t _ => flushed3_eq V c t) (cover3)

end Arrays

/-! ### The queries, keys and values (sixteen stores each), once for any part -/

/-- The fused product of a point's blocks, laid out by head from column  j * 1024,  entry by entry, when the input block
    is rows [512 lt, 512 lt + 512) of batch b and the two weight blocks are the whole weights: part j there. -/
theorem heads_block (j : Fin 3) (o : Nat) (ho : o + 1024 ≤ 3072) (hoj : o = j.val * 1024)
    (x0 : Vec Ideal S1x512x512 .f32) (x1 : Vec Ideal S512x1024 .bf16) (x2 : Vec Ideal S1024x3072 .bf16)
    (X : Spec.T3 4 4096 512) (W1 : Spec.T2 512 1024) (W3 : Spec.T2 1024 3072) (b : Fin 4) (lt : Nat)
    (hx : ∀ (r k : Fin 512) (l : Fin 4096), l.val = lt * 512 + r.val → x0 (ix3 (0 : Fin 1) r k) = X (ix3 b l k))
    (hw1 : ∀ (k : Fin 512) (d : Fin 1024), x1 (ix2 k d) = W1 (ix2 k d))
    (hw3 : ∀ (d : Fin 1024) (e : Fin 3072), x2 (ix2 d e) = W3 (ix2 d e))
    (y : S1x16x512x64.Idx) (i : S4x16x4096x64.Idx)
    (hi0 : (i 0).val = b.val) (hi1 : (i 1).val = (y 1).val) (hi2 : (i 2).val = lt * 512 + (y 2).val)
    (hi3 : (i 3).val = (y 3).val) :
    heads o ho (k0_pay8 x0 x1 x2) y = Spec.part j X W1 W3 i := by
  obtain ⟨u, h, r, d, rfl⟩ : ∃ (u : Fin 1) (h : Fin 16) (r : Fin 512) (d : Fin 64), y = ix4 u h r d :=
    ⟨y 0, y 1, y 2, y 3, eq_ix4 y⟩
  obtain ⟨b', h', l, d', rfl⟩ : ∃ (b' : Fin 4) (h' : Fin 16) (l : Fin 4096) (d' : Fin 64), i = ix4 b' h' l d' :=
    ⟨i 0, i 1, i 2, i 3, eq_ix4 i⟩
  obtain rfl : b' = b := Fin.ext hi0
  obtain rfl : h' = h := Fin.ext hi1
  obtain rfl : d' = d := Fin.ext hi3
  show k0_pay8 x0 x1 x2 (ix2 r (⟨o + 64 * h'.val + d'.val, _⟩ : Fin 3072)) = Spec.qkvC X W1 W3 b' l (Spec.col j h' d')
  rw [fused_apply]
  unfold Spec.qkvC
  refine Finset.sum_congr rfl fun e _ => ?_
  rw [projTile_apply, hw3]
  unfold Spec.xprojC
  congr 1
  · refine Finset.sum_congr rfl fun k _ => ?_
    rw [hx r k l hi2, hw1 k e]
  · congr 2
    apply Fin.ext
    show o + 64 * h'.val + d'.val = j.val * 1024 + h'.val * 64 + d'.val
    omega

section Arrays
variable (V : (c : Dev nD) → (b : Ref sig .tc) → Buf (Elt Ideal) ((c : Thread nD τ).loc b))

/-- The queries as the region's arrays give them. -/
abbrev part4Of (c : Dev nD) : Buf (Elt Ideal) ((c : Thread nD τ).loc main_v6_1) :=
  Spec.part 0 (V c main_arg0) (V c main_v1) (V c main_v3)

/-- What point t writes back to the queries is its block of part 0. -/
theorem flushed4_eq (c : Dev nD) (t : Fin cfg0.N) :
    (dat0 (F := Ideal) V c).flushed 4 t = ((cfg0.win 4).blk t).view.read (Elt Ideal) (part4Of V c) := by
  show (cfg0.win 4).cut (grid0.coords t) ((dat0 V c).after 4 t) = _
  rw [after0_4, out4_eq]
  simp only [View.ld_unit_zero (S := S1x512x512) hz3, View.ld_unit_zero (S := S512x1024) hz2,
    View.ld_unit_zero (S := S1024x3072) hz2]
  have f := idx_facts t
  funext y
  show heads 0 _ (k0_pay8 (iblk0 V c 0 t) (iblk0 V c 1 t) (iblk0 V c 2 t)) y
    = Spec.part 0 (V c main_arg0) (V c main_v1) (V c main_v3) (((cfg0.win 4).blk t).view.emb y)
  refine heads_block 0 0 (by omega) rfl (iblk0 V c 0 t) (iblk0 V c 1 t) (iblk0 V c 2 t)
    (V c main_arg0) (V c main_v1) (V c main_v3)
    ⟨win0_3.index t (0 : Fin 3), by omega⟩ (win0_3.index t (1 : Fin 3))
    (fun r k l hl => xblock_apply V c t 0 r k _ l rfl hl) (fun k d => w1block_apply V c t k d)
    (fun d e => w3block_apply V c t d e) y _ ?_ ?_ ?_ ?_
  · show win0_4.index t (0 : Fin 4) * 1 + 1 * (y 0).val = win0_3.index t (0 : Fin 3)
    have : (y 0).val < 1 := (y 0).isLt
    omega
  · show win0_4.index t (1 : Fin 4) * 16 + 1 * (y 1).val = (y 1).val
    omega
  · show win0_4.index t (2 : Fin 4) * 512 + 1 * (y 2).val = win0_3.index t (1 : Fin 3) * 512 + (y 2).val
    omega
  · show win0_4.index t (3 : Fin 4) * 64 + 1 * (y 3).val = (y 3).val
    omega

/-- An index of the queries is in point t's block iff each coordinate is in the block's range. -/
theorem mem_blk4 (t : Fin cfg0.N) (i : S4x16x4096x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v6_1).slice (win0_4.rect t)).set ↔ _
  rw [View.set_slice_whole, Rect.mem_set_unit]
  exact Iff.rfl

/-- Every index of the queries is in some point's block: batch i0, row tile i2 / 512. -/
theorem cover4 (i : S4x16x4096x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, q0, q1⟩ := idx_onto ⟨(i 0).val, hi0⟩ ⟨(i 2).val / 512, by omega⟩
  have f := idx_facts t
  refine ⟨t, flush0_4 t, ?_⟩
  rw [mem_blk4]
  intro a
  simp only at q0 q1
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE QUERIES after the region: part 0 of the fused projection. -/
theorem final4 (c : Dev nD) :
    (dat0 (F := Ideal) V c).arrAt 4 cfg0.N = Cert.Spec.part 0 (V c main_arg0) (V c main_v1) (V c main_v3) :=
  (dat0 (F := Ideal) V c).arrAt_eq_of_cover 4 (part4Of V c) (fun t _ => flushed4_eq V c t) cover4

/-- The keys as the region's arrays give them. -/
abbrev part5Of (c : Dev nD) : Buf (Elt Ideal) ((c : Thread nD τ).loc main_v6_2) :=
  Spec.part 1 (V c main_arg0) (V c main_v1) (V c main_v3)

/-- What point t writes back to the keys is its block of part 1. -/
theorem flushed5_eq (c : Dev nD) (t : Fin cfg0.N) :
    (dat0 (F := Ideal) V c).flushed 5 t = ((cfg0.win 5).blk t).view.read (Elt Ideal) (part5Of V c) := by
  show (cfg0.win 5).cut (grid0.coords t) ((dat0 V c).after 5 t) = _
  rw [after0_5, out5_eq]
  simp only [View.ld_unit_zero (S := S1x512x512) hz3, View.ld_unit_zero (S := S512x1024) hz2,
    View.ld_unit_zero (S := S1024x3072) hz2]
  have f := idx_facts t
  funext y
  show heads 1024 _ (k0_pay8 (iblk0 V c 0 t) (iblk0 V c 1 t) (iblk0 V c 2 t)) y
    = Spec.part 1 (V c main_arg0) (V c main_v1) (V c main_v3) (((cfg0.win 5).blk t).view.emb y)
  refine heads_block 1 1024 (by omega) rfl (iblk0 V c 0 t) (iblk0 V c 1 t) (iblk0 V c 2 t)
    (V c main_arg0) (V c main_v1) (V c main_v3)
    ⟨win0_3.index t (0 : Fin 3), by omega⟩ (win0_3.index t (1 : Fin 3))
    (fun r k l hl => xblock_apply V c t 0 r k _ l rfl hl) (fun k d => w1block_apply V c t k d)
    (fun d e => w3block_apply V c t d e) y _ ?_ ?_ ?_ ?_
  · show win0_5.index t (0 : Fin 4) * 1 + 1 * (y 0).val = win0_3.index t (0 : Fin 3)
    have : (y 0).val < 1 := (y 0).isLt
    omega
  · show win0_5.index t (1 : Fin 4) * 16 + 1 * (y 1).val = (y 1).val
    omega
  · show win0_5.index t (2 : Fin 4) * 512 + 1 * (y 2).val = win0_3.index t (1 : Fin 3) * 512 + (y 2).val
    omega
  · show win0_5.index t (3 : Fin 4) * 64 + 1 * (y 3).val = (y 3).val
    omega

/-- An index of the keys is in point t's block iff each coordinate is in the block's range. -/
theorem mem_blk5 (t : Fin cfg0.N) (i : S4x16x4096x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v6_2).slice (win0_5.rect t)).set ↔ _
  rw [View.set_slice_whole, Rect.mem_set_unit]
  exact Iff.rfl

/-- Every index of the keys is in some point's block: batch i0, row tile i2 / 512. -/
theorem cover5 (i : S4x16x4096x64.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, q0, q1⟩ := idx_onto ⟨(i 0).val, hi0⟩ ⟨(i 2).val / 512, by omega⟩
  have f := idx_facts t
  refine ⟨t, flush0_5 t, ?_⟩
  rw [mem_blk5]
  intro a
  simp only at q0 q1
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- THE KEYS after the region: part 1 of the fused projection. -/
theorem final5 (c : Dev nD) :
    (dat0 (F := Ideal) V c).arrAt 5 cfg0.N = Cert.Spec.part 1 (V c main_arg0) (V c main_v1) (V c main_v3) :=
  (dat0 (F := Ideal) V c).arrAt_eq_of_cover 5 (part5Of V c) (fun t _ => flushed5_eq V c t) cover5

/-- The values as the region's arrays give them. -/
abbrev part6Of (c : Dev nD) : Buf (Elt Ideal) ((c : Thread nD τ).loc main_v6_3) :=
  Spec.part 2 (V c main_arg0) (V c main_v1) (V c main_v3)

/-- What point t writes back to the values is its block of part 2. -/
theorem flushed6_eq (c : Dev nD) (t : Fin cfg0.N) :
    (dat0 (F := Ideal) V c).flushed 6 t = ((cfg0.win 6).blk t).view.read (Elt Ideal) (part6Of V c) := by
  show (cfg0.win 6).cut (grid0.coords t) ((dat0 V c).after 6 t) = _
  rw [after0_6, out6_eq]
  simp only [View.ld_unit_zero (S := S1x512x512) hz3, View.ld_unit_zero (S := S512x1024) hz2,
    View.ld_unit_zero (S := S1024x3072) hz2]
  have f := idx_facts t
  funext y
  show heads 2048 _ (k0_pay8 (iblk0 V c 0 t) (iblk0 V c 1 t) (iblk0 V c 2 t)) y
    = Spec.part 2 (V c main_arg0) (V c main_v1) (V c main_v3) (((cfg0.win 6).blk t).view.emb y)
  refine heads_block 2 2048 (by omega) rfl (iblk0 V c 0 t) (iblk0 V c 1 t) (iblk0 V c 2 t)
    (V c main_arg0) (V c main_v1) (V c main_v3)
    ⟨win0_3.index t (0 : Fin 3), by omega⟩ (win0_3.index t (1 : Fin 3))
    (fun r k l hl => xblock_apply V c t 0 r k _ l rfl hl) (fun k d => w1block_apply V c t k d)
    (fun d e => w3block_apply V c t d e) y _ ?_ ?_ ?_ ?_
  · show win0_6.index t (0 : Fin 4) * 1 + 1 * (y 0).val = win0_3.index t (0 : Fin 3)
    have : (y 0).val < 1 := (y 0).isLt
    omega
  · show win0_6.index t (1 : Fin 4) * 16 + 1 * (y 1).val = (y 1).val
    omega
  · show win0_6.index t (2 : Fin 4) * 512 + 1 * (y 2).val = win0_3.index t (1 : Fin 3) * 512 + (y 2).val
    omega
  · show win0_6.index t (3 : Fin 4) * 64 + 1 * (y 3).val = (y 3).val
    omega

/-- An index of the values is in point t's block iff each coordinate is in the block's range. -/
theorem mem_blk6 (t : Fin cfg0.N) (i : S4x16x4096x64.Idx) :
    i ∈ ((cfg0.win 6).blk t).view.set ↔ ∀ a : Fin 4, win0_6.index t a * S1x16x512x64.size a ≤ (i a).val
      ∧ (i a).val < win0_6.index t a * S1x16x512x64.size a + S1x16x512x64.size a := by
  show i ∈ ((View.whole main_v6_3).slice (win0_6.rect t)).set ↔ _
  rw [View.set_slice_whole, Rect.mem_set_unit]
  exact Iff.rfl

/-- Every index of the values is in some point's block: batch i0, row tile i2 / 512. -/
theorem cover6 (i : S4x16x4096x64.Idx) :
    ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, q0, q1⟩ := idx_onto ⟨(i 0).val, hi0⟩ ⟨(i 2).val / 512, by omega⟩
  have f := idx_facts t
  refine ⟨t, flush0_6 t, ?_⟩
  rw [mem_blk6]
  intro a
  simp only at q0 q1
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 512 ≤ (i 2).val ∧ (i 2).val < win0_6.index t (2 : Fin 4) * 512 + 512; omega
  | ⟨3, _⟩ => show win0_6.index t (3 : Fin 4) * 64 ≤ (i 3).val ∧ (i 3).val < win0_6.index t (3 : Fin 4) * 64 + 64; omega

/-- THE VALUES after the region: part 2 of the fused projection. -/
theorem final6 (c : Dev nD) :
    (dat0 (F := Ideal) V c).arrAt 6 cfg0.N = Cert.Spec.part 2 (V c main_arg0) (V c main_v1) (V c main_v3) :=
  (dat0 (F := Ideal) V c).arrAt_eq_of_cover 6 (part6Of V c) (fun t _ => flushed6_eq V c t) cover6

end Arrays

end Cert.KernelIdeal.Proj

end
-- ==== Proof.Attn.lean ====
/-
  What the linear-attention call leaves in its output array, as one function of the arrays it finds.

  Each grid point (b, h) of the 4 x 16 grid stages the 4096 x 64 slabs [b, h, :, :] of the queries Q, the keys K and
  the values V and writes back the slab of the same place of the output.  With  phi z = z + 1  above zero and  exp z
  elsewhere, the body forms  KV[d, m] = sum_l phi(K[l, d]) * V[l, m]  (a contraction over the POSITION axis of both
  operands),  KS[d] = sum_l phi(K[l, d])  (a sum down the columns), then the numerator
  sum_d phi(Q[l, d]) * KV[d, m],  the denominator  sum_d phi(Q[l, d]) * KS[d]  (a sum along the rows of a product with
  the row KS broadcast) plus a small constant, and their quotient.  Changes of float format are the identity on the
  extended reals.  The module reads each step at an index given by coordinates, assembles the payload at (l, m), then
  carries it from the blocks to the whole array: the slabs of the 64 points tile the array.
-/
import proofs.«124907_j60988535603899_2_alg».proof.Proof.Gen.KernelIdeal.Frame
import proofs.«124907_j60988535603899_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)

/-! ## Layout operations at an index given by coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's steps, each read at an index -/

local notation "Dkv" => dot_S4096x64_S4096x64_S64x64_0_0_1_1_n_n
local notation "Dnum" => dot_S4096x64_S64x64_S4096x64_1_0_0_1_n_n

/-- A staged slab read as a 4096 x 64 matrix (the unit axes dropped, the change of format the identity). -/
def slab (x : Vec Ideal S1x1x4096x64 .bf16) : FVec Ideal S4096x64 .f32 :=
  extf .f32 (shapeCast S4096x64 x Gen.shapeCasts_S1x1x4096x64_S4096x64) Gen.bitsLt_bf16_f32

theorem slab_apply (x : Vec Ideal S1x1x4096x64 .bf16) (l : Fin 4096) (d : Fin 64) :
    slab x (ix2 l d) = x (ix4 (0 : Fin 1) (0 : Fin 1) l d) :=
  shapeCast_11ab_ab_apply x Gen.shapeCasts_S1x1x4096x64_S4096x64 l d

/-- The feature map applied entry by entry: the entry plus one where it is positive, its exponential elsewhere. -/
def phiV (x : FVec Ideal S4096x64 .f32) : FVec Ideal S4096x64 .f32 :=
  select (cmpf .ogt x (broadcast S4096x64 (Scalar.ofBits .f32 0x00000000#32)))
    (addf x (broadcast S4096x64 (Scalar.ofBits .f32 0x3F800000#32))) (exp x)

theorem phiV_apply (x : FVec Ideal S4096x64 .f32) (i : S4096x64.Idx) : phiV x i = Cert.Spec.phi (x i) := rfl

/-- The 64 x 64 matrix of the keys' features against the values: the contraction runs over the rows of both. -/
def kvM (k v : FVec Ideal S4096x64 .f32) : FVec Ideal S64x64 .f32 :=
  matmul Dkv none (phiV k) v (constant S64x64 .f32 0x00000000#32)

theorem kvM_apply (k v : FVec Ideal S4096x64 .f32) (d m : Fin 64) :
    kvM k v (ix2 d m) = ∑ l : Fin 4096, Cert.Spec.phi (k (ix2 l d)) * v (ix2 l m) := by
  refine (Ideal.matmul_constant_zero_apply Dkv none (phiV k) v (ix2 d m)).trans ?_
  rw [← Equiv.sum_comp (contrEquiv1 Dkv 4096 rfl rfl).symm]
  refine Finset.sum_congr rfl fun l _ => ?_
  have c := contrEquiv1_symm_val Dkv 4096 rfl rfl l
  have hl : (Dkv).lhsIdx (ix2 d m) ((contrEquiv1 Dkv 4096 rfl rfl).symm l) = ix2 l d := by
    funext ax; apply Fin.ext
    match ax with
    | ⟨0, _⟩ => simp [DotDims.lhsIdx, dot_S4096x64_S4096x64_S64x64_0_0_1_1_n_n]; exact c
    | ⟨1, _⟩ => simp [DotDims.lhsIdx, dot_S4096x64_S4096x64_S64x64_0_0_1_1_n_n]; rfl
  have hr : (Dkv).rhsIdx (ix2 d m) ((contrEquiv1 Dkv 4096 rfl rfl).symm l) = ix2 l m := by
    funext ax; apply Fin.ext
    match ax with
    | ⟨0, _⟩ => simp [DotDims.rhsIdx, dot_S4096x64_S4096x64_S64x64_0_0_1_1_n_n]; exact c
    | ⟨1, _⟩ => simp [DotDims.rhsIdx, dot_S4096x64_S4096x64_S64x64_0_0_1_1_n_n]; rfl
  rw [hl, hr, phiV_apply]

/-- The numerator: the queries' features against that matrix, contracted over the feature axis. -/
def numM (q : FVec Ideal S4096x64 .f32) (kv : FVec Ideal S64x64 .f32) : FVec Ideal S4096x64 .f32 :=
  matmul Dnum none (phiV q) kv (constant S4096x64 .f32 0x00000000#32)

theorem numM_apply (q : FVec Ideal S4096x64 .f32) (kv : FVec Ideal S64x64 .f32) (l : Fin 4096) (m : Fin 64) :
    numM q kv (ix2 l m) = ∑ d : Fin 64, Cert.Spec.phi (q (ix2 l d)) * kv (ix2 d m) := by
  refine (Ideal.matmul_constant_zero_apply Dnum none (phiV q) kv (ix2 l m)).trans ?_
  rw [← Equiv.sum_comp (contrEquiv1 Dnum 64 rfl rfl).symm]
  refine Finset.sum_congr rfl fun d _ => ?_
  have c := contrEquiv1_symm_val Dnum 64 rfl rfl d
  have hl : (Dnum).lhsIdx (ix2 l m) ((contrEquiv1 Dnum 64 rfl rfl).symm d) = ix2 l d := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c
  have hr : (Dnum).rhsIdx (ix2 l m) ((contrEquiv1 Dnum 64 rfl rfl).symm d) = ix2 d m := by
    funext ax; apply Fin.ext
    match ax with
    | ⟨0, _⟩ => simp [DotDims.rhsIdx, dot_S4096x64_S64x64_S4096x64_1_0_0_1_n_n]; exact c
    | ⟨1, _⟩ => simp [DotDims.rhsIdx, dot_S4096x64_S64x64_S4096x64_1_0_0_1_n_n]; rfl
  rw [hl, hr, phiV_apply]

/-- The column sums of the keys' features. -/
def ksV (k : FVec Ideal S4096x64 .f32) : FVec Ideal S64 .f32 :=
  multiReduction .add [0] S64 (phiV k) 0x00000000#32 Gen.reduces_S4096x64_S64 (.inl rfl) rfl

theorem ksV_apply (k : FVec Ideal S4096x64 .f32) (d : Fin 64) :
    ksV k (ix1 d) = ∑ l : Fin 4096, Cert.Spec.phi (k (ix2 l d)) := by
  refine (Ideal.multiReduction_add_single (phiV k) 0x00000000#32 Gen.reduces_S4096x64_S64 (.inl rfl) rfl (ix1 d)).trans ?_
  show ∑ l : Fin 4096, phiV k (Gen.reduces_S4096x64_S64.lift (ix1 d) l) = _
  refine Finset.sum_congr rfl fun l _ => ?_
  have e : Gen.reduces_S4096x64_S64.lift (ix1 d) l = ix2 l d := by
    funext ax; apply Fin.ext
    match ax with
    | ⟨0, _⟩ => rfl
    | ⟨1, _⟩ => rfl
  rw [e, phiV_apply]

/-- Along each row, the queries' features times a row vector broadcast down the rows, summed. -/
def denV (q : FVec Ideal S4096x64 .f32) (ks : FVec Ideal S64 .f32) : FVec Ideal S4096 .f32 :=
  multiReduction .add [1] S4096
    (mulf (phiV q) (broadcastTo S4096x64 (shapeCast S1x64 ks Gen.shapeCasts_S64_S1x64) Gen.broadcasts_S1x64_S4096x64))
    0x00000000#32 Gen.reduces_S4096x64_S4096 (.inl rfl) rfl

theorem denV_apply (q : FVec Ideal S4096x64 .f32) (ks : FVec Ideal S64 .f32) (l : Fin 4096) :
    denV q ks (ix1 l) = ∑ d : Fin 64, Cert.Spec.phi (q (ix2 l d)) * ks (ix1 d) := by
  refine (Ideal.multiReduction_add_single _ 0x00000000#32 Gen.reduces_S4096x64_S4096 (.inl rfl) rfl (ix1 l)).trans ?_
  show ∑ d : Fin 64, mulf (phiV q) (broadcastTo S4096x64 (shapeCast S1x64 ks Gen.shapeCasts_S64_S1x64) Gen.broadcasts_S1x64_S4096x64)
      (Gen.reduces_S4096x64_S4096.lift (ix1 l) d) = _
  refine Finset.sum_congr rfl fun d _ => ?_
  have e : Gen.reduces_S4096x64_S4096.lift (ix1 l) d = ix2 l d := by
    funext ax; apply Fin.ext
    match ax with
    | ⟨0, _⟩ => rfl
    | ⟨1, _⟩ => rfl
  rw [e, mulf_apply, phiV_apply, broadcastTo_1b_ab_apply, shapeCast_a_1a_apply]

/-- The body's value as a matrix: numerator over denominator, the denominator's column broadcast along the rows. -/
def quot (q k v : FVec Ideal S4096x64 .f32) : FVec Ideal S4096x64 .bf16 :=
  truncf .bf16 (divf (numM q (kvM k v))
    (broadcastTo S4096x64
      (addf (shapeCast S4096x1 (denV q (ksV k)) Gen.shapeCasts_S4096_S4096x1) (broadcast S4096x1 (Scalar.ofBits .f32 0x322BCC77#32)))
      Gen.broadcasts_S4096x1_S4096x64)) Gen.bitsLt_bf16_f32

/-- The generated payload is that matrix of the three staged slabs. -/
theorem pay2_eq (x0 x1 x2 : Vec Ideal S1x1x4096x64 .bf16) : k1_pay2 x0 x1 x2 = quot (slab x0) (slab x1) (slab x2) := rfl

theorem quot_apply (q k v : FVec Ideal S4096x64 .f32) (l : Fin 4096) (m : Fin 64) :
    quot q k v (ix2 l m)
      = Ideal.div (∑ d : Fin 64, Cert.Spec.phi (q (ix2 l d)) * ∑ l' : Fin 4096, Cert.Spec.phi (k (ix2 l' d)) * v (ix2 l' m))
          ((∑ d : Fin 64, Cert.Spec.phi (q (ix2 l d)) * ∑ l' : Fin 4096, Cert.Spec.phi (k (ix2 l' d)))
            + Ideal.ofBits .f32 0x322BCC77#32) := by
  show Ideal.div (numM q (kvM k v) (ix2 l m))
      (broadcastTo S4096x64
        (addf (shapeCast S4096x1 (denV q (ksV k)) Gen.shapeCasts_S4096_S4096x1) (broadcast S4096x1 (Scalar.ofBits .f32 0x322BCC77#32)))
        Gen.broadcasts_S4096x1_S4096x64 (ix2 l m)) = _
  rw [numM_apply, broadcastTo_a1_ab_apply]
  show Ideal.div _ (shapeCast S4096x1 (denV q (ksV k)) Gen.shapeCasts_S4096_S4096x1 (ix2 l (0 : Fin 1)) + Ideal.ofBits .f32 0x322BCC77#32) = _
  rw [shapeCast_a_a1_apply, denV_apply]
  simp only [kvM_apply, ksV_apply]

/-- The stored value: the quotient matrix with the two unit axes put back. -/
theorem pay_eq_attnC (Q K W : Cert.Spec.T4 4 16 4096 64) (x0 x1 x2 : Vec Ideal S1x1x4096x64 .bf16) (b : Fin 4) (h : Fin 16)
    (h0 : ∀ (l : Fin 4096) (d : Fin 64), x0 (ix4 (0 : Fin 1) (0 : Fin 1) l d) = Q (ix4 b h l d))
    (h1 : ∀ (l : Fin 4096) (d : Fin 64), x1 (ix4 (0 : Fin 1) (0 : Fin 1) l d) = K (ix4 b h l d))
    (h2 : ∀ (l : Fin 4096) (d : Fin 64), x2 (ix4 (0 : Fin 1) (0 : Fin 1) l d) = W (ix4 b h l d))
    (u v : Fin 1) (l : Fin 4096) (mm : Fin 64) :
    k1_pay1 (k1_pay2 x0 x1 x2) (ix4 u v l mm) = Cert.Spec.attnC Q K W b h l mm := by
  rw [pay2_eq]
  show shapeCast S1x1x4096x64 (quot (slab x0) (slab x1) (slab x2)) Gen.shapeCasts_S4096x64_S1x1x4096x64 (ix4 u v l mm) = _
  rw [shapeCast_ab_11ab_apply, quot_apply]
  simp only [slab_apply, h0, h1, h2]
  rfl

/-! ## From the blocks to the array -/

section Blocks
variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps, decided over the 64 grid points: point `t` is batch `t / 16` and head `t % 16`, and every
    window's block there is the whole slab of that batch and head. -/
theorem slab_of_point : ∀ t : Fin cfg1.N,
    (win1_0.index t (0 : Fin 4) = t.val / 16 ∧ win1_0.index t (1 : Fin 4) = t.val % 16
      ∧ win1_0.index t (2 : Fin 4) = 0 ∧ win1_0.index t (3 : Fin 4) = 0)
    ∧ (win1_1.index t (0 : Fin 4) = t.val / 16 ∧ win1_1.index t (1 : Fin 4) = t.val % 16
      ∧ win1_1.index t (2 : Fin 4) = 0 ∧ win1_1.index t (3 : Fin 4) = 0)
    ∧ (win1_2.index t (0 : Fin 4) = t.val / 16 ∧ win1_2.index t (1 : Fin 4) = t.val % 16
      ∧ win1_2.index t (2 : Fin 4) = 0 ∧ win1_2.index t (3 : Fin 4) = 0)
    ∧ (win1_3.index t (0 : Fin 4) = t.val / 16 ∧ win1_3.index t (1 : Fin 4) = t.val % 16
      ∧ win1_3.index t (2 : Fin 4) = 0 ∧ win1_3.index t (3 : Fin 4) = 0) :=
  (by decide +kernel : ∀ t : Fin grid1.N, _)

/-- An input window's block at point `t`, read at position `l` and feature `d`, is its array at
    (`t / 16`, `t % 16`, `l`, `d`). -/
theorem iblk_apply (c : Dev nD) (t : Fin cfg1.N) (b : Fin 4) (h : Fin 16) (hb : b.val = t.val / 16) (hh : h.val = t.val % 16)
    (l : Fin 4096) (d : Fin 64) :
    (iblk1 V c 0 t (ix4 (0 : Fin 1) (0 : Fin 1) l d) = (V c main_v6_1 : Cert.Spec.T4 4 16 4096 64) (ix4 b h l d))
    ∧ (iblk1 V c 1 t (ix4 (0 : Fin 1) (0 : Fin 1) l d) = (V c main_v6_2 : Cert.Spec.T4 4 16 4096 64) (ix4 b h l d))
    ∧ (iblk1 V c 2 t (ix4 (0 : Fin 1) (0 : Fin 1) l d) = (V c main_v6_3 : Cert.Spec.T4 4 16 4096 64) (ix4 b h l d)) := by
  obtain ⟨⟨a0, a1, a2, a3⟩, ⟨b0, b1, b2, b3⟩, ⟨c0, c1, c2, c3⟩, -⟩ := slab_of_point t
  refine ⟨?_, ?_, ?_⟩
  · show V c main_v6_1 (((cfg1.win 0).blk t).view.emb (ix4 (0 : Fin 1) (0 : Fin 1) l d)) = V c main_v6_1 (ix4 b h l d)
    refine congrArg _ (funext fun a => Fin.ext ?_)
    match a with
    | ⟨0, _⟩ => show win1_0.index t (0 : Fin 4) * 1 + 1 * 0 = b.val; omega
    | ⟨1, _⟩ => show win1_0.index t (1 : Fin 4) * 1 + 1 * 0 = h.val; omega
    | ⟨2, _⟩ => show win1_0.index t (2 : Fin 4) * 4096 + 1 * l.val = l.val; omega
    | ⟨3, _⟩ => show win1_0.index t (3 : Fin 4) * 64 + 1 * d.val = d.val; omega
  · show V c main_v6_2 (((cfg1.win 1).blk t).view.emb (ix4 (0 : Fin 1) (0 : Fin 1) l d)) = V c main_v6_2 (ix4 b h l d)
    refine congrArg _ (funext fun a => Fin.ext ?_)
    match a with
    | ⟨0, _⟩ => show win1_1.index t (0 : Fin 4) * 1 + 1 * 0 = b.val; omega
    | ⟨1, _⟩ => show win1_1.index t (1 : Fin 4) * 1 + 1 * 0 = h.val; omega
    | ⟨2, _⟩ => show win1_1.index t (2 : Fin 4) * 4096 + 1 * l.val = l.val; omega
    | ⟨3, _⟩ => show win1_1.index t (3 : Fin 4) * 64 + 1 * d.val = d.val; omega
  · show V c main_v6_3 (((cfg1.win 2).blk t).view.emb (ix4 (0 : Fin 1) (0 : Fin 1) l d)) = V c main_v6_3 (ix4 b h l d)
    refine congrArg _ (funext fun a => Fin.ext ?_)
    match a with
    | ⟨0, _⟩ => show win1_2.index t (0 : Fin 4) * 1 + 1 * 0 = b.val; omega
    | ⟨1, _⟩ => show win1_2.index t (1 : Fin 4) * 1 + 1 * 0 = h.val; omega
    | ⟨2, _⟩ => show win1_2.index t (2 : Fin 4) * 4096 + 1 * l.val = l.val; omega
    | ⟨3, _⟩ => show win1_2.index t (3 : Fin 4) * 64 + 1 * d.val = d.val; omega

/-- What point `t` writes back is block `t` of the attention of the three arrays as the call finds them. -/
theorem flushed_eq (c : Dev nD) (t : Fin cfg1.N) :
    (dat1 V c).flushed 3 t = ((cfg1.win 3).blk t).view.read (Elt Ideal)
      (Cert.Spec.attn (V c main_v6_1) (V c main_v6_2) (V c main_v6_3)) := by
  show (cfg1.win 3).cut (grid1.coords t) ((dat1 V c).after 3 t) = _
  rw [after1_3]
  unfold out1_3
  rw [View.canon_unit_zero zero_offsets]
  simp only [View.ld_unit_zero (S := S1x1x4096x64) zero_offsets]
  have hN : cfg1.N = 64 := N_1
  have ht : t.val < 64 := hN ▸ t.isLt
  obtain ⟨-, -, -, ⟨d0, d1, d2, d3⟩⟩ := slab_of_point t
  funext y
  obtain ⟨u, v, l, mm, rfl⟩ : ∃ (u v : Fin 1) (l : Fin 4096) (mm : Fin 64), y = ix4 u v l mm :=
    ⟨y 0, y 1, y 2, y 3, eq_ix4 y⟩
  show k1_pay1 (k1_pay2 (iblk1 V c 0 t) (iblk1 V c 1 t) (iblk1 V c 2 t)) (ix4 u v l mm)
    = Cert.Spec.attn (V c main_v6_1) (V c main_v6_2) (V c main_v6_3) (((cfg1.win 3).blk t).view.emb (ix4 u v l mm))
  refine (pay_eq_attnC (V c main_v6_1) (V c main_v6_2) (V c main_v6_3) (iblk1 V c 0 t) (iblk1 V c 1 t) (iblk1 V c 2 t)
    ⟨t.val / 16, by omega⟩ ⟨t.val % 16, by omega⟩
    (fun l d => (iblk_apply V c t _ _ rfl rfl l d).1) (fun l d => (iblk_apply V c t _ _ rfl rfl l d).2.1)
    (fun l d => (iblk_apply V c t _ _ rfl rfl l d).2.2) u v l mm).trans ?_
  have e : ((cfg1.win 3).blk t).view.emb (ix4 u v l mm)
      = (ix4 (⟨t.val / 16, by omega⟩ : Fin 4) (⟨t.val % 16, by omega⟩ : Fin 16) l mm : S4x16x4096x64.Idx) := by
    funext a; apply Fin.ext
    have hu : u.val = 0 := by omega
    have hv : v.val = 0 := by omega
    match a with
    | ⟨0, _⟩ => show win1_3.index t (0 : Fin 4) * 1 + 1 * u.val = t.val / 16; omega
    | ⟨1, _⟩ => show win1_3.index t (1 : Fin 4) * 1 + 1 * v.val = t.val % 16; omega
    | ⟨2, _⟩ => show win1_3.index t (2 : Fin 4) * 4096 + 1 * l.val = l.val; omega
    | ⟨3, _⟩ => show win1_3.index t (3 : Fin 4) * 64 + 1 * mm.val = mm.val; omega
  exact (congrArg (Cert.Spec.attn (V c main_v6_1) (V c main_v6_2) (V c main_v6_3)) e).symm

/-- An index of the output array is in point `t`'s block iff each coordinate is in the block's range on its axis. -/
theorem mem_blk (t : Fin cfg1.N) (i : S4x16x4096x64.Idx) :
    i ∈ ((cfg1.win 3).blk t).view.set ↔ ∀ a : Fin 4, win1_3.index t a * S1x1x4096x64.size a ≤ (i a).val
      ∧ (i a).val < win1_3.index t a * S1x1x4096x64.size a + S1x1x4096x64.size a := by
  show i ∈ ((View.whole main_v7).slice (win1_3.rect t)).set ↔ _
  rw [View.set_slice_whole, Rect.mem_set_unit]
  exact Iff.rfl

/-- The 64 slabs tile the output array: the entry at batch `b` and head `h` is in the block of point `16 b + h`. -/
theorem cover (i : S4x16x4096x64.Idx) :
    ∃ t : Fin cfg1.N, (cfg1.win 3).flush t = true ∧ i ∈ ((cfg1.win 3).blk t).view.set := by
  have hN : cfg1.N = 64 := N_1
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ : ∃ t : Fin cfg1.N, t.val = (i 0).val * 16 + (i 1).val := ⟨⟨(i 0).val * 16 + (i 1).val, by omega⟩, rfl⟩
  obtain ⟨-, -, -, ⟨d0, d1, d2, d3⟩⟩ := slab_of_point t
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 4096 ≤ (i 2).val ∧ (i 2).val < win1_3.index t (2 : Fin 4) * 4096 + 4096; omega
  | ⟨3, _⟩ => show win1_3.index t (3 : Fin 4) * 64 ≤ (i 3).val ∧ (i 3).val < win1_3.index t (3 : Fin 4) * 64 + 64; omega

/-- THE OUTPUT ARRAY after the call: the linear attention of the queries, keys and values as the call finds them. -/
theorem final (c : Dev nD) :
    (dat1 (F := Ideal) V c).arrAt 3 cfg1.N = Cert.Spec.attn (V c main_v6_1) (V c main_v6_2) (V c main_v6_3) :=
  (dat1 V c).arrAt_eq_of_cover 3 _ (fun t _ => flushed_eq V c t) cover

end Blocks

end Cert.KernelIdeal.Attn

end
-- ==== Proof.Final.lean ====
/-
  What the third region (the output projection, the residual and the root-mean-square normalisation of each row)
  leaves in its output array, as one function of the arrays the region finds.

  The body at a grid point: a 512 x 1024 block of A times the whole 1024 x 1024 weight, accumulated from zero, plus the
  same rows of the residual; then each row scaled by  rsqrt (mean of its squares + eps')  and each column by the
  normalisation weight. First the body's one stored value is read at an index (row r of the block, column e); then
  what grid point t writes back is shown to be rows  512 t ... 512 t + 511  of ONE function of the whole arrays;
  the 32 blocks cover the 16384 rows (row R lies in block R / 512), so the array ends holding that function.
-/
import proofs.«124907_j60988535603899_2_alg».proof.Proof.Gen.KernelIdeal.Frame
import proofs.«124907_j60988535603899_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

/-! ## Layout operations of a kept unit column, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p` of the operand at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index. -/
theorem rsqrt_apply {s : Shape} {φ : FTy} (v : FVec Ideal s φ) (i : s.Idx) : rsqrt v i = Ideal.rsqrt (v i) := rfl

/-! ## The body's operations that are not pointwise, read at an index -/

/-- The block times the weight, accumulated from zero, at (r, e): the sum over the 1024 contracted positions. -/
theorem matmul_zero_apply (x0 : FVec Ideal S512x1024 .bf16) (x1 : FVec Ideal S1024x1024 .bf16) (r : Fin 512) (e : Fin 1024) :
    matmul dot_S512x1024_S1024x1024_S512x1024_1_0_0_1_n_n none x0 x1 (constant (F := Ideal) S512x1024 .f32 0x00000000#32) (ix2 r e)
      = ∑ k : Fin 1024, x0 (ix2 r k) * x1 (ix2 k e) := by
  show FloatOps.matmul _ none x0 x1 _ (ix2 r e) = _
  rw [Ideal.matmul_constant_zero_apply,
    ← Equiv.sum_comp (contrEquiv1 dot_S512x1024_S1024x1024_S512x1024_1_0_0_1_n_n 1024 rfl rfl).symm]
  refine Finset.sum_congr rfl fun c _ => ?_
  have c2 := contrEquiv1_symm_val dot_S512x1024_S1024x1024_S512x1024_1_0_0_1_n_n 1024 rfl rfl c
  have l2 : dot_S512x1024_S1024x1024_S512x1024_1_0_0_1_n_n.lhsIdx (ix2 r e) ((contrEquiv1 _ 1024 rfl rfl).symm c) = ix2 r c := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact c2
  have r2 : dot_S512x1024_S1024x1024_S512x1024_1_0_0_1_n_n.rhsIdx (ix2 r e) ((contrEquiv1 _ 1024 rfl rfl).symm c) = ix2 c e := by
    funext ax; apply Fin.ext
    match ax with
    | ⟨0, _⟩ => simp [DotDims.rhsIdx, dot_S512x1024_S1024x1024_S512x1024_1_0_0_1_n_n]; exact c2
    | ⟨1, _⟩ => simp [DotDims.rhsIdx, dot_S512x1024_S1024x1024_S512x1024_1_0_0_1_n_n]; rfl
  rw [l2, r2]

/-- The sum along a row of a 512 x 1024 vector, at row r. -/
theorem rowSum_apply (v : FVec Ideal S512x1024 .f32) (h : S512x1024.Reduces [1] S512) (r : Fin 512) :
    multiReduction .add [1] S512 v 0x00000000#32 h (.inl rfl) rfl (ix1 r) = ∑ k : Fin 1024, v (ix2 r k) := by
  refine (Ideal.multiReduction_add_single v 0x00000000#32 h (.inl rfl) rfl (ix1 r)).trans ?_
  refine Finset.sum_congr rfl fun k _ => congrArg v ?_
  funext ax; apply Fin.ext
  match ax with
  | ⟨0, _⟩ => rfl
  | ⟨1, _⟩ => rfl

/-! ## The body's stored value at an index -/

/-- Row r of the block times column e of the weight, plus the residual at (r, e), over the loaded blocks. -/
def ymatC (x0 : FVec Ideal S512x1024 .bf16) (x1 : FVec Ideal S1024x1024 .bf16) (x2 : FVec Ideal S512x1024 .f32)
    (r : Fin 512) (e : Fin 1024) : EReal :=
  (∑ k : Fin 1024, x0 (ix2 r k) * x1 (ix2 k e)) + x2 (ix2 r e)

/-- The body's stored value at (r, e), over the loaded blocks: the row's entry scaled by the reciprocal root of the
    row's mean square plus eps', and by the column's weight. -/
def bodyC (x0 : FVec Ideal S512x1024 .bf16) (x1 : FVec Ideal S1024x1024 .bf16) (x2 : FVec Ideal S512x1024 .f32)
    (x3 : FVec Ideal S1x1024 .f32) (r : Fin 512) (e : Fin 1024) : EReal :=
  ymatC x0 x1 x2 r e
    * Ideal.rsqrt (Ideal.div (∑ q : Fin 1024, ymatC x0 x1 x2 r q * ymatC x0 x1 x2 r q) (Ideal.ofBits .f32 0x44800000#32)
        + Ideal.ofBits .f32 0x34000000#32)
    * x3 (ix2 0 e)

/-- The body's one stored value, read at row r and column e of the block. -/
theorem pay_apply (x0 : FVec Ideal S512x1024 .bf16) (x1 : FVec Ideal S1024x1024 .bf16) (x2 : FVec Ideal S512x1024 .f32)
    (x3 : FVec Ideal S1x1024 .f32) (r : Fin 512) (e : Fin 1024) :
    k2_pay1 (F := Ideal) x0 x1 x2 x3 (ix2 r e) = bodyC x0 x1 x2 x3 r e := by
  unfold k2_pay1
  simp only [shapeCast_self]
  rw [mulf_apply, mulf_apply, broadcastTo_a1_ab_apply, broadcastTo_1b_ab_apply, rsqrt_apply]
  simp only [addf_apply, divf_apply, broadcast_apply]
  rw [shapeCast_a_a1_apply, rowSum_apply]
  simp only [mulf_apply, addf_apply, matmul_zero_apply]
  rfl

/-- The body's stored value at (r, e) is the specification's entry at row R of the whole arrays, when row r of the two
    row blocks is row R of their arrays and the two resident blocks are their whole arrays. -/
theorem pay_eq_finC (x0 : FVec Ideal S512x1024 .bf16) (x1 : FVec Ideal S1024x1024 .bf16) (x2 : FVec Ideal S512x1024 .f32)
    (x3 : FVec Ideal S1x1024 .f32) (a : Cert.Spec.T2 16384 1024) (w : Cert.Spec.T2 1024 1024) (res : Cert.Spec.T2 16384 1024)
    (nw : Cert.Spec.T2 1 1024) (y : S512x1024.Idx) (r : Fin 512) (e : Fin 1024) (R : Fin 16384) (hy : y = ix2 r e)
    (h0 : ∀ k : Fin 1024, x0 (ix2 r k) = a (ix2 R k)) (h1 : ∀ (k q : Fin 1024), x1 (ix2 k q) = w (ix2 k q))
    (h2 : ∀ q : Fin 1024, x2 (ix2 r q) = res (ix2 R q)) (h3 : ∀ q : Fin 1024, x3 (ix2 0 q) = nw (ix2 0 q)) :
    k2_pay1 (F := Ideal) x0 x1 x2 x3 y = Cert.Spec.finC a w res nw R e := by
  subst hy
  rw [pay_apply]
  unfold bodyC ymatC Cert.Spec.finC Cert.Spec.yC
  simp only [h0, h1, h2, h3]

/-! ## From the blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 grid points: the three row-block windows are at block row t, column
    block 0; the two resident windows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the output array ends holding: the specification's function of the four arrays the region finds. -/
abbrev G (c : Dev nD) : Buf (Elt Ideal) ((c : Thread nD τ).loc main_v12) :=
  Cert.Spec.fin (V c main_v9) (V c main_v5) (V c main_v10) (V c main_v11)

/-- Window 0's block at point t, row r: row 512 t + r of the first array. -/
theorem blkA_apply (c : Dev nD) (t : Fin cfg2.N) (r : Fin 512) (k : Fin 1024) (R : Fin 16384) (hR : R.val = t.val * 512 + r.val) :
    (iblk2 V c 0 t : Vec Ideal S512x1024 .bf16) (ix2 r k) = (V c main_v9 : S16384x1024.Idx → EReal) (ix2 R k) := by
  obtain ⟨e0, e1, -⟩ := idx_facts t
  unfold iblk2
  rw [View.read_apply]
  show V c main_v9 _ = V c main_v9 _
  congr 1
  funext ax
  apply Fin.ext
  match ax with
  | ⟨0, _⟩ => show win2_0.index t (0 : Fin 2) * 512 + 1 * r.val = R.val; rw [e0, hR]; omega
  | ⟨1, _⟩ => show win2_0.index t (1 : Fin 2) * 1024 + 1 * k.val = k.val; rw [e1]; omega

/-- Window 1's block at any point: the whole second array. -/
theorem blkW_apply (c : Dev nD) (t : Fin cfg2.N) (k q : Fin 1024) :
    (iblk2 V c 1 t : Vec Ideal S1024x1024 .bf16) (ix2 k q) = (V c main_v5 : S1024x1024.Idx → EReal) (ix2 k q) := by
  obtain ⟨-, -, e0, e1, -⟩ := idx_facts t
  unfold iblk2
  rw [View.read_apply]
  show V c main_v5 _ = V c main_v5 _
  congr 1
  funext ax
  apply Fin.ext
  match ax with
  | ⟨0, _⟩ => show win2_1.index t (0 : Fin 2) * 1024 + 1 * k.val = k.val; rw [e0]; omega
  | ⟨1, _⟩ => show win2_1.index t (1 : Fin 2) * 1024 + 1 * q.val = q.val; rw [e1]; omega

/-- Window 2's block at point t, row r: row 512 t + r of the residual array. -/
theorem blkRes_apply (c : Dev nD) (t : Fin cfg2.N) (r : Fin 512) (q : Fin 1024) (R : Fin 16384) (hR : R.val = t.val * 512 + r.val) :
    (iblk2 V c 2 t : Vec Ideal S512x1024 .f32) (ix2 r q) = (V c main_v10 : S16384x1024.Idx → EReal) (ix2 R q) := by
  obtain ⟨-, -, -, -, e0, e1, -⟩ := idx_facts t
  unfold iblk2
  rw [View.read_apply]
  show V c main_v10 _ = V c main_v10 _
  congr 1
  funext ax
  apply Fin.ext
  match ax with
  | ⟨0, _⟩ => show win2_2.index t (0 : Fin 2) * 512 + 1 * r.val = R.val; rw [e0, hR]; omega
  | ⟨1, _⟩ => show win2_2.index t (1 : Fin 2) * 1024 + 1 * q.val = q.val; rw [e1]; omega

/-- Window 3's block at any point: the whole one-row weight. -/
theorem blkNw_apply (c : Dev nD) (t : Fin cfg2.N) (q : Fin 1024) :
    (iblk2 V c 3 t : Vec Ideal S1x1024 .f32) (ix2 0 q) = (V c main_v11 : S1x1024.Idx → EReal) (ix2 0 q) := by
  obtain ⟨-, -, -, -, -, -, e0, e1, -⟩ := idx_facts t
  unfold iblk2
  rw [View.read_apply]
  show V c main_v11 _ = V c main_v11 _
  congr 1
  funext ax
  apply Fin.ext
  match ax with
  | ⟨0, _⟩ => show win2_3.index t (0 : Fin 2) * 1 + 1 * 0 = 0; rw [e0]
  | ⟨1, _⟩ => show win2_3.index t (1 : Fin 2) * 1024 + 1 * q.val = q.val; rw [e1]; omega

/-- What point t writes back is block t (rows 512 t ... 512 t + 511) of `G` of the arrays as the region finds them. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero hz]
  simp only [View.ld_unit_zero (S := S512x1024) hz, View.ld_unit_zero (S := S1024x1024) hz, View.ld_unit_zero (S := S1x1024) hz]
  obtain ⟨-, -, -, -, -, -, -, -, e0, e1⟩ := idx_facts t
  funext j
  have hj0 : (j 0).val < 512 := (j 0).isLt
  have hj1 : (j 1).val < 1024 := (j 1).isLt
  have ht : t.val < 32 := lt_of_lt_of_eq t.isLt N_2
  have hx : (cfg2.win 4).xinj (grid2.coords t) j = ix2 (⟨(j 0).val, hj0⟩ : Fin 512) (⟨(j 1).val, hj1⟩ : Fin 1024) := by
    funext ax
    match ax with
    | ⟨0, _⟩ => rfl
    | ⟨1, _⟩ => rfl
  have key := pay_eq_finC (iblk2 V c 0 t) (iblk2 V c 1 t) (iblk2 V c 2 t) (iblk2 V c 3 t)
    (V c main_v9) (V c main_v5) (V c main_v10) (V c main_v11) _ ⟨(j 0).val, hj0⟩ ⟨(j 1).val, hj1⟩
    ⟨t.val * 512 + (j 0).val, by omega⟩ rfl
    (fun k => blkA_apply V c t _ k _ rfl) (fun k q => blkW_apply V c t k q)
    (fun q => blkRes_apply V c t _ q _ rfl) (fun q => blkNw_apply V c t q)
  show k2_pay1 (iblk2 V c 0 t) (iblk2 V c 1 t) (iblk2 V c 2 t) (iblk2 V c 3 t) ((cfg2.win 4).xinj (grid2.coords t) j) = _
  rw [hx]
  refine key.trans ?_
  have hR : (⟨t.val * 512 + (j 0).val, by omega⟩ : Fin 16384) = (((cfg2.win 4).blk t).view.emb j) 0 := by
    apply Fin.ext
    show t.val * 512 + (j 0).val = win2_4.index t (0 : Fin 2) * 512 + 1 * (j 0).val
    rw [e0]; omega
  have hE : (⟨(j 1).val, hj1⟩ : Fin 1024) = (((cfg2.win 4).blk t).view.emb j) 1 := by
    apply Fin.ext
    show (j 1).val = win2_4.index t (1 : Fin 2) * 1024 + 1 * (j 1).val
    rw [e1]; omega
  rw [hR, hE]
  rfl

/-- An index of the array is in point t's block iff each coordinate is in the block's range on its axis. -/
theorem mem_blk (t : Fin cfg2.N) (i : S16384x1024.Idx) :
    i ∈ ((cfg2.win 4).blk t).view.set ↔ ∀ a : Fin 2, win2_4.index t a * S512x1024.size a ≤ (i a).val ∧ (i a).val < win2_4.index t a * S512x1024.size a + S512x1024.size a := by
  show i ∈ ((View.whole main_v12).slice (win2_4.rect t)).set ↔ _
  rw [View.set_slice_whole, Rect.mem_set_unit]
  exact Iff.rfl

/-- The 32 blocks cover the array: row R lies in the block of point R / 512. -/
theorem cover (i : S16384x1024.Idx) : ∃ t : Fin cfg2.N, (cfg2.win 4).flush t = true ∧ i ∈ ((cfg2.win 4).blk t).view.set := by
  have hi0 : (i 0).val < 16384 := (i 0).isLt
  have hi1 : (i 1).val < 1024 := (i 1).isLt
  have hN : cfg2.N = 32 := N_2
  let t : Fin cfg2.N := ⟨(i 0).val / 512, by rw [hN]; omega⟩
  obtain ⟨-, -, -, -, -, -, -, -, e0, e1⟩ := idx_facts t
  have q0 : win2_4.index t (0 : Fin 2) = (i 0).val / 512 := e0
  refine ⟨t, flush2_4 t, ?_⟩
  rw [mem_blk]
  intro a
  match a with
  | ⟨0, _⟩ => show win2_4.index t (0 : Fin 2) * 512 ≤ (i 0).val ∧ (i 0).val < win2_4.index t (0 : Fin 2) * 512 + 512; rw [q0]; omega
  | ⟨1, _⟩ => show win2_4.index t (1 : Fin 2) * 1024 ≤ (i 1).val ∧ (i 1).val < win2_4.index t (1 : Fin 2) * 1024 + 1024; rw [e1]; omega

/-- THE OUTPUT ARRAY after the region: the specification's function of the four arrays the region finds. -/
theorem final (c : Dev nD) :
    (dat2 (F := Ideal) V c).arrAt 4 cfg2.N = Cert.Spec.fin (V c main_v9) (V c main_v5) (V c main_v10) (V c main_v11) :=
  (dat2 (F := Ideal) V c).arrAt_eq_of_cover 4 (G V c) (fun t _ => flushed_eq V c t) cover

end Region

end Cert.KernelIdeal.Final

end
-- ==== Proof.KRun.lean ====
/-
  The idealized kernel program's run with its RESULT named, and the host plumbing between its three regions.

  The program is: six host operations (each weight transposed, then converted to the narrow float format), the fused
  projection region, the linear-attention region, four reshapes, the output-projection region, and one reshape into
  the result.  The buffer contents at every boundary between these stretches are a fold from the launch memory
  (the generated `W0 … W6`).  Here:
    * `run_val`: every weakly fair execution terminates without a fault, the result buffer ends at the last
      boundary's contents, and the five arguments end as launched;
    * the plumbing: that fold read at ONE buffer — the result as a reshape of the last region's output array, each
      window array of a region as the host operations (or an earlier region's output array) left it.
-/
import proofs.«124907_j60988535603899_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, the result buffer read beside the arguments -/

-- the launch theorem's implicit arguments are found by unifying its conclusion with this one, which takes unfolding
-- plain definitions in a metavariable's type
set_option backward.isDefEq.respectTransparency.types false in
/-- At the compiled mesh, from any memory with zero counters, every weakly fair execution of the program on the
    TensorCores terminates, nothing faulting; in every final state the result buffer holds the last boundary's
    contents `W6` and the argument arrays are as launched.  The launch over the generated segments, the last
    thread state read against the final state at the result buffer and at each argument. -/
theorem run_val : θ_run defs (onTc (τ := τ) (main (F := F))) ⟨m, fun _ => 0, ρ⟩ (fun r => ∀ c : Dev nD,
      r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-! ## The plumbing: the fold read at one buffer

Each lemma unfolds the fold at ONE buffer: a host operation's result buffer holds its function of its operand's
contents, any other buffer what it held; a region's array holds what the region's write-backs leave, any other buffer
what it held at the region's entry. -/

/-! ### The result: the last region's output array, reshaped -/

/-- The result buffer at the end: the last reshape's value of the output-projection region's output array
    (window 4 of region 2) as that region leaves it. -/
theorem W6_main_v13 (c : Dev nD) :
    (W6 m ρ c (Proc.devRef .tc main_v13) : S4x4096x1024.Idx → Elt F .f32)
      = shapeCast S4x4096x1024 ((dat2 (V4 m ρ) c).arrAt 4 cfg2.N : S16384x1024.Idx → Elt F .f32) shapeCasts_S16384x1024_S4x4096x1024 := by
  have e : (W6 m ρ c (Proc.devRef .tc main_v13) : S4x4096x1024.Idx → Elt F .f32)
      = shapeCast S4x4096x1024 (W5 m ρ c (Proc.devRef .tc main_v12) : S16384x1024.Idx → Elt F .f32) shapeCasts_S16384x1024_S4x4096x1024 := by
    show StableHlo.after hostOps3 (W5 m ρ c) (Proc.devRef .tc main_v13) = _
    after_results; rfl
  exact e.trans (congrArg (fun x : S16384x1024.Idx → Elt F .f32 => shapeCast S4x4096x1024 x shapeCasts_S16384x1024_S4x4096x1024) (W5_arr m ρ c 4))

/-! ### Region 2's entry -/

/-- Window 0 of region 2 (the attention output as rows): the attention region's output array (window 3 of region 1)
    as that region leaves it, reshaped twice. -/
theorem V4_main_v9 (c : Dev nD) :
    (V4 m ρ c main_v9 : S16384x1024.Idx → Elt F .bf16)
      = shapeCast S16384x1024 (shapeCast S4x4096x1024 ((dat1 (V2 m ρ) c).arrAt 3 cfg1.N : S4x16x4096x64.Idx → Elt F .bf16)
          shapeCasts_S4x16x4096x64_S4x4096x1024) shapeCasts_S4x4096x1024_S16384x1024 := by
  have e : (V4 m ρ c main_v9 : S16384x1024.Idx → Elt F .bf16)
      = shapeCast S16384x1024 (shapeCast S4x4096x1024 (W3 m ρ c (Proc.devRef .tc main_v7) : S4x16x4096x64.Idx → Elt F .bf16)
          shapeCasts_S4x16x4096x64_S4x4096x1024) shapeCasts_S4x4096x1024_S16384x1024 := by
    show StableHlo.after hostOps2 (W3 m ρ c) (Proc.devRef .tc main_v9) = _
    after_results; rfl
  exact e.trans (congrArg (fun x : S4x16x4096x64.Idx → Elt F .bf16 => shapeCast S16384x1024 (shapeCast S4x4096x1024 x
    shapeCasts_S4x16x4096x64_S4x4096x1024) shapeCasts_S4x4096x1024_S16384x1024) (W3_arr m ρ c 3))

/-- Window 2 of region 2 (the residual as rows): the projection region's first output array (window 3 of region 0)
    as that region leaves it — the attention region does not touch it —, reshaped. -/
theorem V4_main_v10 (c : Dev nD) :
    (V4 m ρ c main_v10 : S16384x1024.Idx → Elt F .f32)
      = shapeCast S16384x1024 ((dat0 (V1 m ρ) c).arrAt 3 cfg0.N : S4x4096x1024.Idx → Elt F .f32) shapeCasts_S4x4096x1024_S16384x1024 := by
  have e : (V4 m ρ c main_v10 : S16384x1024.Idx → Elt F .f32)
      = shapeCast S16384x1024 (W3 m ρ c (Proc.devRef .tc main_v6_0) : S4x4096x1024.Idx → Elt F .f32) shapeCasts_S4x4096x1024_S16384x1024 := by
    show StableHlo.after hostOps2 (W3 m ρ c) (Proc.devRef .tc main_v10) = _
    after_results; rfl
  exact e.trans (congrArg (fun x : S4x4096x1024.Idx → Elt F .f32 => shapeCast S16384x1024 x shapeCasts_S4x4096x1024_S16384x1024)
    ((W3_of_ne m ρ c main_v6_0 (by decide)).trans (W2_arr m ρ c 3)))

/-- Window 1 of region 2 (the output weight): the third weight of the launch memory, transposed and converted —
    neither reshape and neither earlier region writes that buffer. -/
theorem V4_main_v5 (c : Dev nD) :
    (V4 m ρ c main_v5 : S1024x1024.Idx → Elt F .bf16)
      = truncf .bf16 (transpose S1024x1024 [1, 0] (m ((c.tc : Thread nD τ).loc main_arg3) : S1024x1024.Idx → Elt F .f32)
          transposes_S1024x1024_S1024x1024_1_0) bitsLt_bf16_f32 := by
  have e4 : (V4 m ρ c main_v5 : S1024x1024.Idx → Elt F .bf16) = W3 m ρ c (Proc.devRef .tc main_v5) := by
    show StableHlo.after hostOps2 (W3 m ρ c) (Proc.devRef .tc main_v5) = _
    after_results
  have e1 : (W1 m ρ c (Proc.devRef .tc main_v5) : S1024x1024.Idx → Elt F .bf16)
      = truncf .bf16 (transpose S1024x1024 [1, 0] (m ((c.tc : Thread nD τ).loc main_arg3) : S1024x1024.Idx → Elt F .f32)
          transposes_S1024x1024_S1024x1024_1_0) bitsLt_bf16_f32 := by
    show StableHlo.after hostOps0 (W0 m ρ c) (Proc.devRef .tc main_v5) = _
    after_results
  exact e4.trans ((W3_of_ne m ρ c main_v5 (by decide)).trans ((W2_of_ne m ρ c main_v5 (by decide)).trans e1))

/-- Window 3 of region 2 (the normalisation weight as one row): the last argument of the launch memory, reshaped —
    no operation and no region writes an argument. -/
theorem V4_main_v11 (c : Dev nD) :
    (V4 m ρ c main_v11 : S1x1024.Idx → Elt F .f32)
      = shapeCast S1x1024 (m ((c.tc : Thread nD τ).loc main_arg4) : S1024.Idx → Elt F .f32) shapeCasts_S1024_S1x1024 := by
  have e4 : (V4 m ρ c main_v11 : S1x1024.Idx → Elt F .f32)
      = shapeCast S1x1024 (W3 m ρ c (Proc.devRef .tc main_arg4) : S1024.Idx → Elt F .f32) shapeCasts_S1024_S1x1024 := by
    show StableHlo.after hostOps2 (W3 m ρ c) (Proc.devRef .tc main_v11) = _
    after_results; rfl
  have e1 : W1 m ρ c (Proc.devRef .tc main_arg4) = m ((c.tc : Thread nD τ).loc main_arg4) := by
    show StableHlo.after hostOps0 (W0 m ρ c) (Proc.devRef .tc main_arg4) = _
    after_results
  exact e4.trans (congrArg (fun x : S1024.Idx → Elt F .f32 => shapeCast S1x1024 x shapeCasts_S1024_S1x1024)
    ((W3_of_ne m ρ c main_arg4 (by decide)).trans ((W2_of_ne m ρ c main_arg4 (by decide)).trans e1)))

/-! ### Region 1's entry: the projection region's three head-major output arrays as it leaves them -/

theorem V2_main_v6_1 (c : Dev nD) :
    (V2 m ρ c main_v6_1 : S4x16x4096x64.Idx → Elt F .bf16) = (dat0 (V1 m ρ) c).arrAt 4 cfg0.N := W2_arr m ρ c 4
theorem V2_main_v6_2 (c : Dev nD) :
    (V2 m ρ c main_v6_2 : S4x16x4096x64.Idx → Elt F .bf16) = (dat0 (V1 m ρ) c).arrAt 5 cfg0.N := W2_arr m ρ c 5
theorem V2_main_v6_3 (c : Dev nD) :
    (V2 m ρ c main_v6_3 : S4x16x4096x64.Idx → Elt F .bf16) = (dat0 (V1 m ρ) c).arrAt 6 cfg0.N := W2_arr m ρ c 6

/-! ### Region 0's entry: the input as launched, the first two weights transposed and converted -/

theorem V1_main_arg0 (c : Dev nD) :
    (V1 m ρ c main_arg0 : S4x4096x512.Idx → Elt F .f32) = m ((c.tc : Thread nD τ).loc main_arg0) := by
  show StableHlo.after hostOps0 (W0 m ρ c) (Proc.devRef .tc main_arg0) = _
  after_results

theorem V1_main_v1 (c : Dev nD) :
    (V1 m ρ c main_v1 : S512x1024.Idx → Elt F .bf16)
      = truncf .bf16 (transpose S512x1024 [1, 0] (m ((c.tc : Thread nD τ).loc main_arg1) : S1024x512.Idx → Elt F .f32)
          transposes_S1024x512_S512x1024_1_0) bitsLt_bf16_f32 := by
  show StableHlo.after hostOps0 (W0 m ρ c) (Proc.devRef .tc main_v1) = _
  after_results

theorem V1_main_v3 (c : Dev nD) :
    (V1 m ρ c main_v3 : S1024x3072.Idx → Elt F .bf16)
      = truncf .bf16 (transpose S1024x3072 [1, 0] (m ((c.tc : Thread nD τ).loc main_arg2) : S3072x1024.Idx → Elt F .f32)
          transposes_S3072x1024_S1024x3072_1_0) bitsLt_bf16_f32 := by
  show StableHlo.after hostOps0 (W0 m ρ c) (Proc.devRef .tc main_v3) = _
  after_results

/-! ## The run with the result read through the last reshape -/

/-- `run_val` with the result buffer's final contents spelt out: the output-projection region's output array as the
    region leaves it, reshaped to the result's shape. -/
theorem run_res : θ_run defs (onTc (τ := τ) (main (F := F))) ⟨m, fun _ => 0, ρ⟩ (fun r => ∀ c : Dev nD,
      r.2.mem ((c.tc : Thread nD τ).loc main_v13)
        = shapeCast S4x4096x1024 ((dat2 (V4 m ρ) c).arrAt 4 cfg2.N : S16384x1024.Idx → Elt F .f32) shapeCasts_S16384x1024_S4x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W6_main_v13 m ρ c), (h c).2⟩) (run_val m ρ)

end Cert.KernelIdeal.KRun

end
-- ==== Proof.KVal.lean ====
/-
  The idealized kernel program's RESULT as one closed expression of its five arguments, over the extended reals.

  Each weight is transposed and converted to the narrow float format (the identity on extended reals, kept as the
  program writes it).  The fused projection gives the projected input XP and the three head-major parts Q, K, V of
  XP against the second weight; linear attention of (Q, K, V) per batch and head gives ATT; ATT is laid out as rows
  (two reshapes), XP as rows is the residual, the normalisation weight is one row; the output projection with the
  residual and the root-mean-square normalisation gives OUT as rows, and the result is OUT reshaped to
  (batch, position, feature).

  The three regions' closed forms — what each region's output arrays hold when it ends, in terms of what its
  window arrays held when it was entered — are hypotheses here; the plumbing between the regions composes them.
-/
import proofs.«124907_j60988535603899_2_alg».proof.Proof.KRun
import proofs.«124907_j60988535603899_2_alg».proof.Proof.Spec

set_option maxRecDepth 16384

noncomputable section

namespace Cert.KernelIdeal.KVal

open Cert.KernelIdeal Cert.KernelIdeal.Gen Cert.KernelIdeal.KRun
open Idealize.ShloMosaic Idealize.ShloMosaic.TcCoe Idealize.SL.Sem

/-! ## The weights as the program uses them -/

/-- The input weight (1024 x 512) transposed to 512 x 1024 and converted. -/
abbrev wIn (w_in : S1024x512.Idx → EReal) : S512x1024.Idx → EReal :=
  truncf (F := Ideal) (φ := .f32) .bf16 (transpose S512x1024 [1, 0] w_in transposes_S1024x512_S512x1024_1_0) bitsLt_bf16_f32

/-- The fused query-key-value weight (3072 x 1024) transposed to 1024 x 3072 and converted. -/
abbrev wQkv (w_qkv : S3072x1024.Idx → EReal) : S1024x3072.Idx → EReal :=
  truncf (F := Ideal) (φ := .f32) .bf16 (transpose S1024x3072 [1, 0] w_qkv transposes_S3072x1024_S1024x3072_1_0) bitsLt_bf16_f32

/-- The output weight (1024 x 1024) transposed and converted. -/
abbrev wOut (w_out : S1024x1024.Idx → EReal) : S1024x1024.Idx → EReal :=
  truncf (F := Ideal) (φ := .f32) .bf16 (transpose S1024x1024 [1, 0] w_out transposes_S1024x1024_S1024x1024_1_0) bitsLt_bf16_f32

/-! ## The result -/

/-- The program's result from its five arguments: the normalised output projection of linear attention over the
    fused projection, the projected input as the residual. -/
def kval (x : S4x4096x512.Idx → EReal) (w_in : S1024x512.Idx → EReal) (w_qkv : S3072x1024.Idx → EReal)
    (w_out : S1024x1024.Idx → EReal) (nw : S1024.Idx → EReal) : S4x4096x1024.Idx → EReal :=
  shapeCast S4x4096x1024
    (Cert.Spec.fin
      (shapeCast S16384x1024
        (shapeCast S4x4096x1024
          (Cert.Spec.attn (Cert.Spec.part 0 x (wIn w_in) (wQkv w_qkv)) (Cert.Spec.part 1 x (wIn w_in) (wQkv w_qkv))
            (Cert.Spec.part 2 x (wIn w_in) (wQkv w_qkv)))
          shapeCasts_S4x16x4096x64_S4x4096x1024)
        shapeCasts_S4x4096x1024_S16384x1024)
      (wOut w_out)
      (shapeCast S16384x1024 (Cert.Spec.xproj x (wIn w_in)) shapeCasts_S4x4096x1024_S16384x1024)
      (shapeCast S1x1024 nw shapeCasts_S1024_S1x1024))
    shapeCasts_S16384x1024_S4x4096x1024

/-! ## The last boundary's result buffer is that expression of the launch memory's arguments -/

/-- Given each region's closed form at ANY entry contents, the result buffer at the last boundary holds `kval` of
    the five argument arrays as launched: the last reshape of region 2's output; region 2's closed form at its entry;
    its window arrays as the reshapes and region 1 and region 0 left them; region 1's closed form; its window arrays
    as region 0 left them; region 0's closed forms; its window arrays as the first host operations left them. -/
theorem W6_val
    (hP3 : ∀ (V : (c : Dev nD) → (b : Ref sig .tc) → Buf (Elt Ideal) ((c : Thread nD τ).loc b)) (c : Dev nD),
      (dat0 (F := Ideal) V c).arrAt 3 cfg0.N = Cert.Spec.xproj (V c main_arg0) (V c main_v1))
    (hP4 : ∀ (V : (c : Dev nD) → (b : Ref sig .tc) → Buf (Elt Ideal) ((c : Thread nD τ).loc b)) (c : Dev nD),
      (dat0 (F := Ideal) V c).arrAt 4 cfg0.N = Cert.Spec.part 0 (V c main_arg0) (V c main_v1) (V c main_v3))
    (hP5 : ∀ (V : (c : Dev nD) → (b : Ref sig .tc) → Buf (Elt Ideal) ((c : Thread nD τ).loc b)) (c : Dev nD),
      (dat0 (F := Ideal) V c).arrAt 5 cfg0.N = Cert.Spec.part 1 (V c main_arg0) (V c main_v1) (V c main_v3))
    (hP6 : ∀ (V : (c : Dev nD) → (b : Ref sig .tc) → Buf (Elt Ideal) ((c : Thread nD τ).loc b)) (c : Dev nD),
      (dat0 (F := Ideal) V c).arrAt 6 cfg0.N = Cert.Spec.part 2 (V c main_arg0) (V c main_v1) (V c main_v3))
    (hA : ∀ (V : (c : Dev nD) → (b : Ref sig .tc) → Buf (Elt Ideal) ((c : Thread nD τ).loc b)) (c : Dev nD),
      (dat1 (F := Ideal) V c).arrAt 3 cfg1.N = Cert.Spec.attn (V c main_v6_1) (V c main_v6_2) (V c main_v6_3))
    (hF : ∀ (V : (c : Dev nD) → (b : Ref sig .tc) → Buf (Elt Ideal) ((c : Thread nD τ).loc b)) (c : Dev nD),
      (dat2 (F := Ideal) V c).arrAt 4 cfg2.N = Cert.Spec.fin (V c main_v9) (V c main_v5) (V c main_v10) (V c main_v11))
    (m : (ℓ : Loc nD τ sig) → Buf (Elt Ideal) ℓ) (ρ : Dev nD → PrngReg) (c : Dev nD) :
    W6 (F := Ideal) m ρ c (Proc.devRef .tc main_v13)
      = kval (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [W6_main_v13 m ρ c, hF (V4 m ρ) c, V4_main_v9 m ρ c, V4_main_v5 m ρ c, V4_main_v10 m ρ c, V4_main_v11 m ρ c,
    hA (V2 m ρ) c, V2_main_v6_1 m ρ c, V2_main_v6_2 m ρ c, V2_main_v6_3 m ρ c,
    hP3 (V1 m ρ) c, hP4 (V1 m ρ) c, hP5 (V1 m ρ) c, hP6 (V1 m ρ) c,
    V1_main_arg0 m ρ c, V1_main_v1 m ρ c, V1_main_v3 m ρ c]
  rfl

/-! ## The run -/

/-- Given each region's closed form, every weakly fair execution of the program terminates without a fault, its result
    buffer ends at `kval` of the argument arrays as launched, and the arguments end unchanged. -/
theorem run_kval
    (hP3 : ∀ (V : (c : Dev nD) → (b : Ref sig .tc) → Buf (Elt Ideal) ((c : Thread nD τ).loc b)) (c : Dev nD),
      (dat0 (F := Ideal) V c).arrAt 3 cfg0.N = Cert.Spec.xproj (V c main_arg0) (V c main_v1))
    (hP4 : ∀ (V : (c : Dev nD) → (b : Ref sig .tc) → Buf (Elt Ideal) ((c : Thread nD τ).loc b)) (c : Dev nD),
      (dat0 (F := Ideal) V c).arrAt 4 cfg0.N = Cert.Spec.part 0 (V c main_arg0) (V c main_v1) (V c main_v3))
    (hP5 : ∀ (V : (c : Dev nD) → (b : Ref sig .tc) → Buf (Elt Ideal) ((c : Thread nD τ).loc b)) (c : Dev nD),
      (dat0 (F := Ideal) V c).arrAt 5 cfg0.N = Cert.Spec.part 1 (V c main_arg0) (V c main_v1) (V c main_v3))
    (hP6 : ∀ (V : (c : Dev nD) → (b : Ref sig .tc) → Buf (Elt Ideal) ((c : Thread nD τ).loc b)) (c : Dev nD),
      (dat0 (F := Ideal) V c).arrAt 6 cfg0.N = Cert.Spec.part 2 (V c main_arg0) (V c main_v1) (V c main_v3))
    (hA : ∀ (V : (c : Dev nD) → (b : Ref sig .tc) → Buf (Elt Ideal) ((c : Thread nD τ).loc b)) (c : Dev nD),
      (dat1 (F := Ideal) V c).arrAt 3 cfg1.N = Cert.Spec.attn (V c main_v6_1) (V c main_v6_2) (V c main_v6_3))
    (hF : ∀ (V : (c : Dev nD) → (b : Ref sig .tc) → Buf (Elt Ideal) ((c : Thread nD τ).loc b)) (c : Dev nD),
      (dat2 (F := Ideal) V c).arrAt 4 cfg2.N = Cert.Spec.fin (V c main_v9) (V c main_v5) (V c main_v10) (V c main_v11))
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13)
        = kval (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W6_val hP3 hP4 hP5 hP6 hA hF m ρ c), (h c).2⟩) (run_val m ρ)

end Cert.KernelIdeal.KVal

end
-- ==== Proof.RefStages.lean ====
/-
  The reference's value, stage by stage, each stage a function of the stages it reads, written as the program
  computes it: the two projections (contractions against the weights' second axis), the split of the fused
  projection into queries, keys and values (a reshape to (4, 4096, 3, 16, 64), the transpose to (3, 4, 16, 4096, 64),
  a unit slice, a reshape), the feature map  elu z + 1  as jax expands it, the three contractions and the sum over
  positions of linear attention, the quotient, the raw reshape of (4, 16, 4096, 64) to (4, 4096, 1024), the output
  projection, the residual, and the root-mean-square normalisation scaled by the weight vector.
-/
import proofs.«124907_j60988535603899_2_alg».proof.Proof.Gen.ReferenceIdeal

noncomputable section

namespace Cert.ReferenceIdeal.RefStages

open Idealize.ShloMosaic Cert.ReferenceIdeal Cert.ReferenceIdeal.Facts₀ Cert.ReferenceIdeal.Facts

variable {F : FTy → Type} [FloatOps F]

/-- x_proj[b,l,d] = sum_i x[b,l,i] * w_in[d,i]. -/
def xp (x : FVec F S4x4096x512 .f32) (w_in : FVec F S1024x512 .f32) : FVec F S4x4096x1024 .f32 :=
  Host.dotGeneral dot_S4x4096x512_S1024x512_S4x4096x1024_2_1_01_0_n_n none x w_in

/-- qkv[b,l,e] = sum_d x_proj[b,l,d] * w_qkv[e,d]. -/
def qkv (p : FVec F S4x4096x1024 .f32) (w_qkv : FVec F S3072x1024 .f32) : FVec F S4x4096x3072 .f32 :=
  Host.dotGeneral dot_S4x4096x1024_S3072x1024_S4x4096x3072_2_1_01_0_n_n none p w_qkv

/-- The fused projection as (part, batch, head, position, feature). -/
def tr5 (z : FVec F S4x4096x3072 .f32) : FVec F S3x4x16x4096x64 .f32 :=
  transpose S3x4x16x4096x64 [2, 0, 3, 1, 4] (shapeCast S4x4096x3x16x64 z shapeCasts_S4x4096x3072_S4x4096x3x16x64)
    transposes_S4x4096x3x16x64_S3x4x16x4096x64_2_0_3_1_4

/-- The queries. -/
def prt0 (z : FVec F S4x4096x3072 .f32) : FVec F S4x16x4096x64 .f32 :=
  shapeCast S4x16x4096x64 (extractStridedSlice S1x4x16x4096x64 ![0, 0, 0, 0, 0] (tr5 z) slices_S3x4x16x4096x64_S1x4x16x4096x64_0_0_0_0_0)
    shapeCasts_S1x4x16x4096x64_S4x16x4096x64
/-- The keys. -/
def prt1 (z : FVec F S4x4096x3072 .f32) : FVec F S4x16x4096x64 .f32 :=
  shapeCast S4x16x4096x64 (extractStridedSlice S1x4x16x4096x64 ![1, 0, 0, 0, 0] (tr5 z) slices_S3x4x16x4096x64_S1x4x16x4096x64_1_0_0_0_0)
    shapeCasts_S1x4x16x4096x64_S4x16x4096x64
/-- The values. -/
def prt2 (z : FVec F S4x4096x3072 .f32) : FVec F S4x16x4096x64 .f32 :=
  shapeCast S4x16x4096x64 (extractStridedSlice S1x4x16x4096x64 ![2, 0, 0, 0, 0] (tr5 z) slices_S3x4x16x4096x64_S1x4x16x4096x64_2_0_0_0_0)
    shapeCasts_S1x4x16x4096x64_S4x16x4096x64

/-- The zero and the one, broadcast over (4, 16, 4096, 64). -/
def zeroB : FVec F S4x16x4096x64 .f32 := broadcastInDim S4x16x4096x64 ![] bcast_S_S4x16x4096x64 (constant S_ .f32 0x00000000#32)
def oneB : FVec F S4x16x4096x64 .f32 := broadcastInDim S4x16x4096x64 ![] bcast_S_S4x16x4096x64 (constant S_ .f32 0x3F800000#32)

/-- elu z + 1 as jax expands it:  select (z > 0) z (1 * expm1 (select (z > 0) 0 z)) + 1. -/
def elu1 (z : FVec F S4x16x4096x64 .f32) : FVec F S4x16x4096x64 .f32 :=
  addf (select (cmpf .ogt z zeroB) z
      (mulf oneB (Host.expm1 (select (cmpf .ogt z zeroB)
        (broadcastInDim S4x16x4096x64 ![] bcast_S_S4x16x4096x64 (id (constant S_ .f32 0x00000000#32))) z)))) oneB

/-- KV[b,h,d,m] = sum_l kf[b,h,l,d] * v[b,h,l,m]. -/
def kv (kf v : FVec F S4x16x4096x64 .f32) : FVec F S4x16x64x64 .f32 :=
  Host.dotGeneral dot_S4x16x4096x64_S4x16x4096x64_S4x16x64x64_2_2_3_3_01_01 none kf v

/-- NUM[b,h,l,m] = sum_d qf[b,h,l,d] * KV[b,h,d,m]. -/
def num (qf : FVec F S4x16x4096x64 .f32) (kvm : FVec F S4x16x64x64 .f32) : FVec F S4x16x4096x64 .f32 :=
  Host.dotGeneral dot_S4x16x4096x64_S4x16x64x64_S4x16x4096x64_3_2_2_3_01_01 none qf kvm

/-- KS[b,h,0,d] = sum_l kf[b,h,l,d]. -/
def ksum (kf : FVec F S4x16x4096x64 .f32) : FVec F S4x16x1x64 .f32 :=
  broadcastInDim S4x16x1x64 ![0, 1, 3] bcast_S4x16x64_S4x16x1x64_0_1_3
    (Host.reduceAdd kf (constant S_ .f32 0x00000000#32) reducesTo_S4x16x4096x64_S4x16x64_d2 h_S_)

/-- DEN[b,h,l,m] = sum_d qf[b,h,l,d] * KS[b,h,0,d] + eps, the same for every m. -/
def den (qf : FVec F S4x16x4096x64 .f32) (ks : FVec F S4x16x1x64 .f32) : FVec F S4x16x4096x64 .f32 :=
  broadcastInDim S4x16x4096x64 ![0, 1, 2, 3] bcast_S4x16x4096x1_S4x16x4096x64_0_1_2_3
    (addf (Host.dotGeneral dot_S4x16x4096x64_S4x16x1x64_S4x16x4096x1_3_3_2_2_01_01 none qf ks)
      (broadcastInDim S4x16x4096x1 ![] bcast_S_S4x16x4096x1 (constant S_ .f32 0x322BCC77#32)))

def att (n d : FVec F S4x16x4096x64 .f32) : FVec F S4x16x4096x64 .f32 := Host.divf n d

/-- The raw reshape of (4, 16, 4096, 64) to (4, 4096, 1024). -/
def flat (a : FVec F S4x16x4096x64 .f32) : FVec F S4x4096x1024 .f32 :=
  shapeCast S4x4096x1024 a shapeCasts_S4x16x4096x64_S4x4096x1024

/-- PROJ[b,l,e] = sum_k f[b,l,k] * w_out[e,k]. -/
def proj (f : FVec F S4x4096x1024 .f32) (w_out : FVec F S1024x1024 .f32) : FVec F S4x4096x1024 .f32 :=
  Host.dotGeneral dot_S4x4096x1024_S1024x1024_S4x4096x1024_2_1_01_0_n_n none f w_out

def ysum (p xpv : FVec F S4x4096x1024 .f32) : FVec F S4x4096x1024 .f32 := addf p xpv

/-- y * rsqrt(mean over the last axis of y*y + eps) * nw. -/
def outp (y : FVec F S4x4096x1024 .f32) (nw : FVec F S1024 .f32) : FVec F S4x4096x1024 .f32 :=
  mulf
    (mulf y (broadcastInDim S4x4096x1024 ![0, 1, 2] bcast_S4x4096x1_S4x4096x1024_0_1_2
      (Host.rsqrt (addf
        (Host.divf
          (broadcastInDim S4x4096x1 ![0, 1] bcast_S4x4096_S4x4096x1_0_1
            (Host.reduceAdd (mulf y y) (constant S_ .f32 0x00000000#32) reducesTo_S4x4096x1024_S4x4096_d2 h_S_))
          (broadcastInDim S4x4096x1 ![] bcast_S_S4x4096x1 (constant S_ .f32 0x44800000#32)))
        (broadcastInDim S4x4096x1 ![] bcast_S_S4x4096x1 (constant S_ .f32 0x34000000#32))))))
    (broadcastInDim S4x4096x1024 ![0, 1, 2] bcast_S1x1x1024_S4x4096x1024_0_1_2
      (broadcastInDim S1x1x1024 ![2] bcast_S1024_S1x1x1024_2 nw))

/-- Linear attention of the three parts. -/
def attention (q k v : FVec F S4x16x4096x64 .f32) : FVec F S4x16x4096x64 .f32 :=
  att (num (elu1 q) (kv (elu1 k) v)) (den (elu1 q) (ksum (elu1 k)))

/-- The reference's result as a function of its five arguments. -/
def val (x : FVec F S4x4096x512 .f32) (w_in : FVec F S1024x512 .f32) (w_qkv : FVec F S3072x1024 .f32)
    (w_out : FVec F S1024x1024 .f32) (nw : FVec F S1024 .f32) : FVec F S4x4096x1024 .f32 :=
  outp (ysum (proj (flat (attention (prt0 (qkv (xp x w_in) w_qkv)) (prt1 (qkv (xp x w_in) w_qkv)) (prt2 (qkv (xp x w_in) w_qkv))))
    w_out) (xp x w_in)) nw

end Cert.ReferenceIdeal.RefStages

end
-- ==== Proof.RefRun.lean ====
/-
  The reference program's run, read back.

  The reference computes, on one device, linear attention with the feature map  elu + 1  between an input projection,
  a fused query/key/value projection, an output projection with a residual, and a root-mean-square normalisation.
  Its @main is a straight line of host operations with two calls of the function computing  elu; that function calls
  two selection helpers.  Unfolding the calls gives one list of seventy-six operations (`ops`).  Every weakly fair
  execution of that line terminates, leaves the five arguments unchanged, and leaves in the result buffer the value
  `RefStages.val` of the arguments' launch contents: the composition, stage by stage, of the operations' functions.
-/
import proofs.«124907_j60988535603899_2_alg».proof.Proof.Gen.ReferenceIdeal
import proofs.«124907_j60988535603899_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's operations in order, the calls unfolded.  One call of the function computing  elu  is fifteen operations
    over that call's buffers: the zero and its broadcast, the comparison  z > 0  (twice: once for each selection),
    the first helper's three (the zero converted to its own type, broadcast, the selection of  0  where  z > 0  and
    z  elsewhere), the exponential minus one, the one and its broadcast, their product, and the second helper's
    selection of  z  where  z > 0  and that product elsewhere. -/
abbrev ops : List (HloOp τ sig (Elt F)) :=
  [ binary main_arg0 main_arg1 main_v0 ((fun l r => Host.dotGeneral dot_S4x4096x512_S1024x512_S4x4096x1024_2_1_01_0_n_n none l r) : (⟨S4x4096x512, .f32⟩ : BufTy).Contents (Elt F) → (⟨S1024x512, .f32⟩ : BufTy).Contents (Elt F) → (⟨S4x4096x1024, .f32⟩ : BufTy).Contents (Elt F)),
    binary main_v0 main_arg2 main_v1 ((fun l r => Host.dotGeneral dot_S4x4096x1024_S3072x1024_S4x4096x3072_2_1_01_0_n_n none l r) : (⟨S4x4096x1024, .f32⟩ : BufTy).Contents (Elt F) → (⟨S3072x1024, .f32⟩ : BufTy).Contents (Elt F) → (⟨S4x4096x3072, .f32⟩ : BufTy).Contents (Elt F)),
    reshape main_v1 main_v2 rfl shapeCasts_S4x4096x3072_S4x4096x3x16x64,
    unary main_v2 main_v3 ((transpose S3x4x16x4096x64 [2, 0, 3, 1, 4] · transposes_S4x4096x3x16x64_S3x4x16x4096x64_2_0_3_1_4) : (⟨S4x4096x3x16x64, .f32⟩ : BufTy).Contents (Elt F) → (⟨S3x4x16x4096x64, .f32⟩ : BufTy).Contents (Elt F)),
    unary main_v3 main_v4 ((extractStridedSlice S1x4x16x4096x64 ![0, 0, 0, 0, 0] · slices_S3x4x16x4096x64_S1x4x16x4096x64_0_0_0_0_0) : (⟨S3x4x16x4096x64, .f32⟩ : BufTy).Contents (Elt F) → (⟨S1x4x16x4096x64, .f32⟩ : BufTy).Contents (Elt F)),
    reshape main_v4 main_v5 rfl shapeCasts_S1x4x16x4096x64_S4x16x4096x64,
    unary main_v3 main_v6 ((extractStridedSlice S1x4x16x4096x64 ![1, 0, 0, 0, 0] · slices_S3x4x16x4096x64_S1x4x16x4096x64_1_0_0_0_0) : (⟨S3x4x16x4096x64, .f32⟩ : BufTy).Contents (Elt F) → (⟨S1x4x16x4096x64, .f32⟩ : BufTy).Contents (Elt F)),
    reshape main_v6 main_v7 rfl shapeCasts_S1x4x16x4096x64_S4x16x4096x64,
    unary main_v3 main_v8 ((extractStridedSlice S1x4x16x4096x64 ![2, 0, 0, 0, 0] · slices_S3x4x16x4096x64_S1x4x16x4096x64_2_0_0_0_0) : (⟨S3x4x16x4096x64, .f32⟩ : BufTy).Contents (Elt F) → (⟨S1x4x16x4096x64, .f32⟩ : BufTy).Contents (Elt F)),
    reshape main_v8 main_v9 rfl shapeCasts_S1x4x16x4096x64_S4x16x4096x64,
    TRef.nullary main_call0.cst (constant S_ .f32 0x00000000#32),
    TRef.unary main_call0.cst main_call0.v0 (broadcastInDim S4x16x4096x64 ![] bcast_S_S4x16x4096x64),
    TRef.binary (TRef.of (T := ⟨S4x16x4096x64, .f32⟩) main_v5) main_call0.v0 main_call0.v1 (cmpf .ogt),
    TRef.nullary main_call0.cst_0 (constant S_ .f32 0x00000000#32),
    TRef.unary main_call0.cst_0 main_call0.v2 (broadcastInDim S4x16x4096x64 ![] bcast_S_S4x16x4096x64),
    TRef.binary (TRef.of (T := ⟨S4x16x4096x64, .f32⟩) main_v5) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x16x4096x64 ![] bcast_S_S4x16x4096x64),
    TRef.ternary main_call0.v3 main_call0.call0.v1 (TRef.of (T := ⟨S4x16x4096x64, .f32⟩) main_v5) main_call0.call0.v2 select,
    TRef.unary main_call0.call0.v2 main_call0.v5 Host.expm1,
    TRef.nullary main_call0.cst_2 (constant S_ .f32 0x3F800000#32),
    TRef.unary main_call0.cst_2 main_call0.v6 (broadcastInDim S4x16x4096x64 ![] bcast_S_S4x16x4096x64),
    TRef.binary main_call0.v6 main_call0.v5 main_call0.v7 mulf,
    TRef.ternary main_call0.v1 (TRef.of (T := ⟨S4x16x4096x64, .f32⟩) main_v5) main_call0.v7 main_call0.call1.v0 select,
    nullary main_cst (constant S_ .f32 0x3F800000#32),
    unary main_cst main_v11 (broadcastInDim S4x16x4096x64 ![] bcast_S_S4x16x4096x64 : (⟨S_, .f32⟩ : BufTy).Contents (Elt F) → (⟨S4x16x4096x64, .f32⟩ : BufTy).Contents (Elt F)),
    binary main_v10 main_v11 main_v12 (addf : (⟨S4x16x4096x64, .f32⟩ : BufTy).Contents (Elt F) → (⟨S4x16x4096x64, .f32⟩ : BufTy).Contents (Elt F) → (⟨S4x16x4096x64, .f32⟩ : BufTy).Contents (Elt F)),
    TRef.nullary main_call1.cst (constant S_ .f32 0x00000000#32),
    TRef.unary main_call1.cst main_call1.v0 (broadcastInDim S4x16x4096x64 ![] bcast_S_S4x16x4096x64),
    TRef.binary (TRef.of (T := ⟨S4x16x4096x64, .f32⟩) main_v7) main_call1.v0 main_call1.v1 (cmpf .ogt),
    TRef.nullary main_call1.cst_0 (constant S_ .f32 0x00000000#32),
    TRef.unary main_call1.cst_0 main_call1.v2 (broadcastInDim S4x16x4096x64 ![] bcast_S_S4x16x4096x64),
    TRef.binary (TRef.of (T := ⟨S4x16x4096x64, .f32⟩) main_v7) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x16x4096x64 ![] bcast_S_S4x16x4096x64),
    TRef.ternary main_call1.v3 main_call1.call0.v1 (TRef.of (T := ⟨S4x16x4096x64, .f32⟩) main_v7) main_call1.call0.v2 select,
    TRef.unary main_call1.call0.v2 main_call1.v5 Host.expm1,
    TRef.nullary main_call1.cst_2 (constant S_ .f32 0x3F800000#32),
    TRef.unary main_call1.cst_2 main_call1.v6 (broadcastInDim S4x16x4096x64 ![] bcast_S_S4x16x4096x64),
    TRef.binary main_call1.v6 main_call1.v5 main_call1.v7 mulf,
    TRef.ternary main_call1.v1 (TRef.of (T := ⟨S4x16x4096x64, .f32⟩) main_v7) main_call1.v7 main_call1.call1.v0 select,
    nullary main_cst_0 (constant S_ .f32 0x3F800000#32),
    unary main_cst_0 main_v14 (broadcastInDim S4x16x4096x64 ![] bcast_S_S4x16x4096x64 : (⟨S_, .f32⟩ : BufTy).Contents (Elt F) → (⟨S4x16x4096x64, .f32⟩ : BufTy).Contents (Elt F)),
    binary main_v13 main_v14 main_v15 (addf : (⟨S4x16x4096x64, .f32⟩ : BufTy).Contents (Elt F) → (⟨S4x16x4096x64, .f32⟩ : BufTy).Contents (Elt F) → (⟨S4x16x4096x64, .f32⟩ : BufTy).Contents (Elt F)),
    binary main_v15 main_v9 main_v16 ((fun l r => Host.dotGeneral dot_S4x16x4096x64_S4x16x4096x64_S4x16x64x64_2_2_3_3_01_01 none l r) : (⟨S4x16x4096x64, .f32⟩ : BufTy).Contents (Elt F) → (⟨S4x16x4096x64, .f32⟩ : BufTy).Contents (Elt F) → (⟨S4x16x64x64, .f32⟩ : BufTy).Contents (Elt F)),
    binary main_v12 main_v16 main_v17 ((fun l r => Host.dotGeneral dot_S4x16x4096x64_S4x16x64x64_S4x16x4096x64_3_2_2_3_01_01 none l r) : (⟨S4x16x4096x64, .f32⟩ : BufTy).Contents (Elt F) → (⟨S4x16x64x64, .f32⟩ : BufTy).Contents (Elt F) → (⟨S4x16x4096x64, .f32⟩ : BufTy).Contents (Elt F)),
    nullary main_cst_1 (constant S_ .f32 0x00000000#32),
    binary main_v15 main_cst_1 main_v18 ((fun x v => Host.reduceAdd x v reducesTo_S4x16x4096x64_S4x16x64_d2 h_S_) : (⟨S4x16x4096x64, .f32⟩ : BufTy).Contents (Elt F) → (⟨S_, .f32⟩ : BufTy).Contents (Elt F) → (⟨S4x16x64, .f32⟩ : BufTy).Contents (Elt F)),
    unary main_v18 main_v19 (broadcastInDim S4x16x1x64 ![0, 1, 3] bcast_S4x16x64_S4x16x1x64_0_1_3 : (⟨S4x16x64, .f32⟩ : BufTy).Contents (Elt F) → (⟨S4x16x1x64, .f32⟩ : BufTy).Contents (Elt F)),
    binary main_v12 main_v19 main_v20 ((fun l r => Host.dotGeneral dot_S4x16x4096x64_S4x16x1x64_S4x16x4096x1_3_3_2_2_01_01 none l r) : (⟨S4x16x4096x64, .f32⟩ : BufTy).Contents (Elt F) → (⟨S4x16x1x64, .f32⟩ : BufTy).Contents (Elt F) → (⟨S4x16x4096x1, .f32⟩ : BufTy).Contents (Elt F)),
    nullary main_cst_2 (constant S_ .f32 0x322BCC77#32),
    unary main_cst_2 main_v21 (broadcastInDim S4x16x4096x1 ![] bcast_S_S4x16x4096x1 : (⟨S_, .f32⟩ : BufTy).Contents (Elt F) → (⟨S4x16x4096x1, .f32⟩ : BufTy).Contents (Elt F)),
    binary main_v20 main_v21 main_v22 (addf : (⟨S4x16x4096x1, .f32⟩ : BufTy).Contents (Elt F) → (⟨S4x16x4096x1, .f32⟩ : BufTy).Contents (Elt F) → (⟨S4x16x4096x1, .f32⟩ : BufTy).Contents (Elt F)),
    unary main_v22 main_v23 (broadcastInDim S4x16x4096x64 ![0, 1, 2, 3] bcast_S4x16x4096x1_S4x16x4096x64_0_1_2_3 : (⟨S4x16x4096x1, .f32⟩ : BufTy).Contents (Elt F) → (⟨S4x16x4096x64, .f32⟩ : BufTy).Contents (Elt F)),
    binary main_v17 main_v23 main_v24 (Host.divf : (⟨S4x16x4096x64, .f32⟩ : BufTy).Contents (Elt F) → (⟨S4x16x4096x64, .f32⟩ : BufTy).Contents (Elt F) → (⟨S4x16x4096x64, .f32⟩ : BufTy).Contents (Elt F)),
    reshape main_v24 main_v25 rfl shapeCasts_S4x16x4096x64_S4x4096x1024,
    binary main_v25 main_arg3 main_v26 ((fun l r => Host.dotGeneral dot_S4x4096x1024_S1024x1024_S4x4096x1024_2_1_01_0_n_n none l r) : (⟨S4x4096x1024, .f32⟩ : BufTy).Contents (Elt F) → (⟨S1024x1024, .f32⟩ : BufTy).Contents (Elt F) → (⟨S4x4096x1024, .f32⟩ : BufTy).Contents (Elt F)),
    binary main_v26 main_v0 main_v27 (addf : (⟨S4x4096x1024, .f32⟩ : BufTy).Contents (Elt F) → (⟨S4x4096x1024, .f32⟩ : BufTy).Contents (Elt F) → (⟨S4x4096x1024, .f32⟩ : BufTy).Contents (Elt F)),
    binary main_v27 main_v27 main_v28 (mulf : (⟨S4x4096x1024, .f32⟩ : BufTy).Contents (Elt F) → (⟨S4x4096x1024, .f32⟩ : BufTy).Contents (Elt F) → (⟨S4x4096x1024, .f32⟩ : BufTy).Contents (Elt F)),
    nullary main_cst_3 (constant S_ .f32 0x00000000#32),
    binary main_v28 main_cst_3 main_v29 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_4 (constant S_ .f32 0x44800000#32),
    unary main_cst_4 main_v31 (broadcastInDim S4x4096x1 ![] bcast_S_S4x4096x1 : (⟨S_, .f32⟩ : BufTy).Contents (Elt F) → (⟨S4x4096x1, .f32⟩ : BufTy).Contents (Elt F)),
    binary main_v30 main_v31 main_v32 (Host.divf : (⟨S4x4096x1, .f32⟩ : BufTy).Contents (Elt F) → (⟨S4x4096x1, .f32⟩ : BufTy).Contents (Elt F) → (⟨S4x4096x1, .f32⟩ : BufTy).Contents (Elt F)),
    nullary main_cst_5 (constant S_ .f32 0x34000000#32),
    unary main_cst_5 main_v33 (broadcastInDim S4x4096x1 ![] bcast_S_S4x4096x1 : (⟨S_, .f32⟩ : BufTy).Contents (Elt F) → (⟨S4x4096x1, .f32⟩ : BufTy).Contents (Elt F)),
    binary main_v32 main_v33 main_v34 (addf : (⟨S4x4096x1, .f32⟩ : BufTy).Contents (Elt F) → (⟨S4x4096x1, .f32⟩ : BufTy).Contents (Elt F) → (⟨S4x4096x1, .f32⟩ : BufTy).Contents (Elt F)),
    unary main_v34 main_v35 (Host.rsqrt : (⟨S4x4096x1, .f32⟩ : BufTy).Contents (Elt F) → (⟨S4x4096x1, .f32⟩ : BufTy).Contents (Elt F)),
    unary main_v35 main_v36 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v27 main_v36 main_v37 (mulf : (⟨S4x4096x1024, .f32⟩ : BufTy).Contents (Elt F) → (⟨S4x4096x1024, .f32⟩ : BufTy).Contents (Elt F) → (⟨S4x4096x1024, .f32⟩ : BufTy).Contents (Elt F)),
    unary main_arg4 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v37 main_v39 main_v40 (mulf : (⟨S4x4096x1024, .f32⟩ : BufTy).Contents (Elt F) → (⟨S4x4096x1024, .f32⟩ : BufTy).Contents (Elt F) → (⟨S4x4096x1024, .f32⟩ : BufTy).Contents (Elt F)) ]

-- seventy-six binds re-associated: the rewriting under the chain recurses once per statement
set_option maxRecDepth 8192 in
set_option maxHeartbeats 2000000 in
/-- @main is that straight line: the functions' definitions unfolded at their calls and the records at their fields,
    both sides are one chain of steps once sequencing is re-associated. -/
theorem main_eq (c : Dev nD) : main (F := F) c = seq ops := by
  simp only [main, fn_elu.body, fn_where.body, fn_where_0.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., binary_bufs_sub .., reshape_bufs_sub .., unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., unary_bufs_sub .., binary_bufs_sub .., reshape_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-! ## The run -/

set_option maxRecDepth 8192 in
set_option maxHeartbeats 4000000 in
/-- The fold of the operations at the result buffer is the staged value of the contents at the argument buffers:
    each operation's result at its own buffer is its function of its operands' contents, at any other buffer what
    was there; what remains are the identity transports around the called functions' operations and the stages'
    definitions, all by computation. -/
theorem after_v40 (V : Valuation τ sig (Elt F)) :
    after ops V (main_v40 : DevRef τ sig)
      = RefStages.val (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 1000000 in
/-- No operation writes an argument's buffer. -/
theorem after_arg0 (V : Valuation τ sig (Elt F)) : after ops V (main_arg0 : DevRef τ sig) = V (main_arg0 : DevRef τ sig) := by
  after_results_simp
set_option maxRecDepth 8192 in
set_option maxHeartbeats 1000000 in
theorem after_arg1 (V : Valuation τ sig (Elt F)) : after ops V (main_arg1 : DevRef τ sig) = V (main_arg1 : DevRef τ sig) := by
  after_results_simp
set_option maxRecDepth 8192 in
set_option maxHeartbeats 1000000 in
theorem after_arg2 (V : Valuation τ sig (Elt F)) : after ops V (main_arg2 : DevRef τ sig) = V (main_arg2 : DevRef τ sig) := by
  after_results_simp
set_option maxRecDepth 8192 in
set_option maxHeartbeats 1000000 in
theorem after_arg3 (V : Valuation τ sig (Elt F)) : after ops V (main_arg3 : DevRef τ sig) = V (main_arg3 : DevRef τ sig) := by
  after_results_simp
set_option maxRecDepth 8192 in
set_option maxHeartbeats 1000000 in
theorem after_arg4 (V : Valuation τ sig (Elt F)) : after ops V (main_arg4 : DevRef τ sig) = V (main_arg4 : DevRef τ sig) := by
  after_results_simp

/-- On the one device, for any float values, from any memory with zero counters: every weakly fair execution of @main
    terminates with the result buffer at the staged value of the arguments' launch contents and the five arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = RefStages.val (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v40).trans (after_v40 _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.RefRun

end
-- ==== Proof.SpecLaws.lean ====
/-
  Laws of the specification's scalar functions on the extended reals: the word of 1.0 is one, and jax's expansion of
  elu z + 1  —  select (z > 0) z (1 * (exp (select (z > 0) 0 z) - 1)) + 1  — is the feature map  phi  at every
  extended real, the two infinities included (below zero  exp z - 1 + 1 = exp z, at the bottom  0 - 1 + 1 = 0).
-/
import proofs.«124907_j60988535603899_2_alg».proof.Proof.Spec
import Idealize.ShloMosaic.PureOps.Ideal.Laws

noncomputable section
namespace Cert.Spec
open Idealize.ShloMosaic

theorem one_f32 : Ideal.ofBits .f32 0x3F800000#32 = 1 := IdealRules.sign_bit.ideal_onePat .f32

/-- exp z - 1 + 1 = exp z for every z that is not above zero (at the bottom: 0 - 1 + 1 = 0). -/
theorem expm1_add_one (z : EReal) (hz : ¬ 0 < z) : 1 * (Ideal.exp z - 1) + 1 = Ideal.exp z := by
  induction z using EReal.rec with
  | bot =>
    simp
    rw [← EReal.coe_one, ← EReal.coe_neg, ← EReal.coe_add]; simp
  | top => exact absurd (EReal.zero_lt_top) hz
  | coe r =>
    rw [Ideal.exp_coe, one_mul]
    rw [← EReal.coe_one, ← EReal.coe_sub, ← EReal.coe_add]
    congr 1; ring

/-- The feature map as jax writes it — select (z > 0) z (1 * expm1 (select (z > 0) 0 z)), then + 1 — is phi. -/
theorem elu_add_one (z : EReal) :
    Scalar.select (Ideal.cmp .ogt z (Ideal.ofBits .f32 0x00000000#32)) z
        (Ideal.ofBits .f32 0x3F800000#32
          * (Ideal.exp (Scalar.select (Ideal.cmp .ogt z (Ideal.ofBits .f32 0x00000000#32)) (Ideal.ofBits .f32 0x00000000#32) z) - 1))
      + Ideal.ofBits .f32 0x3F800000#32 = phi z := by
  unfold phi
  rw [one_f32, Ideal.ofBits_zero_f32]
  by_cases h : 0 < z
  · have hc : Ideal.cmp .ogt z 0 = 1#1 := by simp [Ideal.cmp, h]
    rw [hc]; simp only [ValueIdx.select_one]
  · have hc : Ideal.cmp .ogt z 0 = 0#1 := by simp [Ideal.cmp, h]
    rw [hc]; simp only [ValueIdx.select_zero]
    exact expm1_add_one z h

end Cert.Spec
end
-- ==== Proof.RefRead.lean ====
/-
  The reference's stages read at an index, and each stage identified with the specification's function:
  every contraction as a sum over its one contracted axis, the two host sums, the split of the fused projection
  into queries / keys / values through its five-axis view, the feature map, and linear attention as a whole.
-/
import proofs.«124907_j60988535603899_2_alg».proof.Proof.RefStages
import proofs.«124907_j60988535603899_2_alg».proof.Proof.Spec
import proofs.«124907_j60988535603899_2_alg».proof.Proof.SpecLaws
import Idealize.ShloMosaic.Lib.ValueIdx
import Idealize.ShloMosaic.Lib.ValueLayout
import Idealize.ShloMosaic.Lib.Pipeline.Value
import Idealize.ShloMosaic.PureOps.Ideal.Laws

noncomputable section
namespace Cert.ReferenceIdeal.RefRead
open Idealize.ShloMosaic Idealize.ShloMosaic.ValueIdx Cert.ReferenceIdeal Cert.ReferenceIdeal.Facts₀ Cert.ReferenceIdeal.Facts
open Cert.ReferenceIdeal.RefStages

/-- The input projection at (b, l, d): row (b, l) of the input against row d of the weight. -/
theorem xp_apply (x : FVec Ideal S4x4096x512 .f32) (w : FVec Ideal S1024x512 .f32) (b : Fin 4) (l : Fin 4096) (d : Fin 1024) :
    xp x w (ix3 b l d) = ∑ k : Fin 512, x (ix3 b l k) * w (ix2 d k) := by
  unfold xp
  simp only [Host.dotGeneral]
  rw [Ideal.dotGeneral_apply]
  rw [← Equiv.sum_comp (contrEquiv1 dot_S4x4096x512_S1024x512_S4x4096x1024_2_1_01_0_n_n 512 rfl rfl).symm]
  refine Finset.sum_congr rfl fun k _ => ?_
  have hl : dot_S4x4096x512_S1024x512_S4x4096x1024_2_1_01_0_n_n.lhsIdx (ix3 b l d)
      ((contrEquiv1 dot_S4x4096x512_S1024x512_S4x4096x1024_2_1_01_0_n_n 512 rfl rfl).symm k) = ix3 b l k := by
    funext a; apply Fin.ext
    match a with
    | ⟨0, _⟩ => rfl
    | ⟨1, _⟩ => rfl
    | ⟨2, _⟩ => rfl
  have hr : dot_S4x4096x512_S1024x512_S4x4096x1024_2_1_01_0_n_n.rhsIdx (ix3 b l d)
      ((contrEquiv1 dot_S4x4096x512_S1024x512_S4x4096x1024_2_1_01_0_n_n 512 rfl rfl).symm k) = ix2 d k := by
    funext a; apply Fin.ext
    match a with
    | ⟨0, _⟩ => rfl
    | ⟨1, _⟩ => rfl
  rw [hl, hr]

/-- The fused projection at (b, l, e). -/
theorem qkv_apply (x : FVec Ideal S4x4096x1024 .f32) (w : FVec Ideal S3072x1024 .f32) (b : Fin 4) (l : Fin 4096) (e : Fin 3072) :
    qkv x w (ix3 b l e) = ∑ k : Fin 1024, x (ix3 b l k) * w (ix2 e k) := by
  unfold qkv
  simp only [Host.dotGeneral]
  rw [Ideal.dotGeneral_apply]
  rw [← Equiv.sum_comp (contrEquiv1 dot_S4x4096x1024_S3072x1024_S4x4096x3072_2_1_01_0_n_n 1024 rfl rfl).symm]
  refine Finset.sum_congr rfl fun k _ => ?_
  have hl : dot_S4x4096x1024_S3072x1024_S4x4096x3072_2_1_01_0_n_n.lhsIdx (ix3 b l e)
      ((contrEquiv1 dot_S4x4096x1024_S3072x1024_S4x4096x3072_2_1_01_0_n_n 1024 rfl rfl).symm k) = ix3 b l k := by
    funext a; apply Fin.ext
    match a with
    | ⟨0, _⟩ => rfl
    | ⟨1, _⟩ => rfl
    | ⟨2, _⟩ => rfl
  have hr : dot_S4x4096x1024_S3072x1024_S4x4096x3072_2_1_01_0_n_n.rhsIdx (ix3 b l e)
      ((contrEquiv1 dot_S4x4096x1024_S3072x1024_S4x4096x3072_2_1_01_0_n_n 1024 rfl rfl).symm k) = ix2 e k := by
    funext a; apply Fin.ext
    match a with
    | ⟨0, _⟩ => rfl
    | ⟨1, _⟩ => rfl
  rw [hl, hr]

/-- The output projection at (b, l, e). -/
theorem proj_apply (x : FVec Ideal S4x4096x1024 .f32) (w : FVec Ideal S1024x1024 .f32) (b : Fin 4) (l : Fin 4096) (e : Fin 1024) :
    proj x w (ix3 b l e) = ∑ k : Fin 1024, x (ix3 b l k) * w (ix2 e k) := by
  unfold proj
  simp only [Host.dotGeneral]
  rw [Ideal.dotGeneral_apply]
  rw [← Equiv.sum_comp (contrEquiv1 dot_S4x4096x1024_S1024x1024_S4x4096x1024_2_1_01_0_n_n 1024 rfl rfl).symm]
  refine Finset.sum_congr rfl fun k _ => ?_
  have hl : dot_S4x4096x1024_S1024x1024_S4x4096x1024_2_1_01_0_n_n.lhsIdx (ix3 b l e)
      ((contrEquiv1 dot_S4x4096x1024_S1024x1024_S4x4096x1024_2_1_01_0_n_n 1024 rfl rfl).symm k) = ix3 b l k := by
    funext a; apply Fin.ext
    match a with
    | ⟨0, _⟩ => rfl
    | ⟨1, _⟩ => rfl
    | ⟨2, _⟩ => rfl
  have hr : dot_S4x4096x1024_S1024x1024_S4x4096x1024_2_1_01_0_n_n.rhsIdx (ix3 b l e)
      ((contrEquiv1 dot_S4x4096x1024_S1024x1024_S4x4096x1024_2_1_01_0_n_n 1024 rfl rfl).symm k) = ix2 e k := by
    funext a; apply Fin.ext
    match a with
    | ⟨0, _⟩ => rfl
    | ⟨1, _⟩ => rfl
  rw [hl, hr]

/-- Keys against values, contracted over the positions, per batch and head. -/
theorem kv_apply (x : FVec Ideal S4x16x4096x64 .f32) (w : FVec Ideal S4x16x4096x64 .f32) (b : Fin 4) (h : Fin 16) (d m : Fin 64) :
    kv x w (ix4 b h d m) = ∑ k : Fin 4096, x (ix4 b h k d) * w (ix4 b h k m) := by
  unfold kv
  simp only [Host.dotGeneral]
  rw [Ideal.dotGeneral_apply]
  rw [← Equiv.sum_comp (contrEquiv1 dot_S4x16x4096x64_S4x16x4096x64_S4x16x64x64_2_2_3_3_01_01 4096 rfl rfl).symm]
  refine Finset.sum_congr rfl fun k _ => ?_
  have hl : dot_S4x16x4096x64_S4x16x4096x64_S4x16x64x64_2_2_3_3_01_01.lhsIdx (ix4 b h d m)
      ((contrEquiv1 dot_S4x16x4096x64_S4x16x4096x64_S4x16x64x64_2_2_3_3_01_01 4096 rfl rfl).symm k) = ix4 b h k d := by
    funext a; apply Fin.ext
    match a with
    | ⟨0, _⟩ => rfl
    | ⟨1, _⟩ => rfl
    | ⟨2, _⟩ => rfl
    | ⟨3, _⟩ => rfl
  have hr : dot_S4x16x4096x64_S4x16x4096x64_S4x16x64x64_2_2_3_3_01_01.rhsIdx (ix4 b h d m)
      ((contrEquiv1 dot_S4x16x4096x64_S4x16x4096x64_S4x16x64x64_2_2_3_3_01_01 4096 rfl rfl).symm k) = ix4 b h k m := by
    funext a; apply Fin.ext
    match a with
    | ⟨0, _⟩ => rfl
    | ⟨1, _⟩ => rfl
    | ⟨2, _⟩ => rfl
    | ⟨3, _⟩ => rfl
  rw [hl, hr]

/-- Queries against the key-value matrix, contracted over the features. -/
theorem num_apply (x : FVec Ideal S4x16x4096x64 .f32) (w : FVec Ideal S4x16x64x64 .f32) (b : Fin 4) (h : Fin 16) (l : Fin 4096) (m : Fin 64) :
    num x w (ix4 b h l m) = ∑ k : Fin 64, x (ix4 b h l k) * w (ix4 b h k m) := by
  unfold num
  simp only [Host.dotGeneral]
  rw [Ideal.dotGeneral_apply]
  rw [← Equiv.sum_comp (contrEquiv1 dot_S4x16x4096x64_S4x16x64x64_S4x16x4096x64_3_2_2_3_01_01 64 rfl rfl).symm]
  refine Finset.sum_congr rfl fun k _ => ?_
  have hl : dot_S4x16x4096x64_S4x16x64x64_S4x16x4096x64_3_2_2_3_01_01.lhsIdx (ix4 b h l m)
      ((contrEquiv1 dot_S4x16x4096x64_S4x16x64x64_S4x16x4096x64_3_2_2_3_01_01 64 rfl rfl).symm k) = ix4 b h l k := by
    funext a; apply Fin.ext
    match a with
    | ⟨0, _⟩ => rfl
    | ⟨1, _⟩ => rfl
    | ⟨2, _⟩ => rfl
    | ⟨3, _⟩ => rfl
  have hr : dot_S4x16x4096x64_S4x16x64x64_S4x16x4096x64_3_2_2_3_01_01.rhsIdx (ix4 b h l m)
      ((contrEquiv1 dot_S4x16x4096x64_S4x16x64x64_S4x16x4096x64_3_2_2_3_01_01 64 rfl rfl).symm k) = ix4 b h k m := by
    funext a; apply Fin.ext
    match a with
    | ⟨0, _⟩ => rfl
    | ⟨1, _⟩ => rfl
    | ⟨2, _⟩ => rfl
    | ⟨3, _⟩ => rfl
  rw [hl, hr]

/-- Queries against the summed keys, contracted over the features (the kept unit axis is the summed one). -/
theorem dend_apply (x : FVec Ideal S4x16x4096x64 .f32) (w : FVec Ideal S4x16x1x64 .f32) (b : Fin 4) (h : Fin 16) (l : Fin 4096) (o : Fin 1) :
    Host.dotGeneral dot_S4x16x4096x64_S4x16x1x64_S4x16x4096x1_3_3_2_2_01_01 none x w (ix4 b h l o)
      = ∑ k : Fin 64, x (ix4 b h l k) * w (ix4 b h o k) := by
  simp only [Host.dotGeneral]
  rw [Ideal.dotGeneral_apply]
  rw [← Equiv.sum_comp (contrEquiv1 dot_S4x16x4096x64_S4x16x1x64_S4x16x4096x1_3_3_2_2_01_01 64 rfl rfl).symm]
  refine Finset.sum_congr rfl fun k _ => ?_
  have hl : dot_S4x16x4096x64_S4x16x1x64_S4x16x4096x1_3_3_2_2_01_01.lhsIdx (ix4 b h l o)
      ((contrEquiv1 dot_S4x16x4096x64_S4x16x1x64_S4x16x4096x1_3_3_2_2_01_01 64 rfl rfl).symm k) = ix4 b h l k := by
    funext a; apply Fin.ext
    match a with
    | ⟨0, _⟩ => rfl
    | ⟨1, _⟩ => rfl
    | ⟨2, _⟩ => rfl
    | ⟨3, _⟩ => rfl
  have hr : dot_S4x16x4096x64_S4x16x1x64_S4x16x4096x1_3_3_2_2_01_01.rhsIdx (ix4 b h l o)
      ((contrEquiv1 dot_S4x16x4096x64_S4x16x1x64_S4x16x4096x1_3_3_2_2_01_01 64 rfl rfl).symm k) = ix4 b h o k := by
    funext a; apply Fin.ext
    match a with
    | ⟨0, _⟩ => rfl
    | ⟨1, _⟩ => rfl
    | ⟨2, _⟩ => rfl
    | ⟨3, _⟩ => rfl
  rw [hl, hr]

/-- The host's sum over the positions at (b, h, d). -/
theorem possum_apply (x : FVec Ideal S4x16x4096x64 .f32) (b : Fin 4) (h : Fin 16) (d : Fin 64) :
    Host.reduceAdd x (constant S_ .f32 0x00000000#32) reducesTo_S4x16x4096x64_S4x16x64_d2 h_S_ (ix3 b h d)
      = ∑ l : Fin 4096, x (ix4 b h l d) := by
  unfold Host.reduceAdd
  rw [Ideal.hostReduceAdd_def]
  rw [Ideal.hostReduceAdd_single _ (by decide : S4x16x4096x64.Reduces [2] S4x16x64)]
  show Ideal.ofBits .f32 0x00000000#32 + _ = _
  rw [Ideal.ofBits_zero_f32, zero_add]
  refine Finset.sum_congr rfl fun l _ => congrArg x ?_
  funext a; apply Fin.ext
  match a with
  | ⟨0, _⟩ => rfl
  | ⟨1, _⟩ => rfl
  | ⟨2, _⟩ => rfl
  | ⟨3, _⟩ => rfl

/-- The host's sum over a row's 1024 entries at (b, l). -/
theorem rowsum_apply (x : FVec Ideal S4x4096x1024 .f32) (b : Fin 4) (l : Fin 4096) :
    Host.reduceAdd x (constant S_ .f32 0x00000000#32) reducesTo_S4x4096x1024_S4x4096_d2 h_S_ (ix2 b l)
      = ∑ e : Fin 1024, x (ix3 b l e) := by
  unfold Host.reduceAdd
  rw [Ideal.hostReduceAdd_def]
  rw [Ideal.hostReduceAdd_single _ (by decide : S4x4096x1024.Reduces [2] S4x4096)]
  show Ideal.ofBits .f32 0x00000000#32 + _ = _
  rw [Ideal.ofBits_zero_f32, zero_add]
  refine Finset.sum_congr rfl fun e _ => congrArg x ?_
  funext a; apply Fin.ext
  match a with
  | ⟨0, _⟩ => rfl
  | ⟨1, _⟩ => rfl
  | ⟨2, _⟩ => rfl

/-- Part 0 of the fused projection at (b, h, l, d) is its column 0*1024 + h*64 + d at row (b, l): the unit slice of
    the transposed five-axis view, read back through the two reshapes. -/
theorem prt0_apply (z : FVec Ideal S4x4096x3072 .f32) (b : Fin 4) (h : Fin 16) (l : Fin 4096) (d : Fin 64) :
    prt0 z (ix4 b h l d) = z (ix3 b l (Cert.Spec.col 0 h d)) := by
  have hb := b.isLt; have hh := h.isLt; have hl := l.isLt; have hd := d.isLt
  unfold prt0 tr5
  refine (shapeCast_apply _ _ (ix4 b h l d) (ix5 (0 : Fin 1) b h l d)
    (by rw [Shape.rowMajor_val_five, Shape.rowMajor_val_four]
        show ((((0 : Nat) * 4 + b.val) * 16 + h.val) * 4096 + l.val) * 64 + d.val = ((b.val * 16 + h.val) * 4096 + l.val) * 64 + d.val
        omega)).trans ?_
  refine (extractStridedSlice_apply _ _ _ (ix5 (0 : Fin 1) b h l d) (ix5 (0 : Fin 3) b h l d)
    (fun a => match a with
      | ⟨0, _⟩ => by show (0 : Nat) = 0 + 0; omega
      | ⟨1, _⟩ => by show b.val = 0 + b.val; omega
      | ⟨2, _⟩ => by show h.val = 0 + h.val; omega
      | ⟨3, _⟩ => by show l.val = 0 + l.val; omega
      | ⟨4, _⟩ => by show d.val = 0 + d.val; omega)).trans ?_
  refine (transpose_apply _ _ _ (ix5 (0 : Fin 3) b h l d) (ix5 b l (0 : Fin 3) h d)
    (fun a => match a with
      | ⟨0, _⟩ => rfl
      | ⟨1, _⟩ => rfl
      | ⟨2, _⟩ => rfl
      | ⟨3, _⟩ => rfl
      | ⟨4, _⟩ => rfl)).trans ?_
  exact shapeCast_apply _ _ (ix5 b l (0 : Fin 3) h d) (ix3 b l (Cert.Spec.col 0 h d))
    (by rw [Shape.rowMajor_val_three, Shape.rowMajor_val_five]
        show (b.val * 4096 + l.val) * 3072 + (0 * 1024 + h.val * 64 + d.val) = (((b.val * 4096 + l.val) * 3 + 0) * 16 + h.val) * 64 + d.val
        omega)

/-- Part 1 of the fused projection at (b, h, l, d) is its column 1*1024 + h*64 + d at row (b, l): the unit slice of
    the transposed five-axis view, read back through the two reshapes. -/
theorem prt1_apply (z : FVec Ideal S4x4096x3072 .f32) (b : Fin 4) (h : Fin 16) (l : Fin 4096) (d : Fin 64) :
    prt1 z (ix4 b h l d) = z (ix3 b l (Cert.Spec.col 1 h d)) := by
  have hb := b.isLt; have hh := h.isLt; have hl := l.isLt; have hd := d.isLt
  unfold prt1 tr5
  refine (shapeCast_apply _ _ (ix4 b h l d) (ix5 (0 : Fin 1) b h l d)
    (by rw [Shape.rowMajor_val_five, Shape.rowMajor_val_four]
        show ((((0 : Nat) * 4 + b.val) * 16 + h.val) * 4096 + l.val) * 64 + d.val = ((b.val * 16 + h.val) * 4096 + l.val) * 64 + d.val
        omega)).trans ?_
  refine (extractStridedSlice_apply _ _ _ (ix5 (0 : Fin 1) b h l d) (ix5 (1 : Fin 3) b h l d)
    (fun a => match a with
      | ⟨0, _⟩ => by show (1 : Nat) = 1 + 0; omega
      | ⟨1, _⟩ => by show b.val = 0 + b.val; omega
      | ⟨2, _⟩ => by show h.val = 0 + h.val; omega
      | ⟨3, _⟩ => by show l.val = 0 + l.val; omega
      | ⟨4, _⟩ => by show d.val = 0 + d.val; omega)).trans ?_
  refine (transpose_apply _ _ _ (ix5 (1 : Fin 3) b h l d) (ix5 b l (1 : Fin 3) h d)
    (fun a => match a with
      | ⟨0, _⟩ => rfl
      | ⟨1, _⟩ => rfl
      | ⟨2, _⟩ => rfl
      | ⟨3, _⟩ => rfl
      | ⟨4, _⟩ => rfl)).trans ?_
  exact shapeCast_apply _ _ (ix5 b l (1 : Fin 3) h d) (ix3 b l (Cert.Spec.col 1 h d))
    (by rw [Shape.rowMajor_val_three, Shape.rowMajor_val_five]
        show (b.val * 4096 + l.val) * 3072 + (1 * 1024 + h.val * 64 + d.val) = (((b.val * 4096 + l.val) * 3 + 1) * 16 + h.val) * 64 + d.val
        omega)

/-- Part 2 of the fused projection at (b, h, l, d) is its column 2*1024 + h*64 + d at row (b, l): the unit slice of
    the transposed five-axis view, read back through the two reshapes. -/
theorem prt2_apply (z : FVec Ideal S4x4096x3072 .f32) (b : Fin 4) (h : Fin 16) (l : Fin 4096) (d : Fin 64) :
    prt2 z (ix4 b h l d) = z (ix3 b l (Cert.Spec.col 2 h d)) := by
  have hb := b.isLt; have hh := h.isLt; have hl := l.isLt; have hd := d.isLt
  unfold prt2 tr5
  refine (shapeCast_apply _ _ (ix4 b h l d) (ix5 (0 : Fin 1) b h l d)
    (by rw [Shape.rowMajor_val_five, Shape.rowMajor_val_four]
        show ((((0 : Nat) * 4 + b.val) * 16 + h.val) * 4096 + l.val) * 64 + d.val = ((b.val * 16 + h.val) * 4096 + l.val) * 64 + d.val
        omega)).trans ?_
  refine (extractStridedSlice_apply _ _ _ (ix5 (0 : Fin 1) b h l d) (ix5 (2 : Fin 3) b h l d)
    (fun a => match a with
      | ⟨0, _⟩ => by show (2 : Nat) = 2 + 0; omega
      | ⟨1, _⟩ => by show b.val = 0 + b.val; omega
      | ⟨2, _⟩ => by show h.val = 0 + h.val; omega
      | ⟨3, _⟩ => by show l.val = 0 + l.val; omega
      | ⟨4, _⟩ => by show d.val = 0 + d.val; omega)).trans ?_
  refine (transpose_apply _ _ _ (ix5 (2 : Fin 3) b h l d) (ix5 b l (2 : Fin 3) h d)
    (fun a => match a with
      | ⟨0, _⟩ => rfl
      | ⟨1, _⟩ => rfl
      | ⟨2, _⟩ => rfl
      | ⟨3, _⟩ => rfl
      | ⟨4, _⟩ => rfl)).trans ?_
  exact shapeCast_apply _ _ (ix5 b l (2 : Fin 3) h d) (ix3 b l (Cert.Spec.col 2 h d))
    (by rw [Shape.rowMajor_val_three, Shape.rowMajor_val_five]
        show (b.val * 4096 + l.val) * 3072 + (2 * 1024 + h.val * 64 + d.val) = (((b.val * 4096 + l.val) * 3 + 2) * 16 + h.val) * 64 + d.val
        omega)

/-! ## The stages as the specification's functions -/

/-- jax's expansion of  elu z + 1  is the feature map, entry by entry. -/
theorem elu1_apply (z : FVec Ideal S4x16x4096x64 .f32) (i : S4x16x4096x64.Idx) : elu1 z i = Cert.Spec.phi (z i) :=
  Cert.Spec.elu_add_one (z i)

/-- The summed keys with the kept unit axis, at (b, h, 0, d). -/
theorem ksum_apply (kf : FVec Ideal S4x16x4096x64 .f32) (b : Fin 4) (h : Fin 16) (o : Fin 1) (d : Fin 64) :
    ksum kf (ix4 b h o d) = ∑ l : Fin 4096, kf (ix4 b h l d) := by
  unfold ksum
  refine (broadcastInDim_apply _ _ _ (ix4 b h o d) (ix3 b h d)
    (fun a => match a with
      | ⟨0, _⟩ => rfl
      | ⟨1, _⟩ => rfl
      | ⟨2, _⟩ => rfl)).trans ?_
  exact possum_apply kf b h d

/-- The normaliser at (b, h, l, m): queries against the summed keys plus the small constant, the same for every m. -/
theorem den_apply (qf : FVec Ideal S4x16x4096x64 .f32) (ks : FVec Ideal S4x16x1x64 .f32) (b : Fin 4) (h : Fin 16) (l : Fin 4096) (m : Fin 64) :
    den qf ks (ix4 b h l m) = (∑ k : Fin 64, qf (ix4 b h l k) * ks (ix4 b h (0 : Fin 1) k)) + Ideal.ofBits .f32 0x322BCC77#32 := by
  unfold den
  refine (broadcastInDim_apply _ _ _ (ix4 b h l m) (ix4 b h l (0 : Fin 1))
    (fun a => match a with
      | ⟨0, _⟩ => rfl
      | ⟨1, _⟩ => rfl
      | ⟨2, _⟩ => rfl
      | ⟨3, _⟩ => rfl)).trans ?_
  show Host.dotGeneral dot_S4x16x4096x64_S4x16x1x64_S4x16x4096x1_3_3_2_2_01_01 none qf ks (ix4 b h l (0 : Fin 1)) + Ideal.ofBits .f32 0x322BCC77#32 = _
  rw [dend_apply]

/-- Linear attention as the reference computes it is the specification's, on any three parts. -/
theorem attention_eq (q k v : FVec Ideal S4x16x4096x64 .f32) : attention q k v = Cert.Spec.attn q k v := by
  funext i
  obtain ⟨b, h, l, m, rfl⟩ : ∃ (b : Fin 4) (h : Fin 16) (l : Fin 4096) (m : Fin 64), i = ix4 b h l m := ⟨i 0, i 1, i 2, i 3, eq_ix4 i⟩
  show Ideal.div (num (elu1 q) (kv (elu1 k) v) (ix4 b h l m)) (den (elu1 q) (ksum (elu1 k)) (ix4 b h l m)) = Cert.Spec.attnC q k v b h l m
  rw [num_apply, den_apply]
  unfold Cert.Spec.attnC Cert.Spec.kvC Cert.Spec.ksumC
  simp only [kv_apply, ksum_apply, elu1_apply]

/-! ## The two projections as the specification's -/

/-- The input projection at (b, l, d), for any array  w1  that is the weight transposed. -/
theorem xp_spec (x : FVec Ideal S4x4096x512 .f32) (w_in : FVec Ideal S1024x512 .f32) (w1 : Cert.Spec.T2 512 1024)
    (hw1 : ∀ (k : Fin 512) (d : Fin 1024), w1 (ix2 k d) = w_in (ix2 d k)) (b : Fin 4) (l : Fin 4096) (d : Fin 1024) :
    xp x w_in (ix3 b l d) = Cert.Spec.xprojC x w1 b l d := by
  rw [xp_apply]
  unfold Cert.Spec.xprojC
  exact Finset.sum_congr rfl fun k _ => by rw [hw1]

theorem xp_eq (x : FVec Ideal S4x4096x512 .f32) (w_in : FVec Ideal S1024x512 .f32) (w1 : Cert.Spec.T2 512 1024)
    (hw1 : ∀ (k : Fin 512) (d : Fin 1024), w1 (ix2 k d) = w_in (ix2 d k)) : xp x w_in = Cert.Spec.xproj x w1 := by
  funext i
  obtain ⟨b, l, d, rfl⟩ : ∃ (b : Fin 4) (l : Fin 4096) (d : Fin 1024), i = ix3 b l d := ⟨i 0, i 1, i 2, eq_ix3 i⟩
  exact xp_spec x w_in w1 hw1 b l d

/-- Part 0 of the fused projection of the projected input is the specification's part 0. -/
theorem prt0_eq (x : FVec Ideal S4x4096x512 .f32) (w_in : FVec Ideal S1024x512 .f32) (w_qkv : FVec Ideal S3072x1024 .f32)
    (w1 : Cert.Spec.T2 512 1024) (w3 : Cert.Spec.T2 1024 3072)
    (hw1 : ∀ (k : Fin 512) (d : Fin 1024), w1 (ix2 k d) = w_in (ix2 d k))
    (hw3 : ∀ (d : Fin 1024) (e : Fin 3072), w3 (ix2 d e) = w_qkv (ix2 e d)) :
    prt0 (qkv (xp x w_in) w_qkv) = Cert.Spec.part 0 x w1 w3 := by
  funext i
  obtain ⟨b, h, l, d, rfl⟩ : ∃ (b : Fin 4) (h : Fin 16) (l : Fin 4096) (d : Fin 64), i = ix4 b h l d := ⟨i 0, i 1, i 2, i 3, eq_ix4 i⟩
  rw [prt0_apply, qkv_apply]
  show _ = Cert.Spec.qkvC x w1 w3 b l (Cert.Spec.col 0 h d)
  unfold Cert.Spec.qkvC
  exact Finset.sum_congr rfl fun k _ => by rw [xp_spec x w_in w1 hw1, hw3]

/-- Part 1 of the fused projection of the projected input is the specification's part 1. -/
theorem prt1_eq (x : FVec Ideal S4x4096x512 .f32) (w_in : FVec Ideal S1024x512 .f32) (w_qkv : FVec Ideal S3072x1024 .f32)
    (w1 : Cert.Spec.T2 512 1024) (w3 : Cert.Spec.T2 1024 3072)
    (hw1 : ∀ (k : Fin 512) (d : Fin 1024), w1 (ix2 k d) = w_in (ix2 d k))
    (hw3 : ∀ (d : Fin 1024) (e : Fin 3072), w3 (ix2 d e) = w_qkv (ix2 e d)) :
    prt1 (qkv (xp x w_in) w_qkv) = Cert.Spec.part 1 x w1 w3 := by
  funext i
  obtain ⟨b, h, l, d, rfl⟩ : ∃ (b : Fin 4) (h : Fin 16) (l : Fin 4096) (d : Fin 64), i = ix4 b h l d := ⟨i 0, i 1, i 2, i 3, eq_ix4 i⟩
  rw [prt1_apply, qkv_apply]
  show _ = Cert.Spec.qkvC x w1 w3 b l (Cert.Spec.col 1 h d)
  unfold Cert.Spec.qkvC
  exact Finset.sum_congr rfl fun k _ => by rw [xp_spec x w_in w1 hw1, hw3]

/-- Part 2 of the fused projection of the projected input is the specification's part 2. -/
theorem prt2_eq (x : FVec Ideal S4x4096x512 .f32) (w_in : FVec Ideal S1024x512 .f32) (w_qkv : FVec Ideal S3072x1024 .f32)
    (w1 : Cert.Spec.T2 512 1024) (w3 : Cert.Spec.T2 1024 3072)
    (hw1 : ∀ (k : Fin 512) (d : Fin 1024), w1 (ix2 k d) = w_in (ix2 d k))
    (hw3 : ∀ (d : Fin 1024) (e : Fin 3072), w3 (ix2 d e) = w_qkv (ix2 e d)) :
    prt2 (qkv (xp x w_in) w_qkv) = Cert.Spec.part 2 x w1 w3 := by
  funext i
  obtain ⟨b, h, l, d, rfl⟩ : ∃ (b : Fin 4) (h : Fin 16) (l : Fin 4096) (d : Fin 64), i = ix4 b h l d := ⟨i 0, i 1, i 2, i 3, eq_ix4 i⟩
  rw [prt2_apply, qkv_apply]
  show _ = Cert.Spec.qkvC x w1 w3 b l (Cert.Spec.col 2 h d)
  unfold Cert.Spec.qkvC
  exact Finset.sum_congr rfl fun k _ => by rw [xp_spec x w_in w1 hw1, hw3]

/-! ## The tail: output projection, residual, root-mean-square normalisation -/

/-- Row (b, l) of a (4, 4096, ·) array is row  b*4096 + l  of its (16384, ·) reshape. -/
def row (b : Fin 4) (l : Fin 4096) : Fin 16384 := ⟨b.val * 4096 + l.val, by have := b.isLt; have := l.isLt; omega⟩

/-- The projected attention plus the residual at (b, l, e) is the specification's  Y  at row  b*4096 + l, for any
    arrays that are the flattened operands (A, RES), the transposed weight (W). -/
theorem ysum_apply (fl xpv : FVec Ideal S4x4096x1024 .f32) (w_out : FVec Ideal S1024x1024 .f32)
    (A RES : Cert.Spec.T2 16384 1024) (W : Cert.Spec.T2 1024 1024)
    (hA : ∀ (b : Fin 4) (l : Fin 4096) (k : Fin 1024), A (ix2 (row b l) k) = fl (ix3 b l k))
    (hW : ∀ (k e : Fin 1024), W (ix2 k e) = w_out (ix2 e k))
    (hR : ∀ (b : Fin 4) (l : Fin 4096) (e : Fin 1024), RES (ix2 (row b l) e) = xpv (ix3 b l e))
    (b : Fin 4) (l : Fin 4096) (e : Fin 1024) :
    ysum (proj fl w_out) xpv (ix3 b l e) = Cert.Spec.yC A W RES (row b l) e := by
  show proj fl w_out (ix3 b l e) + xpv (ix3 b l e) = _
  rw [proj_apply]
  unfold Cert.Spec.yC
  rw [hR]
  refine congrArg (· + xpv (ix3 b l e)) (Finset.sum_congr rfl fun k _ => ?_)
  rw [hA, hW]

/-- The normalised, scaled output at (b, l, e) in terms of the row's entries. -/
theorem outp_apply (y : FVec Ideal S4x4096x1024 .f32) (nw : FVec Ideal S1024 .f32) (b : Fin 4) (l : Fin 4096) (e : Fin 1024) :
    outp y nw (ix3 b l e)
      = y (ix3 b l e)
        * Ideal.rsqrt (Ideal.div (∑ e' : Fin 1024, y (ix3 b l e') * y (ix3 b l e')) (Ideal.ofBits .f32 0x44800000#32)
            + Ideal.ofBits .f32 0x34000000#32)
        * nw (ix1 e) := by
  unfold outp
  have h1 : (broadcastInDim S4x4096x1024 ![0, 1, 2] bcast_S1x1x1024_S4x4096x1024_0_1_2
      (broadcastInDim S1x1x1024 ![2] bcast_S1024_S1x1x1024_2 nw)) (ix3 b l e) = nw (ix1 e) := by
    refine (broadcastInDim_apply _ _ _ (ix3 b l e) (ix3 (0 : Fin 1) (0 : Fin 1) e)
      (fun a => match a with
        | ⟨0, _⟩ => rfl
        | ⟨1, _⟩ => rfl
        | ⟨2, _⟩ => rfl)).trans ?_
    exact broadcastInDim_apply _ _ _ (ix3 (0 : Fin 1) (0 : Fin 1) e) (ix1 e)
      (fun a => match a with
        | ⟨0, _⟩ => rfl)
  have h2 : ∀ (g : FVec Ideal S4x4096x1 .f32),
      (broadcastInDim S4x4096x1024 ![0, 1, 2] bcast_S4x4096x1_S4x4096x1024_0_1_2 g) (ix3 b l e) = g (ix3 b l (0 : Fin 1)) := fun g =>
    broadcastInDim_apply _ _ _ (ix3 b l e) (ix3 b l (0 : Fin 1))
      (fun a => match a with
        | ⟨0, _⟩ => rfl
        | ⟨1, _⟩ => rfl
        | ⟨2, _⟩ => rfl)
  have h3 : ∀ (g : FVec Ideal S4x4096 .f32),
      (broadcastInDim S4x4096x1 ![0, 1] bcast_S4x4096_S4x4096x1_0_1 g) (ix3 b l (0 : Fin 1)) = g (ix2 b l) := fun g =>
    broadcastInDim_apply _ _ _ (ix3 b l (0 : Fin 1)) (ix2 b l)
      (fun a => match a with
        | ⟨0, _⟩ => rfl
        | ⟨1, _⟩ => rfl)
  rw [mulf_apply, mulf_apply, h1, h2]
  show y (ix3 b l e) * Ideal.rsqrt (Ideal.div
      ((broadcastInDim S4x4096x1 ![0, 1] bcast_S4x4096_S4x4096x1_0_1
        (Host.reduceAdd (mulf y y) (constant S_ .f32 0x00000000#32) reducesTo_S4x4096x1024_S4x4096_d2 h_S_)) (ix3 b l (0 : Fin 1)))
      (Ideal.ofBits .f32 0x44800000#32) + Ideal.ofBits .f32 0x34000000#32) * nw (ix1 e) = _
  rw [h3, rowsum_apply]
  rfl

/-- The reference's tail at (b, l, e) is the specification's output at row  b*4096 + l, column e. -/
theorem tail_apply (fl xpv : FVec Ideal S4x4096x1024 .f32) (w_out : FVec Ideal S1024x1024 .f32) (nw : FVec Ideal S1024 .f32)
    (A RES : Cert.Spec.T2 16384 1024) (W : Cert.Spec.T2 1024 1024) (NW : Cert.Spec.T2 1 1024)
    (hA : ∀ (b : Fin 4) (l : Fin 4096) (k : Fin 1024), A (ix2 (row b l) k) = fl (ix3 b l k))
    (hW : ∀ (k e : Fin 1024), W (ix2 k e) = w_out (ix2 e k))
    (hR : ∀ (b : Fin 4) (l : Fin 4096) (e : Fin 1024), RES (ix2 (row b l) e) = xpv (ix3 b l e))
    (hN : ∀ e : Fin 1024, NW (ix2 (0 : Fin 1) e) = nw (ix1 e))
    (b : Fin 4) (l : Fin 4096) (e : Fin 1024) :
    outp (ysum (proj fl w_out) xpv) nw (ix3 b l e) = Cert.Spec.fin A W RES NW (ix2 (row b l) e) := by
  rw [outp_apply]
  show _ = Cert.Spec.finC A W RES NW (row b l) e
  unfold Cert.Spec.finC
  simp only [ysum_apply fl xpv w_out A RES W hA hW hR, hN]

end Cert.ReferenceIdeal.RefRead
end
-- ==== Proof.Bridge.lean ====
/-
  The two programs compute one function: the reference's result, stage by stage, is the kernel program's closed
  expression, index by index over the extended reals.

  Each kernel-side weight is the reference's weight transposed, so a contraction against the weight's second axis is
  the contraction against the transposed weight's first; the split of the fused projection into queries, keys and
  values is the same column arithmetic on both sides; jax's expansion of  elu z + 1  is the kernel's feature map;
  linear attention is the same three contractions and one sum; the raw reshape of the attention output to rows is one
  reshape on the reference's side and two on the kernel's, the same row-major positions; and the tail (output
  projection, residual, root-mean-square normalisation, scale) is read row by row:  row (b, l) of the (4, 4096, 1024)
  view is row  b*4096 + l  of the (16384, 1024) view.
-/
import proofs.«124907_j60988535603899_2_alg».proof.Proof.KVal
import proofs.«124907_j60988535603899_2_alg».proof.Proof.RefRead

noncomputable section

namespace Cert.Bridge

open Idealize.ShloMosaic Idealize.ShloMosaic.ValueIdx
open Cert.ReferenceIdeal.RefStages Cert.ReferenceIdeal.RefRead Cert.KernelIdeal.KVal

/-- The kernel's first weight at (k, d) is the reference's at (d, k). -/
theorem wIn_apply (w_in : FVec Ideal Cert.ReferenceIdeal.S1024x512 .f32) (k : Fin 512) (d : Fin 1024) :
    wIn w_in (ix2 k d) = w_in (ix2 d k) :=
  transpose_ix2_apply w_in _ k d

/-- The kernel's second weight at (d, e) is the reference's at (e, d). -/
theorem wQkv_apply (w_qkv : FVec Ideal Cert.ReferenceIdeal.S3072x1024 .f32) (d : Fin 1024) (e : Fin 3072) :
    wQkv w_qkv (ix2 d e) = w_qkv (ix2 e d) :=
  transpose_ix2_apply w_qkv _ d e

/-- The kernel's output weight at (k, e) is the reference's at (e, k). -/
theorem wOut_apply (w_out : FVec Ideal Cert.ReferenceIdeal.S1024x1024 .f32) (k e : Fin 1024) :
    wOut w_out (ix2 k e) = w_out (ix2 e k) :=
  transpose_ix2_apply w_out _ k e

/-- The reference's result is the kernel program's closed expression of the same five arguments. -/
theorem val_eq_kval (x : FVec Ideal Cert.ReferenceIdeal.S4x4096x512 .f32) (w_in : FVec Ideal Cert.ReferenceIdeal.S1024x512 .f32)
    (w_qkv : FVec Ideal Cert.ReferenceIdeal.S3072x1024 .f32) (w_out : FVec Ideal Cert.ReferenceIdeal.S1024x1024 .f32)
    (nw : FVec Ideal Cert.ReferenceIdeal.S1024 .f32) :
    Cert.ReferenceIdeal.RefStages.val (F := Ideal) x w_in w_qkv w_out nw = kval x w_in w_qkv w_out nw := by
  funext i
  obtain ⟨b, l, e, rfl⟩ : ∃ (b : Fin 4) (l : Fin 4096) (e : Fin 1024), i = ix3 b l e := ⟨i 0, i 1, i 2, eq_ix3 i⟩
  unfold Cert.ReferenceIdeal.RefStages.val kval
  rw [prt0_eq x w_in w_qkv (wIn w_in) (wQkv w_qkv) (wIn_apply w_in) (wQkv_apply w_qkv),
    prt1_eq x w_in w_qkv (wIn w_in) (wQkv w_qkv) (wIn_apply w_in) (wQkv_apply w_qkv),
    prt2_eq x w_in w_qkv (wIn w_in) (wQkv w_qkv) (wIn_apply w_in) (wQkv_apply w_qkv), attention_eq]
  refine Eq.trans ?_ (shapeCast_apply _ _ (ix3 b l e) (ix2 (row b l) e)
    (by rw [Shape.rowMajor_val_three, Shape.rowMajor_val_two]; rfl)).symm
  refine tail_apply _ (xp x w_in) w_out nw _ _ _ _ ?hA (wOut_apply w_out) ?hR ?hN b l e
  case hA =>
    intro b l k
    exact shapeCast_apply _ _ (ix2 (row b l) k) (ix3 b l k)
      (by rw [Shape.rowMajor_val_three, Shape.rowMajor_val_two]; rfl)
  case hR =>
    intro b l e
    refine (shapeCast_apply _ _ (ix2 (row b l) e) (ix3 b l e)
      (by rw [Shape.rowMajor_val_three, Shape.rowMajor_val_two]; rfl)).trans ?_
    exact (xp_spec x w_in (wIn w_in) (wIn_apply w_in) b l e).symm
  case hN =>
    intro e
    exact shapeCast_apply _ _ (ix2 (0 : Fin 1) e) (ix1 e)
      (by rw [Shape.rowMajor_val_one, Shape.rowMajor_val_two]; show e.val = 0 * 1024 + e.val; omega)

end Cert.Bridge

end
-- ==== Proof.lean ====
/-
  A fused linear-attention pipeline against its jnp reference, over the extended reals.

  The kernel program is three pipelined regions among a few host layout operations.  Region 0 multiplies each tile of
  512 input rows by the transposed input weight (the projected input, kept as the residual) and that product by the
  transposed fused weight, and writes the three head-major parts (queries, keys, values) one head at a time.
  Region 1, per batch and head, applies the feature map  phi z = elu z + 1  to queries and keys, contracts the keys
  against the values over the 4096 positions, the queries against that 64 x 64 matrix, sums the keys over the positions,
  and divides by the queries' product with that sum plus a small constant.  After the raw reshape of
  (4, 16, 4096, 64) to rows, region 2 multiplies each tile of 512 rows by the transposed output weight, adds the
  residual, and scales every row by the reciprocal root of its mean square (plus the format's epsilon) and by the
  weight vector.  The reference computes the same with einsums, jax's expansion of  elu, a five-axis transpose for the
  split, and whole-array reductions.

  Over the extended reals a change of float format is the identity, a matrix product into a zero accumulator and a
  host contraction are the same finite sum, and a lane sum and a host sum are the same finite sum; no contraction is
  split across grid points, so the two programs differ only in layout and in the spelling of the feature map:
  below zero  1 * (exp z - 1) + 1 = exp z  (at the bottom  0 - 1 + 1 = 0), so jax's expansion is  phi  at every
  extended real.  The claim therefore needs no finiteness of the inputs, and the precondition is never opened.

  The parts:  Spec (the mathematics as one function per region), SpecLaws (the feature map's two spellings),
  Proj / Attn / Final (what each region leaves in its output arrays is the specification's function of the arrays it
  finds), KRun and KVal (the kernel program's run, its result the composition of the three), RefStages / RefRun /
  RefRead (the reference's run, and its stages read at an index), Bridge (the two closed expressions are one function).
  The ideal pass rewrote nothing, so the idealization claim is trivial; the three frames are the generated frames of
  the two kernel programs and the reference's run with its result dropped.
-/
import proofs.«124907_j60988535603899_2_alg».proof.Defs
import proofs.«124907_j60988535603899_2_alg».proof.Proof.Gen.Kernel
import proofs.«124907_j60988535603899_2_alg».proof.Proof.Gen.Kernel.Skeleton
import proofs.«124907_j60988535603899_2_alg».proof.Proof.Gen.Kernel.Launch
import proofs.«124907_j60988535603899_2_alg».proof.Proof.Gen.Kernel.Points
import proofs.«124907_j60988535603899_2_alg».proof.Proof.Gen.Kernel.Frame
import proofs.«124907_j60988535603899_2_alg».proof.Proof.Gen.KernelIdeal
import proofs.«124907_j60988535603899_2_alg».proof.Proof.Gen.KernelIdeal.Skeleton
import proofs.«124907_j60988535603899_2_alg».proof.Proof.Gen.KernelIdeal.Launch
import proofs.«124907_j60988535603899_2_alg».proof.Proof.Gen.KernelIdeal.Points
import proofs.«124907_j60988535603899_2_alg».proof.Proof.Gen.KernelIdeal.Frame
import proofs.«124907_j60988535603899_2_alg».proof.Proof.Gen.ReferenceIdeal
import proofs.«124907_j60988535603899_2_alg».proof.Proof.Gen.Pre_finite_inputs
import proofs.«124907_j60988535603899_2_alg».proof.Proof.Proj
import proofs.«124907_j60988535603899_2_alg».proof.Proof.Attn
import proofs.«124907_j60988535603899_2_alg».proof.Proof.Final
import proofs.«124907_j60988535603899_2_alg».proof.Proof.KVal
import proofs.«124907_j60988535603899_2_alg».proof.Proof.RefRun
import proofs.«124907_j60988535603899_2_alg».proof.Proof.Bridge
import Idealize.ShloMosaic.Adequacy
import Idealize.ShloMosaic.Init

noncomputable section

namespace Cert.Proof

open Idealize.ShloMosaic Idealize.SL.Sem

/-- The word-level kernel program runs and leaves its arguments unchanged: its generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the five arguments both programs run, and both results are the one closed expression
    of those arguments: the kernel's by its three regions' closed forms composed, the reference's by its stages
    read at an index. -/
theorem algebraic : Cert.algebraic_KernelIdeal_ReferenceIdeal := by
  intro m ρ m' ρ' _ hagree
  refine ⟨_, Cert.KernelIdeal.KVal.run_kval Cert.KernelIdeal.Proj.final3 Cert.KernelIdeal.Proj.final4
    Cert.KernelIdeal.Proj.final5 Cert.KernelIdeal.Proj.final6 Cert.KernelIdeal.Attn.final Cert.KernelIdeal.Final.final m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.Bridge.val_eq_kval _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
